-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x3 : Shape := ⟨2, ![300000, 3]⟩
abbrev S2000x256 : Shape := ⟨2, ![2000, 256]⟩
abbrev S100000x256 : Shape := ⟨2, ![100000, 256]⟩
abbrev S50000x256 : Shape := ⟨2, ![50000, 256]⟩
abbrev S1x512 : Shape := ⟨2, ![1, 512]⟩
abbrev S1 : Shape := ⟨1, ![1]⟩
abbrev S512x256 : Shape := ⟨2, ![512, 256]⟩
abbrev S_ : Shape := ⟨0, ![]⟩

class Facts : Prop where
  bcast_S_S2000x256 : S_.BroadcastsInDim S2000x256 (![] : Fin 0 → Fin S2000x256.rank)
  reducesTo_S2000x256_S_d0_1 : S2000x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S50000x256 : S_.BroadcastsInDim S50000x256 (![] : Fin 0 → Fin S50000x256.rank)
  reducesTo_S50000x256_S_d0_1 : S50000x256.ReducesTo [0, 1] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg5 : FVec F S1 .f32) (main_arg6 : FVec F S512x256 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  main_v28

def fn {F : FTy → Type} [FloatOps F] (main_arg0 : IVec S300000x3 32) (main_arg1 : FVec F S2000x256 .f32) (main_arg2 : FVec F S100000x256 .f32) (main_arg3 : FVec F S50000x256 .f32) (main_arg4 : FVec F S1x512 .f32) (main_arg5 : FVec F S1 .f32) (main_arg6 : FVec F S512x256 .f32) : IVec S_ 1 :=
  let main_v0 : FVec F S2000x256 .f32 := Host.absf main_arg1
  let main_cst : FVec F S_ .f32 := constant S_ .f32 0x7F800000#32
  let main_v1 : FVec F S2000x256 .f32 := broadcastInDim S2000x256 ![] bcast_S_S2000x256 main_cst
  let main_v2 : IVec S2000x256 1 := cmpf .olt main_v0 main_v1
  let main_c : IVec S_ 1 := constantI S_ 1 1#1
  let main_v3 : IVec S_ 1 := (fun x v => Host.reduce IntOp.andi x v reducesTo_S2000x256_S_d0_1 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S50000x256 .f32 := Host.absf main_arg3
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S1x512 .f32 := Host.absf main_arg4
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg5 main_arg6 main_v13 main_v16
-- ==== Kernel.lean ====
abbrev S300000x3 : Shape := ⟨2, ![300000, 3]⟩
abbrev S2000x256 : Shape := ⟨2, ![2000, 256]⟩
abbrev S100000x256 : Shape := ⟨2, ![100000, 256]⟩
abbrev S50000x256 : Shape := ⟨2, ![50000, 256]⟩
abbrev S1x512 : Shape := ⟨2, ![1, 512]⟩
abbrev S1 : Shape := ⟨1, ![1]⟩
abbrev S512x256 : Shape := ⟨2, ![512, 256]⟩
abbrev S300000x1 : Shape := ⟨2, ![300000, 1]⟩
abbrev S300000 : Shape := ⟨1, ![300000]⟩
abbrev S_ : Shape := ⟨0, ![]⟩
abbrev S300000x256 : Shape := ⟨2, ![300000, 256]⟩
abbrev S301056x256 : Shape := ⟨2, ![301056, 256]⟩
abbrev S301056 : Shape := ⟨1, ![301056]⟩
abbrev S1x256 : Shape := ⟨2, ![1, 256]⟩
abbrev S1x1 : Shape := ⟨2, ![1, 1]⟩
abbrev S256x256 : Shape := ⟨2, ![256, 256]⟩
abbrev S301056x1 : Shape := ⟨2, ![301056, 1]⟩
abbrev S2048x256 : Shape := ⟨2, ![2048, 256]⟩
abbrev S2048x1 : Shape := ⟨2, ![2048, 1]⟩
abbrev S2048 : Shape := ⟨1, ![2048]⟩
abbrev S50000 : Shape := ⟨1, ![50000]⟩

abbrev nBuf : Space → Nat
  | .hbm => 110
  | .vmem => 15
  | .smem => 0
  | _ => 0

abbrev bufTy : (tb : Table) → Fin (tcTables nBuf tb) → BufTy
  | .hbm, ⟨0, _⟩ => ⟨S300000x3, .i32⟩
  | .hbm, ⟨1, _⟩ => ⟨S2000x256, .f32⟩
  | .hbm, ⟨2, _⟩ => ⟨S100000x256, .f32⟩
  | .hbm, ⟨3, _⟩ => ⟨S50000x256, .f32⟩
  | .hbm, ⟨4, _⟩ => ⟨S1x512, .f32⟩
  | .hbm, ⟨5, _⟩ => ⟨S1, .f32⟩
  | .hbm, ⟨6, _⟩ => ⟨S512x256, .f32⟩
  | .hbm, ⟨7, _⟩ => ⟨S300000x1, .i32⟩
  | .hbm, ⟨8, _⟩ => ⟨S300000, .i32⟩
  | .hbm, ⟨9, _⟩ => ⟨S300000x1, .i32⟩
  | .hbm, ⟨10, _⟩ => ⟨S300000, .i32⟩
  | .hbm, ⟨11, _⟩ => ⟨S300000x1, .i32⟩
  | .hbm, ⟨12, _⟩ => ⟨S300000, .i32⟩
  | .hbm, ⟨13, _⟩ => ⟨S_, .i32⟩
  | .hbm, ⟨14, _⟩ => ⟨S300000, .i32⟩
  | .hbm, ⟨15, _⟩ => ⟨S300000, .i1⟩
  | .hbm, ⟨16, _⟩ => ⟨S_, .i32⟩
  | .hbm, ⟨17, _⟩ => ⟨S300000, .i32⟩
  | .hbm, ⟨18, _⟩ => ⟨S300000, .i32⟩
  | .hbm, ⟨19, _⟩ => ⟨S300000, .i32⟩
  | .hbm, ⟨20, _⟩ => ⟨S300000x1, .i32⟩
  | .hbm, ⟨21, _⟩ => ⟨S300000x256, .f32⟩
  | .hbm, ⟨22, _⟩ => ⟨S_, .i32⟩
  | .hbm, ⟨23, _⟩ => ⟨S300000, .i32⟩
  | .hbm, ⟨24, _⟩ => ⟨S300000, .i1⟩
  | .hbm, ⟨25, _⟩ => ⟨S_, .i32⟩
  | .hbm, ⟨26, _⟩ => ⟨S300000, .i32⟩
  | .hbm, ⟨27, _⟩ => ⟨S300000, .i32⟩
  | .hbm, ⟨28, _⟩ => ⟨S300000, .i32⟩
  | .hbm, ⟨29, _⟩ => ⟨S300000x1, .i32⟩
  | .hbm, ⟨30, _⟩ => ⟨S300000x256, .f32⟩
  | .hbm, ⟨31, _⟩ => ⟨S100000x256, .bf16⟩
  | .hbm, ⟨32, _⟩ => ⟨S_, .i32⟩
  | .hbm, ⟨33, _⟩ => ⟨S300000, .i32⟩
  | .hbm, ⟨34, _⟩ => ⟨S300000, .i1⟩
  | .hbm, ⟨35, _⟩ => ⟨S_, .i32⟩
  | .hbm, ⟨36, _⟩ => ⟨S300000, .i32⟩
  | .hbm, ⟨37, _⟩ => ⟨S300000, .i32⟩
  | .hbm, ⟨38, _⟩ => ⟨S300000, .i32⟩
  | .hbm, ⟨39, _⟩ => ⟨S300000x1, .i32⟩
  | .hbm, ⟨40, _⟩ => ⟨S300000x256, .bf16⟩
  | .hbm, ⟨41, _⟩ => ⟨S_, .i32⟩
  | .hbm, ⟨42, _⟩ => ⟨S_, .f32⟩
  | .hbm, ⟨43, _⟩ => ⟨S301056x256, .f32⟩
  | .hbm, ⟨44, _⟩ => ⟨S_, .i32⟩
  | .hbm, ⟨45, _⟩ => ⟨S_, .f32⟩
  | .hbm, ⟨46, _⟩ => ⟨S301056x256, .f32⟩
  | .hbm, ⟨47, _⟩ => ⟨S_, .i32⟩
  | .hbm, ⟨48, _⟩ => ⟨S_, .bf16⟩
  | .hbm, ⟨49, _⟩ => ⟨S301056x256, .bf16⟩
  | .hbm, ⟨50, _⟩ => ⟨S_, .i32⟩
  | .hbm, ⟨51, _⟩ => ⟨S_, .i32⟩
  | .hbm, ⟨52, _⟩ => ⟨S301056, .i32⟩
  | .hbm, ⟨53, _⟩ => ⟨S301056, .i32⟩
  | .hbm, ⟨54, _⟩ => ⟨S_, .i32⟩
  | .hbm, ⟨55, _⟩ => ⟨S301056, .i32⟩
  | .hbm, ⟨56, _⟩ => ⟨S301056, .i1⟩
  | .hbm, ⟨57, _⟩ => ⟨S1x256, .f32⟩
  | .hbm, ⟨58, _⟩ => ⟨S1x256, .f32⟩
  | .hbm, ⟨59, _⟩ => ⟨S1x1, .f32⟩
  | .hbm, ⟨60, _⟩ => ⟨S256x256, .f32⟩
  | .hbm, ⟨61, _⟩ => ⟨S256x256, .f32⟩
  | .hbm, ⟨62, _⟩ => ⟨S301056x1, .f32⟩
  | .hbm, ⟨63, _⟩ => ⟨S301056x256, .f32⟩
  | .hbm, ⟨64, _⟩ => ⟨S301056, .f32⟩
  | .hbm, ⟨65, _⟩ => ⟨S_, .f32⟩
  | .hbm, ⟨66, _⟩ => ⟨S_, .f32⟩
  | .hbm, ⟨67, _⟩ => ⟨S301056, .f32⟩
  | .hbm, ⟨68, _⟩ => ⟨S301056, .f32⟩
  | .hbm, ⟨69, _⟩ => ⟨S_, .f32⟩
  | .hbm, ⟨70, _⟩ => ⟨S50000, .f32⟩
  | .hbm, ⟨71, _⟩ => ⟨S301056x1, .i32⟩
  | .hbm, ⟨72, _⟩ => ⟨S50000, .f32⟩
  | .hbm, ⟨73, _⟩ => ⟨S_, .i32⟩
  | .hbm, ⟨74, _⟩ => ⟨S301056, .i32⟩
  | .hbm, ⟨75, _⟩ => ⟨S301056, .i1⟩
  | .hbm, ⟨76, _⟩ => ⟨S_, .i32⟩
  | .hbm, ⟨77, _⟩ => ⟨S301056, .i32⟩
  | .hbm, ⟨78, _⟩ => ⟨S301056, .i32⟩
  | .hbm, ⟨79, _⟩ => ⟨S301056, .i32⟩
  | .hbm, ⟨80, _⟩ => ⟨S301056x1, .i32⟩
  | .hbm, ⟨81, _⟩ => ⟨S301056, .f32⟩
  | .hbm, ⟨82, _⟩ => ⟨S301056, .f32⟩
  | .hbm, ⟨83, _⟩ => ⟨S_, .f32⟩
  | .hbm, ⟨84, _⟩ => ⟨S_, .f32⟩
  | .hbm, ⟨85, _⟩ => ⟨S301056, .f32⟩
  | .hbm, ⟨86, _⟩ => ⟨S301056, .f32⟩
  | .hbm, ⟨87, _⟩ => ⟨S301056x1, .f32⟩
  | .hbm, ⟨88, _⟩ => ⟨S301056x256, .f32⟩
  | .hbm, ⟨89, _⟩ => ⟨S301056x256, .f32⟩
  | .hbm, ⟨90, _⟩ => ⟨S_, .f32⟩
  | .hbm, ⟨91, _⟩ => ⟨S50000x256, .f32⟩
  | .hbm, ⟨92, _⟩ => ⟨S301056x1, .i32⟩
  | .hbm, ⟨93, _⟩ => ⟨S50000x256, .f32⟩
  | .hbm, ⟨94, _⟩ => ⟨S50000x256, .f32⟩
  | .hbm, ⟨95, _⟩ => ⟨S_, .f32⟩
  | .hbm, ⟨96, _⟩ => ⟨S50000x256, .f32⟩
  | .hbm, ⟨97, _⟩ => ⟨S50000x256, .i1⟩
  | .hbm, ⟨98, _⟩ => ⟨S_, .f32⟩
  | .hbm, ⟨99, _⟩ => ⟨S50000x256, .f32⟩
  | .hbm, ⟨100, _⟩ => ⟨S50000x256, .i1⟩
  | .hbm, ⟨101, _⟩ => ⟨S_, .f32⟩
  | .hbm, ⟨102, _⟩ => ⟨S_, .f32⟩
  | .hbm, ⟨103, _⟩ => ⟨S50000x256, .f32⟩
  | .hbm, ⟨104, _⟩ => ⟨S50000x256, .f32⟩
  | .hbm, ⟨105, _⟩ => ⟨S50000x256, .f32⟩
  | .hbm, ⟨106, _⟩ => ⟨S_, .f32⟩
  | .hbm, ⟨107, _⟩ => ⟨S50000x256, .f32⟩
  | .hbm, ⟨108, _⟩ => ⟨S50000x256, .f32⟩
  | .hbm, ⟨109, _⟩ => ⟨S50000x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .bf16⟩
  | .local _ .vmem, ⟨5, _⟩ => ⟨S2048x256, .bf16⟩
  | .local _ .vmem, ⟨6, _⟩ => ⟨S1x256, .f32⟩
  | .local _ .vmem, ⟨7, _⟩ => ⟨S1x256, .f32⟩
  | .local _ .vmem, ⟨8, _⟩ => ⟨S1x1, .f32⟩
  | .local _ .vmem, ⟨9, _⟩ => ⟨S256x256, .f32⟩
  | .local _ .vmem, ⟨10, _⟩ => ⟨S256x256, .f32⟩
  | .local _ .vmem, ⟨11, _⟩ => ⟨S2048x1, .f32⟩
  | .local _ .vmem, ⟨12, _⟩ => ⟨S2048x1, .f32⟩
  | .local _ .vmem, ⟨13, _⟩ => ⟨S2048x256, .f32⟩
  | .local _ .vmem, ⟨14, _⟩ => ⟨S2048x256, .f32⟩
  | _, _ => ⟨S300000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_call0_v0 : Ref sig .tc := ⟨.hbm, 42, rfl⟩
abbrev main_v28 : Ref sig .tc := ⟨.hbm, 43, rfl⟩
abbrev main_c_6 : Ref sig .tc := ⟨.hbm, 44, rfl⟩
abbrev main_call1_v0 : Ref sig .tc := ⟨.hbm, 45, rfl⟩
abbrev main_v29 : Ref sig .tc := ⟨.hbm, 46, rfl⟩
abbrev main_c_7 : Ref sig .tc := ⟨.hbm, 47, rfl⟩
abbrev main_call2_v0 : Ref sig .tc := ⟨.hbm, 48, rfl⟩
abbrev main_v30 : Ref sig .tc := ⟨.hbm, 49, rfl⟩
abbrev main_c_8 : Ref sig .tc := ⟨.hbm, 50, rfl⟩
abbrev main_call3_v0 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40_0 : Ref sig .tc := ⟨.hbm, 62, rfl⟩
abbrev main_v40_1 : Ref sig .tc := ⟨.hbm, 63, rfl⟩
abbrev main_v41 : Ref sig .tc := ⟨.hbm, 64, rfl⟩
abbrev main_cst : Ref sig .tc := ⟨.hbm, 65, rfl⟩
abbrev main_call4_v0 : Ref sig .tc := ⟨.hbm, 66, rfl⟩
abbrev main_call4_v1 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_c_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_13 : Ref sig .tc := ⟨.hbm, 83, rfl⟩
abbrev main_call5_v0 : Ref sig .tc := ⟨.hbm, 84, rfl⟩
abbrev main_call5_v1 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_14 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_call6_cst : Ref sig .tc := ⟨.hbm, 95, rfl⟩
abbrev main_call6_v0 : Ref sig .tc := ⟨.hbm, 96, rfl⟩
abbrev main_call6_v1 : Ref sig .tc := ⟨.hbm, 97, rfl⟩
abbrev main_call6_cst_0 : Ref sig .tc := ⟨.hbm, 98, rfl⟩
abbrev main_call6_v2 : Ref sig .tc := ⟨.hbm, 99, rfl⟩
abbrev main_call6_v3 : Ref sig .tc := ⟨.hbm, 100, rfl⟩
abbrev main_call6_cst_1 : Ref sig .tc := ⟨.hbm, 101, rfl⟩
abbrev main_call6_call0_v0 : Ref sig .tc := ⟨.hbm, 102, rfl⟩
abbrev main_call6_call0_v1 : Ref sig .tc := ⟨.hbm, 103, rfl⟩
abbrev main_call6_v4 : Ref sig .tc := ⟨.hbm, 104, rfl⟩
abbrev main_call6_v5 : Ref sig .tc := ⟨.hbm, 105, rfl⟩
abbrev main_call6_cst_2 : Ref sig .tc := ⟨.hbm, 106, rfl⟩
abbrev main_call6_v6 : Ref sig .tc := ⟨.hbm, 107, rfl⟩
abbrev main_call6_v7 : Ref sig .tc := ⟨.hbm, 108, rfl⟩
abbrev main_v62 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![147], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S300000x3_S300000x1_0_0 : S300000x3.Slices ![0, 0] S300000x1
  shapeCasts_S300000x1_S300000 : S300000x1.ShapeCasts S300000
  slices_S300000x3_S300000x1_0_1 : S300000x3.Slices ![0, 1] S300000x1
  slices_S300000x3_S300000x1_0_2 : S300000x3.Slices ![0, 2] S300000x1
  bcast_S_S300000 : S_.BroadcastsInDim S300000 (![] : Fin 0 → Fin S300000.rank)
  bcast_S300000_S300000x1_0 : S300000.BroadcastsInDim S300000x1 (![0] : Fin 1 → Fin S300000x1.rank)
  bitsLt_bf16_f32 : FTy.bits .bf16 < FTy.bits .f32
  pads_S300000x256_S301056x256_010560_000 : S300000x256.Pads (![0, 0] : Fin 2 → Nat) ![1056, 0] ![0, 0] S301056x256
  h_S_ : 0 < S_.numel
  pads_S300000_S301056_010560 : S300000.Pads (![0] : Fin 1 → Nat) ![1056] ![0] S301056
  bcast_S_S301056 : S_.BroadcastsInDim S301056 (![] : Fin 0 → Fin S301056.rank)
  slices_S1x512_S1x256_0_0 : S1x512.Slices ![0, 0] S1x256
  slices_S1x512_S1x256_0_256 : S1x512.Slices ![0, 256] S1x256
  shapeCasts_S1_S1x1 : S1.ShapeCasts S1x1
  slices_S512x256_S256x256_0_0 : S512x256.Slices ![0, 0] S256x256
  slices_S512x256_S256x256_256_0 : S512x256.Slices ![256, 0] S256x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x256_S2048x256 : S1x256.Broadcasts S2048x256
  reduces_S2048x256_S2048 : S2048x256.Reduces [1] S2048
  shapeCasts_S2048_S2048x1 : S2048.ShapeCasts S2048x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S301056x1_S301056 : S301056x1.ShapeCasts S301056
  bcast_S_S50000 : S_.BroadcastsInDim S50000 (![] : Fin 0 → Fin S50000.rank)
  bcast_S301056_S301056x1_0 : S301056.BroadcastsInDim S301056x1 (![0] : Fin 1 → Fin S301056x1.rank)
  bcast_S301056x1_S301056x256_0_1 : S301056x1.BroadcastsInDim S301056x256 (![0, 1] : Fin 2 → Fin S301056x256.rank)
  bcast_S_S50000x256 : S_.BroadcastsInDim S50000x256 (![] : Fin 0 → Fin S50000x256.rank)
  gather_S50000x256_S300000x1_S300000x256_1_0_n_n_0_1_1256_wf : GatherDims.WF S50000x256 S300000x1 S300000x256 [1] [0] [] [0] [] 1 ![1, 256]
  gather_S2000x256_S300000x1_S300000x256_1_0_n_n_0_1_1256_wf : GatherDims.WF S2000x256 S300000x1 S300000x256 [1] [0] [] [0] [] 1 ![1, 256]
  gather_S100000x256_S300000x1_S300000x256_1_0_n_n_0_1_1256_wf : GatherDims.WF S100000x256 S300000x1 S300000x256 [1] [0] [] [0] [] 1 ![1, 256]
  dot_S2048x256_S256x256_S2048x256_1_0_0_1_n_n_wf : DotDims.WF S2048x256 S256x256 S2048x256 [1] [0] [0] [1] [] []
  scatter_S50000_S301056x1_S301056_n_0_0_1_wf : ScatterDims.WF S50000 S301056x1 S301056 [] [0] [0] 1
  gather_S50000_S301056x1_S301056_n_0_n_n_0_1_1_wf : GatherDims.WF S50000 S301056x1 S301056 [] [0] [] [0] [] 1 ![1]
  scatter_S50000x256_S301056x1_S301056x256_1_0_0_1_wf : ScatterDims.WF S50000x256 S301056x1 S301056x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S301056x256.size a
  hwx0_0 : ∀ i : grid0.Coords, EltTy.bits .f32 = 32 ∨ (Rect.block (s := S301056x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S301056x256.size a
  hwx0_1 : ∀ i : grid0.Coords, EltTy.bits .f32 = 32 ∨ (Rect.block (s := S301056x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S301056x256.size a
  hwx0_2 : ∀ i : grid0.Coords, EltTy.bits .bf16 = 32 ∨ (Rect.block (s := S301056x256) S2048x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x1.size a ≤ S301056x1.size a
  hwx0_8 : ∀ i : grid0.Coords, EltTy.bits .f32 = 32 ∨ (Rect.block (s := S301056x1) S2048x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S301056x256.size a
  hwx0_9 : ∀ i : grid0.Coords, EltTy.bits .f32 = 32 ∨ (Rect.block (s := S301056x256) S2048x256.size (cc0_transform_9 i) (hinb0_9 i)).WholeWords (EltTy.packing .f32)

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def gather_S2000x256_S300000x1_S300000x256_1_0_n_n_0_1_1256 : GatherDims S2000x256 S300000x1 S300000x256 where
  offsetDims := [1]
  collapsedSliceDims := [0]
  operandBatchingDims := []
  startIndicesBatchingDims := []
  startIndexMap := [0]
  indexVectorDim := 1
  sliceSizes := ![1, 256]
  wf := gather_S2000x256_S300000x1_S300000x256_1_0_n_n_0_1_1256_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def scatter_S50000_S301056x1_S301056_n_0_0_1 : ScatterDims S50000 S301056x1 S301056 where
  updateWindowDims := []
  insertedWindowDims := [0]
  scatterDimsToOperandDims := [0]
  indexVectorDim := 1
  wf := scatter_S50000_S301056x1_S301056_n_0_0_1_wf
def gather_S50000_S301056x1_S301056_n_0_n_n_0_1_1 : GatherDims S50000 S301056x1 S301056 where
  offsetDims := []
  collapsedSliceDims := [0]
  operandBatchingDims := []
  startIndicesBatchingDims := []
  startIndexMap := [0]
  indexVectorDim := 1
  sliceSizes := ![1]
  wf := gather_S50000_S301056x1_S301056_n_0_n_n_0_1_1_wf
def scatter_S50000x256_S301056x1_S301056x256_1_0_0_1 : ScatterDims S50000x256 S301056x1 S301056x256 where
  updateWindowDims := [1]
  insertedWindowDims := [0]
  scatterDimsToOperandDims := [0]
  indexVectorDim := 1
  wf := scatter_S50000x256_S301056x1_S301056x256_1_0_0_1_wf

abbrev win0_0 : Pipeline.Window sig grid0 :=
  Pipeline.Window.ofSpec (Memref.whole main_v28) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40_0) S2048x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v40_1) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S300000x3 : Shape := ⟨2, ![300000, 3]⟩
abbrev S2000x256 : Shape := ⟨2, ![2000, 256]⟩
abbrev S100000x256 : Shape := ⟨2, ![100000, 256]⟩
abbrev S50000x256 : Shape := ⟨2, ![50000, 256]⟩
abbrev S1x512 : Shape := ⟨2, ![1, 512]⟩
abbrev S1 : Shape := ⟨1, ![1]⟩
abbrev S512x256 : Shape := ⟨2, ![512, 256]⟩
abbrev S300000x1 : Shape := ⟨2, ![300000, 1]⟩
abbrev S300000 : Shape := ⟨1, ![300000]⟩
abbrev S_ : Shape := ⟨0, ![]⟩
abbrev S300000x256 : Shape := ⟨2, ![300000, 256]⟩
abbrev S300000x512 : Shape := ⟨2, ![300000, 512]⟩
abbrev S512x1 : Shape := ⟨2, ![512, 1]⟩
abbrev S1x1 : Shape := ⟨2, ![1, 1]⟩
abbrev S50000 : Shape := ⟨1, ![50000]⟩

abbrev nBuf : Space → Nat
  | .hbm => 95
  | .vmem => 0
  | .smem => 0
  | _ => 0

abbrev bufTy : (tb : Table) → Fin (tcTables nBuf tb) → BufTy
  | .hbm, ⟨0, _⟩ => ⟨S300000x3, .i32⟩
  | .hbm, ⟨1, _⟩ => ⟨S2000x256, .f32⟩
  | .hbm, ⟨2, _⟩ => ⟨S100000x256, .f32⟩
  | .hbm, ⟨3, _⟩ => ⟨S50000x256, .f32⟩
  | .hbm, ⟨4, _⟩ => ⟨S1x512, .f32⟩
  | .hbm, ⟨5, _⟩ => ⟨S1, .f32⟩
  | .hbm, ⟨6, _⟩ => ⟨S512x256, .f32⟩
  | .hbm, ⟨7, _⟩ => ⟨S300000x1, .i32⟩
  | .hbm, ⟨8, _⟩ => ⟨S300000, .i32⟩
  | .hbm, ⟨9, _⟩ => ⟨S300000x1, .i32⟩
  | .hbm, ⟨10, _⟩ => ⟨S300000, .i32⟩
  | .hbm, ⟨11, _⟩ => ⟨S300000x1, .i32⟩
  | .hbm, ⟨12, _⟩ => ⟨S300000, .i32⟩
  | .hbm, ⟨13, _⟩ => ⟨S_, .i32⟩
  | .hbm, ⟨14, _⟩ => ⟨S300000, .i32⟩
  | .hbm, ⟨15, _⟩ => ⟨S300000, .i1⟩
  | .hbm, ⟨16, _⟩ => ⟨S_, .i32⟩
  | .hbm, ⟨17, _⟩ => ⟨S300000, .i32⟩
  | .hbm, ⟨18, _⟩ => ⟨S300000, .i32⟩
  | .hbm, ⟨19, _⟩ => ⟨S300000, .i32⟩
  | .hbm, ⟨20, _⟩ => ⟨S300000x1, .i32⟩
  | .hbm, ⟨21, _⟩ => ⟨S300000x256, .f32⟩
  | .hbm, ⟨22, _⟩ => ⟨S_, .i32⟩
  | .hbm, ⟨23, _⟩ => ⟨S300000, .i32⟩
  | .hbm, ⟨24, _⟩ => ⟨S300000, .i1⟩
  | .hbm, ⟨25, _⟩ => ⟨S_, .i32⟩
  | .hbm, ⟨26, _⟩ => ⟨S300000, .i32⟩
  | .hbm, ⟨27, _⟩ => ⟨S300000, .i32⟩
  | .hbm, ⟨28, _⟩ => ⟨S300000, .i32⟩
  | .hbm, ⟨29, _⟩ => ⟨S300000x1, .i32⟩
  | .hbm, ⟨30, _⟩ => ⟨S300000x256, .f32⟩
  | .hbm, ⟨31, _⟩ => ⟨S300000x512, .f32⟩
  | .hbm, ⟨32, _⟩ => ⟨S512x1, .f32⟩
  | .hbm, ⟨33, _⟩ => ⟨S300000x1, .f32⟩
  | .hbm, ⟨34, _⟩ => ⟨S1x1, .f32⟩
  | .hbm, ⟨35, _⟩ => ⟨S300000x1, .f32⟩
  | .hbm, ⟨36, _⟩ => ⟨S300000x1, .f32⟩
  | .hbm, ⟨37, _⟩ => ⟨S300000, .f32⟩
  | .hbm, ⟨38, _⟩ => ⟨S_, .f32⟩
  | .hbm, ⟨39, _⟩ => ⟨S_, .f32⟩
  | .hbm, ⟨40, _⟩ => ⟨S300000, .f32⟩
  | .hbm, ⟨41, _⟩ => ⟨S300000, .i1⟩
  | .hbm, ⟨42, _⟩ => ⟨S_, .f32⟩
  | .hbm, ⟨43, _⟩ => ⟨S300000, .f32⟩
  | .hbm, ⟨44, _⟩ => ⟨S300000, .f32⟩
  | .hbm, ⟨45, _⟩ => ⟨S300000, .f32⟩
  | .hbm, ⟨46, _⟩ => ⟨S300000, .f32⟩
  | .hbm, ⟨47, _⟩ => ⟨S_, .f32⟩
  | .hbm, ⟨48, _⟩ => ⟨S50000, .f32⟩
  | .hbm, ⟨49, _⟩ => ⟨S300000x1, .i32⟩
  | .hbm, ⟨50, _⟩ => ⟨S50000, .f32⟩
  | .hbm, ⟨51, _⟩ => ⟨S_, .i32⟩
  | .hbm, ⟨52, _⟩ => ⟨S300000, .i32⟩
  | .hbm, ⟨53, _⟩ => ⟨S300000, .i1⟩
  | .hbm, ⟨54, _⟩ => ⟨S_, .i32⟩
  | .hbm, ⟨55, _⟩ => ⟨S300000, .i32⟩
  | .hbm, ⟨56, _⟩ => ⟨S300000, .i32⟩
  | .hbm, ⟨57, _⟩ => ⟨S300000, .i32⟩
  | .hbm, ⟨58, _⟩ => ⟨S300000x1, .i32⟩
  | .hbm, ⟨59, _⟩ => ⟨S300000, .f32⟩
  | .hbm, ⟨60, _⟩ => ⟨S300000, .f32⟩
  | .hbm, ⟨61, _⟩ => ⟨S_, .i32⟩
  | .hbm, ⟨62, _⟩ => ⟨S300000, .i32⟩
  | .hbm, ⟨63, _⟩ => ⟨S300000, .i1⟩
  | .hbm, ⟨64, _⟩ => ⟨S_, .i32⟩
  | .hbm, ⟨65, _⟩ => ⟨S300000, .i32⟩
  | .hbm, ⟨66, _⟩ => ⟨S300000, .i32⟩
  | .hbm, ⟨67, _⟩ => ⟨S300000, .i32⟩
  | .hbm, ⟨68, _⟩ => ⟨S300000x1, .i32⟩
  | .hbm, ⟨69, _⟩ => ⟨S300000x256, .f32⟩
  | .hbm, ⟨70, _⟩ => ⟨S300000x512, .f32⟩
  | .hbm, ⟨71, _⟩ => ⟨S300000x256, .f32⟩
  | .hbm, ⟨72, _⟩ => ⟨S300000x1, .f32⟩
  | .hbm, ⟨73, _⟩ => ⟨S300000x256, .f32⟩
  | .hbm, ⟨74, _⟩ => ⟨S300000x256, .f32⟩
  | .hbm, ⟨75, _⟩ => ⟨S_, .f32⟩
  | .hbm, ⟨76, _⟩ => ⟨S50000x256, .f32⟩
  | .hbm, ⟨77, _⟩ => ⟨S300000x1, .i32⟩
  | .hbm, ⟨78, _⟩ => ⟨S50000x256, .f32⟩
  | .hbm, ⟨79, _⟩ => ⟨S50000x256, .f32⟩
  | .hbm, ⟨80, _⟩ => ⟨S_, .f32⟩
  | .hbm, ⟨81, _⟩ => ⟨S50000x256, .f32⟩
  | .hbm, ⟨82, _⟩ => ⟨S50000x256, .i1⟩
  | .hbm, ⟨83, _⟩ => ⟨S_, .f32⟩
  | .hbm, ⟨84, _⟩ => ⟨S50000x256, .f32⟩
  | .hbm, ⟨85, _⟩ => ⟨S50000x256, .i1⟩
  | .hbm, ⟨86, _⟩ => ⟨S_, .f32⟩
  | .hbm, ⟨87, _⟩ => ⟨S_, .f32⟩
  | .hbm, ⟨88, _⟩ => ⟨S50000x256, .f32⟩
  | .hbm, ⟨89, _⟩ => ⟨S50000x256, .f32⟩
  | .hbm, ⟨90, _⟩ => ⟨S50000x256, .f32⟩
  | .hbm, ⟨91, _⟩ => ⟨S_, .f32⟩
  | .hbm, ⟨92, _⟩ => ⟨S50000x256, .f32⟩
  | .hbm, ⟨93, _⟩ => ⟨S50000x256, .f32⟩
  | .hbm, ⟨94, _⟩ => ⟨S50000x256, .f32⟩
  | _, _ => ⟨S300000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_6 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_cst_1 : Ref sig .tc := ⟨.hbm, 86, rfl⟩
abbrev main_call1_call0_v0 : Ref sig .tc := ⟨.hbm, 87, rfl⟩
abbrev main_call1_call0_v1 : Ref sig .tc := ⟨.hbm, 88, rfl⟩
abbrev main_call1_v4 : Ref sig .tc := ⟨.hbm, 89, rfl⟩
abbrev main_call1_v5 : Ref sig .tc := ⟨.hbm, 90, rfl⟩
abbrev main_call1_cst_2 : Ref sig .tc := ⟨.hbm, 91, rfl⟩
abbrev main_call1_v6 : Ref sig .tc := ⟨.hbm, 92, rfl⟩
abbrev main_call1_v7 : Ref sig .tc := ⟨.hbm, 93, rfl⟩
abbrev main_v56 : Ref sig .tc := ⟨.hbm, 94, rfl⟩

abbrev nD : Nat := 1
abbrev τ : Topo := Topo.v7x

variable {F : FTy → Type} [FloatOps F]

class Facts₀ : Prop where
  slices_S300000x3_S300000x1_0_0 : S300000x3.Slices ![0, 0] S300000x1
  shapeCasts_S300000x1_S300000 : S300000x1.ShapeCasts S300000
  slices_S300000x3_S300000x1_0_1 : S300000x3.Slices ![0, 1] S300000x1
  slices_S300000x3_S300000x1_0_2 : S300000x3.Slices ![0, 2] S300000x1
  bcast_S_S300000 : S_.BroadcastsInDim S300000 (![] : Fin 0 → Fin S300000.rank)
  bcast_S300000_S300000x1_0 : S300000.BroadcastsInDim S300000x1 (![0] : Fin 1 → Fin S300000x1.rank)
  concatenates_S300000x256_S300000x256_S300000x512_d1 : Shape.Concatenates [S300000x256, S300000x256] S300000x512 1
  transposes_S1x512_S512x1_1_0 : S1x512.Transposes [1, 0] S512x1
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  bcast_S_S50000 : S_.BroadcastsInDim S50000 (![] : Fin 0 → Fin S50000.rank)
  bcast_S300000x1_S300000x256_0_1 : S300000x1.BroadcastsInDim S300000x256 (![0, 1] : Fin 2 → Fin S300000x256.rank)
  bcast_S_S50000x256 : S_.BroadcastsInDim S50000x256 (![] : Fin 0 → Fin S50000x256.rank)
  gather_S2000x256_S300000x1_S300000x256_1_0_n_n_0_1_1256_wf : GatherDims.WF S2000x256 S300000x1 S300000x256 [1] [0] [] [0] [] 1 ![1, 256]
  gather_S50000x256_S300000x1_S300000x256_1_0_n_n_0_1_1256_wf : GatherDims.WF S50000x256 S300000x1 S300000x256 [1] [0] [] [0] [] 1 ![1, 256]
  dot_S300000x512_S512x1_S300000x1_1_0_0_1_n_n_wf : DotDims.WF S300000x512 S512x1 S300000x1 [1] [0] [0] [1] [] []
  scatter_S50000_S300000x1_S300000_n_0_0_1_wf : ScatterDims.WF S50000 S300000x1 S300000 [] [0] [0] 1
  gather_S50000_S300000x1_S300000_n_0_n_n_0_1_1_wf : GatherDims.WF S50000 S300000x1 S300000 [] [0] [] [0] [] 1 ![1]
  gather_S100000x256_S300000x1_S300000x256_1_0_n_n_0_1_1256_wf : GatherDims.WF S100000x256 S300000x1 S300000x256 [1] [0] [] [0] [] 1 ![1, 256]
  dot_S300000x512_S512x256_S300000x256_1_0_0_1_n_n_wf : DotDims.WF S300000x512 S512x256 S300000x256 [1] [0] [0] [1] [] []
  scatter_S50000x256_S300000x1_S300000x256_1_0_0_1_wf : ScatterDims.WF S50000x256 S300000x1 S300000x256 [1] [0] [0] 1

variable [Facts₀]

def gather_S2000x256_S300000x1_S300000x256_1_0_n_n_0_1_1256 : GatherDims S2000x256 S300000x1 S300000x256 where
  offsetDims := [1]
  collapsedSliceDims := [0]
  operandBatchingDims := []
  startIndicesBatchingDims := []
  startIndexMap := [0]
  indexVectorDim := 1
  sliceSizes := ![1, 256]
  wf := gather_S2000x256_S300000x1_S300000x256_1_0_n_n_0_1_1256_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def dot_S300000x512_S512x1_S300000x1_1_0_0_1_n_n : DotDims S300000x512 S512x1 S300000x1 where
  lhsContracting := [1]
  rhsContracting := [0]
  lhsNonContracting := [0]
  rhsNonContracting := [1]
  lhsBatch := []
  rhsBatch := []
  wf := dot_S300000x512_S512x1_S300000x1_1_0_0_1_n_n_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def gather_S50000_S300000x1_S300000_n_0_n_n_0_1_1 : GatherDims S50000 S300000x1 S300000 where
  offsetDims := []
  collapsedSliceDims := [0]
  operandBatchingDims := []
  startIndicesBatchingDims := []
  startIndexMap := [0]
  indexVectorDim := 1
  sliceSizes := ![1]
  wf := gather_S50000_S300000x1_S300000_n_0_n_n_0_1_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S300000x512_S512x256_S300000x256_1_0_0_1_n_n : DotDims S300000x512 S512x256 S300000x256 where
  lhsContracting := [1]
  rhsContracting := [0]
  lhsNonContracting := [0]
  rhsNonContracting := [1]
  lhsBatch := []
  rhsBatch := []
  wf := dot_S300000x512_S512x256_S300000x256_1_0_0_1_n_n_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf

class Facts : Prop extends Facts₀ where

variable [Facts]
-- ==== Proof.KerStages.lean ====
/-
  THE KERNEL PROGRAM'S HOST SIDE AS NAMED FUNCTIONS of the argument arrays: what the region's windows are staged from
  (the three gathered row tables padded from 300000 to 301056 edges, the padded head words, the mask of the real
  edges, the halves of the attention vector and of the projection matrix), and what the operations after the region
  make of the region's two output arrays (mask the scores, sum them by head word, divide, scale the projections,
  sum them by head word, add the entity features, apply the exponential linear unit).
  Each definition repeats the program's operations in order, nothing else.
-/
import proofs.«175619_j26620207300627_2_alg».proof.KernelIdeal

noncomputable section

namespace Cert.KernelIdeal.KerHost

open Cert.KernelIdeal Idealize.ShloMosaic
open Facts₀ Facts

variable {F : FTy → Type} [FloatOps F] [Facts]

/-- Column 0 of the triples: the head words. -/
def headWords (a0 : IVec S300000x3 32) : IVec S300000 32 :=
  shapeCast S300000 (extractStridedSlice S300000x1 ![0, 0] a0 slices_S300000x3_S300000x1_0_0) shapeCasts_S300000x1_S300000
/-- Column 1: the value words. -/
def valWords (a0 : IVec S300000x3 32) : IVec S300000 32 :=
  shapeCast S300000 (extractStridedSlice S300000x1 ![0, 1] a0 slices_S300000x3_S300000x1_0_1) shapeCasts_S300000x1_S300000
/-- Column 2: the attribute words. -/
def attWords (a0 : IVec S300000x3 32) : IVec S300000 32 :=
  shapeCast S300000 (extractStridedSlice S300000x1 ![0, 2] a0 slices_S300000x3_S300000x1_0_2) shapeCasts_S300000x1_S300000

/-- The start words of a row gather from a table of `n` rows: a negative word wrapped once, as a column. -/
def wrapCol (n : BitVec 32) (w : IVec S300000 32) : IVec S300000x1 32 :=
  broadcastInDim S300000x1 ![0] bcast_S300000_S300000x1_0
    (select (cmpi .slt w (broadcastInDim S300000 ![] bcast_S_S300000 (constantI S_ 32 0#32)))
      (addi w (broadcastInDim S300000 ![] bcast_S_S300000 (constantI S_ 32 n))) w)

/-- The entity rows of the edges, padded with zero rows to 301056 edges. -/
def entP (a0 : IVec S300000x3 32) (a3 : FVec F S50000x256 .f32) : FVec F S301056x256 .f32 :=
  pad S301056x256 ![0, 0] ![1056, 0] ![0, 0]
    (Host.gather gather_S50000x256_S300000x1_S300000x256_1_0_n_n_0_1_1256 a3 (wrapCol 50000#32 (headWords a0)))
    (sitofp .f32 (constantI S_ 32 0#32)) pads_S300000x256_S301056x256_010560_000 h_S_
/-- The attribute rows of the edges, padded. -/
def attP (a0 : IVec S300000x3 32) (a1 : FVec F S2000x256 .f32) : FVec F S301056x256 .f32 :=
  pad S301056x256 ![0, 0] ![1056, 0] ![0, 0]
    (Host.gather gather_S2000x256_S300000x1_S300000x256_1_0_n_n_0_1_1256 a1 (wrapCol 2000#32 (attWords a0)))
    (sitofp .f32 (constantI S_ 32 0#32)) pads_S300000x256_S301056x256_010560_000 h_S_
/-- The value rows of the edges (from the table narrowed to the short float format), padded. -/
def valP (a0 : IVec S300000x3 32) (a2 : FVec F S100000x256 .f32) : FVec F S301056x256 .bf16 :=
  pad S301056x256 ![0, 0] ![1056, 0] ![0, 0]
    (Host.gather gather_S100000x256_S300000x1_S300000x256_1_0_n_n_0_1_1256 (truncf .bf16 a2 bitsLt_bf16_f32) (wrapCol 100000#32 (valWords a0)))
    (sitofp .bf16 (constantI S_ 32 0#32)) pads_S300000x256_S301056x256_010560_000 h_S_
/-- The head words padded with the word `0`. -/
def headP (a0 : IVec S300000x3 32) : IVec S301056 32 :=
  pad S301056 ![0] ![1056] ![0] (headWords a0) (id (constantI S_ 32 0#32)) pads_S300000_S301056_010560 h_S_
/-- The mask of the real edges: position `< 300000`. -/
def validMask : IVec S301056 1 :=
  cmpi .slt (iotaInDim S301056 32 0) (broadcastInDim S301056 ![] bcast_S_S301056 (constantI S_ 32 300000#32))
/-- The first half of the attention vector. -/
def aw1 (a4 : FVec F S1x512 .f32) : FVec F S1x256 .f32 := extractStridedSlice S1x256 ![0, 0] a4 slices_S1x512_S1x256_0_0
/-- The second half of the attention vector. -/
def aw2 (a4 : FVec F S1x512 .f32) : FVec F S1x256 .f32 := extractStridedSlice S1x256 ![0, 256] a4 slices_S1x512_S1x256_0_256
/-- The bias as a 1×1 array. -/
def ab (a5 : FVec F S1 .f32) : FVec F S1x1 .f32 := shapeCast S1x1 a5 shapeCasts_S1_S1x1
/-- The upper half of the projection matrix. -/
def w1 (a6 : FVec F S512x256 .f32) : FVec F S256x256 .f32 := extractStridedSlice S256x256 ![0, 0] a6 slices_S512x256_S256x256_0_0
/-- The lower half of the projection matrix. -/
def w2 (a6 : FVec F S512x256 .f32) : FVec F S256x256 .f32 := extractStridedSlice S256x256 ![256, 0] a6 slices_S512x256_S256x256_256_0

/-! ## After the region -/

/-- The scores as a flat array. -/
def scoreFlat (sc : FVec F S301056x1 .f32) : FVec F S301056 .f32 := shapeCast S301056 sc shapeCasts_S301056x1_S301056
/-- A flat array kept on the real edges and zero on the padding. -/
def masked (vd : IVec S301056 1) (x : FVec F S301056 .f32) : FVec F S301056 .f32 :=
  select vd x (broadcastInDim S301056 ![] bcast_S_S301056 (id (constant S_ .f32 0x00000000#32)))
/-- The head words as a column of start words. -/
def headCol (hp : IVec S301056 32) : IVec S301056x1 32 := broadcastInDim S301056x1 ![0] bcast_S301056_S301056x1_0 hp
/-- The masked scores summed by head word. -/
def rowSumArr (hp : IVec S301056 32) (vd : IVec S301056 1) (sc : FVec F S301056x1 .f32) : FVec F S50000 .f32 :=
  Host.scatterAdd scatter_S50000_S301056x1_S301056_n_0_0_1
    (broadcastInDim S50000 ![] bcast_S_S50000 (constant S_ .f32 0x00000000#32)) (headCol hp) (masked vd (scoreFlat sc))
/-- The head words wrapped, as a column of start words for reading the row sums back. -/
def headWrapCol (hp : IVec S301056 32) : IVec S301056x1 32 :=
  broadcastInDim S301056x1 ![0] bcast_S301056_S301056x1_0
    (select (cmpi .slt hp (broadcastInDim S301056 ![] bcast_S_S301056 (constantI S_ 32 0#32)))
      (addi hp (broadcastInDim S301056 ![] bcast_S_S301056 (constantI S_ 32 50000#32))) hp)
/-- The attention: score over gathered row sum, masked. -/
def attnArr (hp : IVec S301056 32) (vd : IVec S301056 1) (sc : FVec F S301056x1 .f32) : FVec F S301056 .f32 :=
  masked vd (Host.divf (scoreFlat sc)
    (Host.gather gather_S50000_S301056x1_S301056_n_0_n_n_0_1_1 (rowSumArr hp vd sc) (headWrapCol hp)))
/-- The projections scaled by the attention of their edge. -/
def scaledArr (hp : IVec S301056 32) (vd : IVec S301056 1) (sc : FVec F S301056x1 .f32) (pr : FVec F S301056x256 .f32) :
    FVec F S301056x256 .f32 :=
  mulf pr (broadcastInDim S301056x256 ![0, 1] bcast_S301056x1_S301056x256_0_1
    (broadcastInDim S301056x1 ![0] bcast_S301056_S301056x1_0 (attnArr hp vd sc)))
/-- The scaled projections summed by head word. -/
def featsArr (hp : IVec S301056 32) (vd : IVec S301056 1) (sc : FVec F S301056x1 .f32) (pr : FVec F S301056x256 .f32) :
    FVec F S50000x256 .f32 :=
  Host.scatterAdd scatter_S50000x256_S301056x1_S301056x256_1_0_0_1
    (broadcastInDim S50000x256 ![] bcast_S_S50000x256 (constant S_ .f32 0x00000000#32)) (headCol hp) (scaledArr hp vd sc pr)
/-- The exponential linear unit, as the program spells it. -/
def eluArr (x : FVec F S50000x256 .f32) : FVec F S50000x256 .f32 :=
  select (cmpf .ogt x (broadcastInDim S50000x256 ![] bcast_S_S50000x256 (constant S_ .f32 0x00000000#32))) x
    (mulf (broadcastInDim S50000x256 ![] bcast_S_S50000x256 (constant S_ .f32 0x3F800000#32))
      (Host.expm1 (select (cmpf .ogt x (broadcastInDim S50000x256 ![] bcast_S_S50000x256 (constant S_ .f32 0x00000000#32)))
        (broadcastInDim S50000x256 ![] bcast_S_S50000x256 (id (constant S_ .f32 0x00000000#32))) x)))
/-- Everything after the region, from the region's two output arrays. -/
def tail (hp : IVec S301056 32) (vd : IVec S301056 1) (a3 : FVec F S50000x256 .f32) (sc : FVec F S301056x1 .f32)
    (pr : FVec F S301056x256 .f32) : FVec F S50000x256 .f32 :=
  eluArr (addf (featsArr hp vd sc pr) a3)

end Cert.KernelIdeal.KerHost

end
-- ==== Proof.KerRun.lean ====
/-
  THE HOST OPERATIONS READ BACK. For any contents `W` of the buffers, the operations before the region leave each staged
  array at the named function of the argument arrays (KerStages), and the operations after the region leave the result
  buffer at `tail` of the region's two output arrays, the padded head words, the mask and the entity features.
-/
import proofs.«175619_j26620207300627_2_alg».proof.Proof.Gen.KernelIdeal.Launch
import proofs.«175619_j26620207300627_2_alg».proof.Proof.KerStages
import Idealize.ShloMosaic.Lib.StableHlo.Run

set_option maxRecDepth 65536

noncomputable section

namespace Cert.KernelIdeal.KerRun

open Cert.KernelIdeal Cert.KernelIdeal.Gen Cert.KernelIdeal.KerHost
open Idealize.ShloMosaic Idealize.ShloMosaic.TcCoe Idealize.SL.Sem Idealize.ShloMosaic.StableHlo

variable {F : FTy → Type} [FloatOps F]

attribute [local irreducible] Host.gather Host.scatterAdd pad

theorem pre_ent (W : Valuation τ sig (Elt F)) :
    after (List.flatten [hostOps0, hostOps0_1, hostOps0_2, hostOps0_3, hostOps0_4, hostOps0_5, hostOps0_6, hostOps0_7, hostOps0_8]) W (main_v28 : DevRef τ sig) = entP (W (main_arg0 : DevRef τ sig)) (W (main_arg3 : DevRef τ sig)) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem pre_att (W : Valuation τ sig (Elt F)) :
    after (List.flatten [hostOps0, hostOps0_1, hostOps0_2, hostOps0_3, hostOps0_4, hostOps0_5, hostOps0_6, hostOps0_7, hostOps0_8]) W (main_v29 : DevRef τ sig) = attP (W (main_arg0 : DevRef τ sig)) (W (main_arg1 : DevRef τ sig)) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem pre_val (W : Valuation τ sig (Elt F)) :
    after (List.flatten [hostOps0, hostOps0_1, hostOps0_2, hostOps0_3, hostOps0_4, hostOps0_5, hostOps0_6, hostOps0_7, hostOps0_8]) W (main_v30 : DevRef τ sig) = valP (W (main_arg0 : DevRef τ sig)) (W (main_arg2 : DevRef τ sig)) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem pre_head (W : Valuation τ sig (Elt F)) :
    after (List.flatten [hostOps0, hostOps0_1, hostOps0_2, hostOps0_3, hostOps0_4, hostOps0_5, hostOps0_6, hostOps0_7, hostOps0_8]) W (main_v31 : DevRef τ sig) = headP (W (main_arg0 : DevRef τ sig)) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem pre_valid (W : Valuation τ sig (Elt F)) :
    after (List.flatten [hostOps0, hostOps0_1, hostOps0_2, hostOps0_3, hostOps0_4, hostOps0_5, hostOps0_6, hostOps0_7, hostOps0_8]) W (main_v34 : DevRef τ sig) = (validMask : IVec S301056 1) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem pre_aw1 (W : Valuation τ sig (Elt F)) :
    after (List.flatten [hostOps0, hostOps0_1, hostOps0_2, hostOps0_3, hostOps0_4, hostOps0_5, hostOps0_6, hostOps0_7, hostOps0_8]) W (main_v35 : DevRef τ sig) = aw1 (W (main_arg4 : DevRef τ sig)) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem pre_aw2 (W : Valuation τ sig (Elt F)) :
    after (List.flatten [hostOps0, hostOps0_1, hostOps0_2, hostOps0_3, hostOps0_4, hostOps0_5, hostOps0_6, hostOps0_7, hostOps0_8]) W (main_v36 : DevRef τ sig) = aw2 (W (main_arg4 : DevRef τ sig)) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem pre_ab (W : Valuation τ sig (Elt F)) :
    after (List.flatten [hostOps0, hostOps0_1, hostOps0_2, hostOps0_3, hostOps0_4, hostOps0_5, hostOps0_6, hostOps0_7, hostOps0_8]) W (main_v37 : DevRef τ sig) = ab (W (main_arg5 : DevRef τ sig)) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem pre_w1 (W : Valuation τ sig (Elt F)) :
    after (List.flatten [hostOps0, hostOps0_1, hostOps0_2, hostOps0_3, hostOps0_4, hostOps0_5, hostOps0_6, hostOps0_7, hostOps0_8]) W (main_v38 : DevRef τ sig) = w1 (W (main_arg6 : DevRef τ sig)) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem pre_w2 (W : Valuation τ sig (Elt F)) :
    after (List.flatten [hostOps0, hostOps0_1, hostOps0_2, hostOps0_3, hostOps0_4, hostOps0_5, hostOps0_6, hostOps0_7, hostOps0_8]) W (main_v39 : DevRef τ sig) = w2 (W (main_arg6 : DevRef τ sig)) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The operations after the region. -/
theorem tail_result (W : Valuation τ sig (Elt F)) :
    after (List.flatten [hostOps1, hostOps1_1, hostOps1_2, hostOps1_3, hostOps1_4, hostOps1_5]) W (main_v62 : DevRef τ sig)
      = tail (W (main_v31 : DevRef τ sig)) (W (main_v34 : DevRef τ sig)) (W (main_arg3 : DevRef τ sig))
          (W (main_v40_0 : DevRef τ sig)) (W (main_v40_1 : DevRef τ sig)) := by
  simp only [hostOps1, hostOps1_1, hostOps1_2, hostOps1_3, hostOps1_4, hostOps1_5, List.flatten_cons, List.flatten_nil, List.append_nil, List.cons_append, List.nil_append]
  after_results_simp
  rfl

end Cert.KernelIdeal.KerRun

end
-- ==== Proof.Spec.lean ====
/-
  THE RESULT, INDEX BY INDEX, as one function of the seven argument arrays over the extended reals.

  An edge `e` of the 300000 triples names a head entity, a value and an attribute by three signed words
  `a0 (e, 0)`, `a0 (e, 1)`, `a0 (e, 2)`. A row READ from a feature table wraps a negative word once (`wrap`) and then
  clamps it into the table (`rowOf`); a row ADDED INTO by a segment sum takes the raw head word, and an edge whose head
  word, read signed, is not a row of the table adds nothing.

    lin e      = Σ_k ent[entRow e, k] · a4[0, k]  +  Σ_k att[attRow e, k] · a4[0, 256 + k]  +  a5[0]
    score e    = exp (lrelu (lin e))
    rowSum v   = 0 + Σ_{e : head word of e is v} score e
    attn e     = score e / rowSum (entRow e)
    proj e j   = Σ_k att[attRow e, k] · a6[k, j]  +  Σ_k val[valRow e, k] · a6[256 + k, j]
    feats v j  = 0 + Σ_{e : head word of e is v} proj e j · attn e
    out (v, j) = elu (feats v j + ent[v, j])

  Nothing here mentions a program: both programs are read against these definitions.
-/
import Idealize.ShloMosaic.PureOps.Ideal
import Idealize.ShloMosaic.Lib.ValueIdx

noncomputable section

open scoped BigOperators

namespace Cert.Spec

open Idealize.ShloMosaic Idealize.ShloMosaic.ValueIdx

/-- A start word wrapped as a negative index is: `w + n` when `w` is negative as a signed word, else `w`. -/
def wrap (n w : BitVec 32) : BitVec 32 := Scalar.select (IntOp.cmpi .slt w 0#32) (IntOp.addi w n) w

/-- The row a gather reads for the start word `w`: the word read signed and clamped into `[0, N − 1]`. -/
def rowOf (N : Nat) (hN : 0 < N) (w : BitVec 32) : Fin N := ⟨min w.toInt.toNat (N - 1), by omega⟩

/-- The leaky rectifier of slope `0.2` (the float `0x3E4CCCCD`, the same word in both programs): `s` itself when
    positive, the slope times `s` otherwise. At `s = 0` both branches are `0`, so testing `0 ≤ s` gives the same function. -/
def lrelu (s : EReal) : EReal := if 0 < s then s else Ideal.ofBits .f32 0x3E4CCCCD#32 * s

/-- The exponential linear unit as jax spells it, one element: `x` when positive, else `1 · (exp (x') − 1)` with
    `x'` the input where it is not positive (and `0` where it is, a branch never selected). -/
def eluS (x : EReal) : EReal :=
  Scalar.select (FloatOps.cmpf (F := Ideal) .ogt x (Ideal.ofBits .f32 0x00000000#32)) x
    (Ideal.ofBits .f32 0x3F800000#32 *
      (Ideal.exp (Scalar.select (FloatOps.cmpf (F := Ideal) .ogt x (Ideal.ofBits .f32 0x00000000#32))
        (Ideal.ofBits .f32 0x00000000#32) x) - 1))

section
variable (a0 : IVec ⟨2, ![300000, 3]⟩ 32) (a1 : FVec Ideal ⟨2, ![2000, 256]⟩ .f32)
  (a2 : FVec Ideal ⟨2, ![100000, 256]⟩ .f32) (a3 : FVec Ideal ⟨2, ![50000, 256]⟩ .f32)
  (a4 : FVec Ideal ⟨2, ![1, 512]⟩ .f32) (a5 : FVec Ideal ⟨1, ![1]⟩ .f32) (a6 : FVec Ideal ⟨2, ![512, 256]⟩ .f32)

/-- The head word of edge `e`. -/
def headWord (e : Fin 300000) : BitVec 32 := a0 (ix2 e (0 : Fin 3))
/-- The entity row edge `e` reads. -/
def entRow (e : Fin 300000) : Fin 50000 := rowOf 50000 (by norm_num) (wrap 50000#32 (a0 (ix2 e (0 : Fin 3))))
/-- The value row edge `e` reads. -/
def valRow (e : Fin 300000) : Fin 100000 := rowOf 100000 (by norm_num) (wrap 100000#32 (a0 (ix2 e (1 : Fin 3))))
/-- The attribute row edge `e` reads. -/
def attRow (e : Fin 300000) : Fin 2000 := rowOf 2000 (by norm_num) (wrap 2000#32 (a0 (ix2 e (2 : Fin 3))))

/-- The edges whose head word, read signed, is the row `v`. -/
def edgesOf (v : Fin 50000) : Finset (Fin 300000) :=
  Finset.univ.filter fun e : Fin 300000 => (a0 (ix2 e (0 : Fin 3))).toInt = (v.val : ℤ)

/-- The attention logit of edge `e`: the entity row against the first half of `a4`, the attribute row against the
    second half, plus the bias. -/
def lin (e : Fin 300000) : EReal :=
  (∑ k : Fin 256, a3 (ix2 (entRow a0 e) k) * a4 (ix2 (0 : Fin 1) (⟨k.val, by omega⟩ : Fin 512)))
    + (∑ k : Fin 256, a1 (ix2 (attRow a0 e) k) * a4 (ix2 (0 : Fin 1) (⟨256 + k.val, by omega⟩ : Fin 512)))
    + a5 (ix1 (0 : Fin 1))

/-- The unnormalized attention of edge `e`. -/
def score (e : Fin 300000) : EReal := Ideal.exp (lrelu (lin a0 a1 a3 a4 a5 e))

/-- The sum of the scores of the edges headed at `v`. -/
def rowSum (v : Fin 50000) : EReal := 0 + ∑ e ∈ edgesOf a0 v, score a0 a1 a3 a4 a5 e

/-- The attention of edge `e`: its score over the score sum of the entity row it reads. -/
def attn (e : Fin 300000) : EReal :=
  Ideal.div (score a0 a1 a3 a4 a5 e) (rowSum a0 a1 a3 a4 a5 (entRow a0 e))

/-- The projection of edge `e`'s attribute and value rows by the two halves of `a6`, at column `j`. -/
def proj (e : Fin 300000) (j : Fin 256) : EReal :=
  (∑ k : Fin 256, a1 (ix2 (attRow a0 e) k) * a6 (ix2 (⟨k.val, by omega⟩ : Fin 512) j))
    + (∑ k : Fin 256, a2 (ix2 (valRow a0 e) k) * a6 (ix2 (⟨256 + k.val, by omega⟩ : Fin 512) j))

/-- The attended features gathered at entity `v`, column `j`. -/
def feats (v : Fin 50000) (j : Fin 256) : EReal :=
  0 + ∑ e ∈ edgesOf a0 v, proj a0 a1 a2 a6 e j * attn a0 a1 a3 a4 a5 e

/-- THE RESULT ARRAY. -/
def out : FVec Ideal ⟨2, ![50000, 256]⟩ .f32 := fun i =>
  eluS (feats a0 a1 a2 a3 a4 a5 a6 (i 0) (i 1) + a3 i)

theorem out_apply (v : Fin 50000) (j : Fin 256) :
    out a0 a1 a2 a3 a4 a5 a6 (ix2 v j) = eluS (feats a0 a1 a2 a3 a4 a5 a6 v j + a3 (ix2 v j)) := rfl

end

end Cert.Spec

end
-- ==== Proof.KerBodyLayout.lean ====
/-
  SMALL READINGS AT AN INDEX that the kernel body's two stored values are made of, each stated over variables at an
  index written by its coordinates: a vector cast to a one-column matrix, the sum of a matrix over its lanes, and the
  leaky rectifier the body spells with a comparison and a select.
-/
import Idealize.ShloMosaic.Lib.ValueIdx
import Idealize.ShloMosaic.Lib.Pipeline.Value
import Idealize.ShloMosaic.Lib.ValueLayout
import Idealize.ShloMosaic.PureOps.Ideal.Laws
import proofs.«175619_j26620207300627_2_alg».proof.Proof.Spec

noncomputable section

open scoped BigOperators

namespace Cert.KernelIdeal.KerBody

open Idealize.ShloMosaic Idealize.ShloMosaic.ValueIdx

/-- A vector `[a]` cast to a one-column matrix `[a, 1]` reads, at `(i, u)`, the operand at `i`: both indices sit at
    row-major position `i`, the column coordinate `u` of a unit axis being `0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` matrix over its lanes (axis 1), read at row `r`, is the sum over `k` of the entries
    `(r, k)`: the index lifted from `r` with `k` inserted on the dropped axis is `(r, k)`. -/
theorem laneSum_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ)
    (r : Fin a) :
    multiReduction (F := Ideal) .add [1] ⟨1, ![a]⟩ v acc h hφ hacc (ix1 r) = ∑ k : Fin b, v (ix2 r k) := by
  refine (Ideal.multiReduction_add_single v acc h hφ hacc (ix1 r)).trans ?_
  refine Finset.sum_congr rfl fun k _ => congrArg v (funext fun c => Fin.ext ?_)
  match c with
  | ⟨0, _⟩ => rfl
  | ⟨1, _⟩ => rfl

/-- The body's leaky rectifier at one element: "`s` where `s > 0`, else the slope word times `s`", the comparison
    being the extended reals' order and the zero word the real `0`, is the specification's `lrelu`. -/
theorem select_ogt_eq_lrelu (s : EReal) :
    Scalar.select (FloatOps.cmpf (F := Ideal) (φ := .f32) .ogt s (Scalar.ofBits .f32 0x00000000#32)) s
        (FloatOps.mulf (F := Ideal) (φ := .f32) (Scalar.ofBits .f32 0x3E4CCCCD#32) s)
      = Cert.Spec.lrelu s := by
  have hz : Scalar.ofBits (F := Ideal) .f32 0x00000000#32 = (0 : EReal) := Ideal.ofBits_zero_f32
  have hc : Scalar.ofBits (F := Ideal) .f32 0x3E4CCCCD#32 = Ideal.ofBits .f32 0x3E4CCCCD#32 := rfl
  rw [hz, hc, Ideal.cmpf_def, Ideal.mulf_def]
  unfold Cert.Spec.lrelu Ideal.cmp
  by_cases hs : (0 : EReal) < s
  · rw [if_pos hs]
    have : BitVec.ofBool (decide ((0 : EReal) < s)) = 1#1 := by rw [decide_eq_true hs]; rfl
    show Scalar.select (BitVec.ofBool (decide ((0 : EReal) < s))) s _ = s
    rw [this, select_one]
  · rw [if_neg hs]
    have : BitVec.ofBool (decide ((0 : EReal) < s)) = 0#1 := by rw [decide_eq_false hs]; rfl
    show Scalar.select (BitVec.ofBool (decide ((0 : EReal) < s))) s _ = _
    rw [this, select_zero]

end Cert.KernelIdeal.KerBody

end
-- ==== Proof.KerBodyScore.lean ====
/-
  THE SCORE BLOCK AT AN INDEX. The body stores, for each of its 2048 edges, the exponential of the leaky rectifier of
  the edge's logit: the entity row against the first half of the attention vector, plus the attribute row against the
  second half, plus the bias. Read at `(r, 0)` the stored block is that number for row `r`.
-/
import proofs.«175619_j26620207300627_2_alg».proof.Proof.Gen.KernelIdeal.Frame
import proofs.«175619_j26620207300627_2_alg».proof.Proof.KerBodyLayout

noncomputable section

open scoped BigOperators

namespace Cert.KernelIdeal.KerBody

open Cert.KernelIdeal Cert.KernelIdeal.Gen Idealize.ShloMosaic Idealize.ShloMosaic.ValueIdx

/-- The exponential of a vector at an index is the exponential of the element. -/
theorem exp_apply {s : Shape} {φ : FTy} (x : FVec Ideal s φ) (i : s.Idx) : exp x i = Ideal.exp (x i) := rfl

/-- The body's last three operations on the logit vector `L` — the comparison with zero, the select against the slope
    times `L`, the exponential — read at an index: the exponential of the leaky rectifier of `L` there. -/
theorem exp_lrelu_apply {s : Shape} (L : FVec Ideal s .f32) (i : s.Idx) :
    exp (select (cmpf .ogt L (broadcast s (Scalar.ofBits (F := Ideal) .f32 0x00000000#32))) L
        (mulf (broadcast s (Scalar.ofBits (F := Ideal) .f32 0x3E4CCCCD#32)) L)) i
      = Ideal.exp (Cert.Spec.lrelu (L i)) :=
  congrArg Ideal.exp (select_ogt_eq_lrelu (L i))

/-- One half of the logit: the rows of `X` times the one row `w` broadcast down them, summed over the lanes and cast
    to a column, read at `(r, u)`: the inner product of row `r` of `X` with `w`. -/
theorem rowDot_apply {a b : ℕ} (X : FVec Ideal ⟨2, ![a, b]⟩ .f32) (w : FVec Ideal ⟨2, ![1, b]⟩ .f32)
    (hb : (⟨2, ![1, b]⟩ : Shape).Broadcasts ⟨2, ![a, b]⟩) (acc : BitVec 32)
    (hr : Shape.Reduces ⟨2, ![a, b]⟩ [1] ⟨1, ![a]⟩) (hφ : FKind.Formats .f32) (hacc : acc = FKind.add.neutral .f32 hφ)
    (hc : (⟨1, ![a]⟩ : Shape).ShapeCasts ⟨2, ![a, 1]⟩) (r : Fin a) (u : Fin 1) :
    shapeCast ⟨2, ![a, 1]⟩
        (multiReduction (F := Ideal) .add [1] ⟨1, ![a]⟩ (mulf X (broadcastTo ⟨2, ![a, b]⟩ w hb)) acc hr hφ hacc) hc (ix2 r u)
      = ∑ k : Fin b, X (ix2 r k) * w (ix2 (0 : Fin 1) k) := by
  refine (shapeCast_a_a1_apply _ hc r u).trans ?_
  refine (laneSum_apply _ acc hr hφ hacc r).trans ?_
  refine Finset.sum_congr rfl fun k _ => ?_
  exact congrArg (fun t => X (ix2 r k) * t) (broadcastTo_1b_ab_apply w hb r k)

/-- The payload of the score store at `(r, 0)`, over the five blocks it reads. -/
theorem pay3_apply (v0 v2 : Vec Ideal S2048x256 .f32) (v4 v6 : Vec Ideal S1x256 .f32) (v8 : Vec Ideal S1x1 .f32)
    (r : Fin 2048) :
    Gen.k0_pay3 (F := Ideal) v0 v2 v4 v6 v8 (ix2 r (0 : Fin 1))
      = Ideal.exp (Cert.Spec.lrelu ((∑ k : Fin 256, v0 (ix2 r k) * v4 (ix2 (0 : Fin 1) k))
          + (∑ k : Fin 256, v2 (ix2 r k) * v6 (ix2 (0 : Fin 1) k)) + v8 (ix2 (0 : Fin 1) (0 : Fin 1)))) := by
  unfold Gen.k0_pay3 Gen.k0_pay2
  simp only [shapeCast_self]
  refine (exp_lrelu_apply _ _).trans (congrArg (fun t => Ideal.exp (Cert.Spec.lrelu t)) ?_)
  refine (addf_apply _ _ _).trans ?_
  refine congrArg₂ (· + ·) ((addf_apply _ _ _).trans (congrArg₂ (· + ·) ?_ ?_)) ?_
  · exact rowDot_apply v0 v4 _ _ _ _ _ _ r 0
  · exact rowDot_apply v2 v6 _ _ _ _ _ _ r 0
  · exact broadcastTo_1b_ab_apply v8 _ r 0

/-- THE SCORE BLOCK at `(r, 0)`: the one store covers the buffer and the loads read the whole blocks, so the buffer
    holds the payload of the blocks themselves. -/
theorem score_block_apply (x0 : Vec Ideal S2048x256 .f32) (x1 : Vec Ideal S2048x256 .f32) (x2 : Vec Ideal S2048x256 .bf16)
    (x3 : Vec Ideal S1x256 .f32) (x4 : Vec Ideal S1x256 .f32) (x5 : Vec Ideal S1x1 .f32) (x6 : Vec Ideal S256x256 .f32)
    (x7 : Vec Ideal S256x256 .f32) (r : Fin 2048) :
    Gen.out0_8 (F := Ideal) x0 x1 x2 x3 x4 x5 x6 x7 (ix2 r (0 : Fin 1))
      = Ideal.exp (Cert.Spec.lrelu ((∑ k : Fin 256, x0 (ix2 r k) * x3 (ix2 (0 : Fin 1) k))
          + (∑ k : Fin 256, x1 (ix2 r k) * x4 (ix2 (0 : Fin 1) k)) + x5 (ix2 (0 : Fin 1) (0 : Fin 1)))) := by
  have hz : (![0, 0] : Fin 2 → Nat) = fun _ => 0 := by
    funext a; match a with | ⟨0, _⟩ => rfl | ⟨1, _⟩ => rfl
  unfold Gen.out0_8
  rw [View.canon_unit_zero hz]
  simp only [View.ld_unit_zero (S := S2048x256) hz, View.ld_unit_zero (S := S1x256) hz, View.ld_unit_zero (S := S1x1) hz]
  exact pay3_apply x0 x1 x3 x4 x5 r

end Cert.KernelIdeal.KerBody

end
-- ==== Proof.KerBodyDot.lean ====
/-
  THE BODY'S MATRIX PRODUCT AT AN INDEX: a `[2048, 256]` block times a `[256, 256]` matrix accumulated into the zero
  block, read at `(r, j)`, is the sum over `k` of the products of the entries `(r, k)` and `(k, j)`.
-/
import proofs.«175619_j26620207300627_2_alg».proof.Proof.Gen.KernelIdeal
import Idealize.ShloMosaic.Lib.ValueIdx
import Idealize.ShloMosaic.PureOps.Ideal.Laws

noncomputable section

open scoped BigOperators

namespace Cert.KernelIdeal.KerBody

open Cert.KernelIdeal Cert.KernelIdeal.Gen Idealize.ShloMosaic Idealize.ShloMosaic.ValueIdx

/-- The left operand's row coordinate is the output's row (its free axis). -/
theorem dot_lhs_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl

/-- The left operand's column coordinate is the contraction coordinate (its one contracted axis). -/
theorem dot_lhs_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q

/-- The right operand's row coordinate is the contraction coordinate. -/
theorem dot_rhs_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q

/-- The right operand's column coordinate is the output's column (its free axis). -/
theorem dot_rhs_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The product into the zero block at `(r, j)`: the contraction index is its one coordinate `k : Fin 256`, at which
    the operands are read at `(r, k)` and `(k, j)`. -/
theorem matmul_zero_apply {φ₁ φ₂ : FTy} (A : FVec Ideal S2048x256 φ₁) (B : FVec Ideal S256x256 φ₂)
    (r : Fin 2048) (j : Fin 256) :
    matmul (F := Ideal) dot_S2048x256_S256x256_S2048x256_1_0_0_1_n_n none A B
        (constant (F := Ideal) S2048x256 .f32 0x00000000#32) (ix2 r j)
      = ∑ k : Fin 256, A (ix2 r k) * B (ix2 k j) := by
  refine (Ideal.matmul_constant_zero_apply dot_S2048x256_S256x256_S2048x256_1_0_0_1_n_n none A B (ix2 r j)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r j)
      ((contrEquiv1 dot_S2048x256_S256x256_S2048x256_1_0_0_1_n_n 256 rfl rfl).symm k) = ix2 r k :=
    funext fun a => Fin.ext (by
      match a with
      | ⟨0, _⟩ => exact dot_lhs_0 _ _
      | ⟨1, _⟩ => exact (dot_lhs_1 _ _).trans hk)
  have er : dot_S2048x256_S256x256_S2048x256_1_0_0_1_n_n.rhsIdx (ix2 r j)
      ((contrEquiv1 dot_S2048x256_S256x256_S2048x256_1_0_0_1_n_n 256 rfl rfl).symm k) = ix2 k j :=
    funext fun a => Fin.ext (by
      match a with
      | ⟨0, _⟩ => exact (dot_rhs_0 _ _).trans hk
      | ⟨1, _⟩ => exact dot_rhs_1 _ _)
  rw [el, er]

end Cert.KernelIdeal.KerBody

end
-- ==== Proof.KerBodyProj.lean ====
/-
  THE PROJECTION BLOCK AT AN INDEX. The body stores, for each of its 2048 edges, the attribute row times the first half
  of the projection matrix plus the value row times the second half: two matrix products into zero blocks, added. The
  changes of float format around the operands are the identity on extended reals. Read at `(r, j)` the stored block
  is the sum of the two inner products of row `r` with column `j`.
-/
import proofs.«175619_j26620207300627_2_alg».proof.Proof.Gen.KernelIdeal.Frame
import proofs.«175619_j26620207300627_2_alg».proof.Proof.KerBodyDot
import Idealize.ShloMosaic.Lib.Pipeline.Value

noncomputable section

open scoped BigOperators

namespace Cert.KernelIdeal.KerBody

open Cert.KernelIdeal Cert.KernelIdeal.Gen Idealize.ShloMosaic Idealize.ShloMosaic.ValueIdx

/-- The sum of two products into zero blocks at `(r, j)`, over the four operands as the products take them. -/
theorem pay1_apply (A : FVec Ideal S2048x256 .bf16) (B : FVec Ideal S2048x256 .bf16) (M : FVec Ideal S256x256 .bf16)
    (N : FVec Ideal S256x256 .f32) (r : Fin 2048) (j : Fin 256) :
    Gen.k0_pay1 (F := Ideal) A B M N (ix2 r j)
      = (∑ k : Fin 256, A (ix2 r k) * M (ix2 k j)) + (∑ k : Fin 256, B (ix2 r k) * N (ix2 k j)) := by
  unfold Gen.k0_pay1
  refine (addf_apply _ _ _).trans (congrArg₂ (· + ·) (matmul_zero_apply A M r j) ?_)
  exact matmul_zero_apply B (truncf .bf16 N bitsLt_bf16_f32) r j

/-- The four operands are the loaded blocks themselves: a cast to the same shape is the identity, and so is a
    narrowing of the float format on extended reals. -/
theorem pay4_apply (v : Vec Ideal S2048x256 .f32) (i : S2048x256.Idx) : Gen.k0_pay4 (F := Ideal) v i = v i := by
  unfold Gen.k0_pay4 Gen.k0_pay2
  rw [shapeCast_self]
  rfl
theorem pay5_apply (v : Vec Ideal S2048x256 .bf16) (i : S2048x256.Idx) : Gen.k0_pay5 (F := Ideal) v i = v i := by
  unfold Gen.k0_pay5
  rw [shapeCast_self]
theorem pay6_apply (v : Vec Ideal S256x256 .f32) (i : S256x256.Idx) : Gen.k0_pay6 (F := Ideal) v i = v i := by
  unfold Gen.k0_pay6
  rw [shapeCast_self]
  rfl
theorem pay7_apply (v : Vec Ideal S256x256 .f32) (i : S256x256.Idx) : Gen.k0_pay7 (F := Ideal) v i = v i := by
  unfold Gen.k0_pay7
  rw [shapeCast_self]

/-- THE PROJECTION BLOCK at `(r, j)`: the one store covers the buffer and the loads read the whole blocks, so the
    buffer holds the payload of the blocks themselves. -/
theorem proj_block_apply (x0 : Vec Ideal S2048x256 .f32) (x1 : Vec Ideal S2048x256 .f32) (x2 : Vec Ideal S2048x256 .bf16)
    (x3 : Vec Ideal S1x256 .f32) (x4 : Vec Ideal S1x256 .f32) (x5 : Vec Ideal S1x1 .f32) (x6 : Vec Ideal S256x256 .f32)
    (x7 : Vec Ideal S256x256 .f32) (r : Fin 2048) (j : Fin 256) :
    Gen.out0_9 (F := Ideal) x0 x1 x2 x3 x4 x5 x6 x7 (ix2 r j)
      = (∑ k : Fin 256, x1 (ix2 r k) * x6 (ix2 k j)) + (∑ k : Fin 256, x2 (ix2 r k) * x7 (ix2 k j)) := by
  have hz : (![0, 0] : Fin 2 → Nat) = fun _ => 0 := by
    funext a; match a with | ⟨0, _⟩ => rfl | ⟨1, _⟩ => rfl
  unfold Gen.out0_9
  rw [View.canon_unit_zero hz]
  simp only [View.ld_unit_zero (S := S2048x256) hz, View.ld_unit_zero (S := S256x256) hz]
  refine (pay1_apply _ _ _ _ r j).trans ?_
  simp only [pay4_apply, pay5_apply, pay6_apply, pay7_apply]

end Cert.KernelIdeal.KerBody

end
-- ==== Proof.KerFns.lean ====
/-
  THE REGION'S TWO OUTPUTS AS FUNCTIONS OF WHOLE ARRAYS: for every one of the 301056 (padded) edges, its score and its
  projection from the staged row tables and the small operands.
-/
import proofs.«175619_j26620207300627_2_alg».proof.KernelIdeal
import proofs.«175619_j26620207300627_2_alg».proof.Proof.Spec

noncomputable section

open scoped BigOperators

namespace Cert.KernelIdeal.KerFns

open Cert.KernelIdeal Idealize.ShloMosaic Idealize.ShloMosaic.ValueIdx

/-- The score of every (padded) edge from the staged arrays: the exponential of the leaky rectifier of the entity row
    against the first half of the attention vector plus the attribute row against the second half plus the bias. -/
def scoreFn (E A : FVec Ideal S301056x256 .f32) (u1 u2 : FVec Ideal S1x256 .f32) (b : FVec Ideal S1x1 .f32) :
    FVec Ideal S301056x1 .f32 := fun i =>
  Ideal.exp (Cert.Spec.lrelu ((∑ k : Fin 256, E (ix2 (i 0 : Fin 301056) k) * u1 (ix2 (0 : Fin 1) k))
    + (∑ k : Fin 256, A (ix2 (i 0 : Fin 301056) k) * u2 (ix2 (0 : Fin 1) k)) + b (ix2 (0 : Fin 1) (0 : Fin 1))))

theorem scoreFn_apply (E A : FVec Ideal S301056x256 .f32) (u1 u2 : FVec Ideal S1x256 .f32) (b : FVec Ideal S1x1 .f32)
    (e : Fin 301056) (u : Fin 1) :
    scoreFn E A u1 u2 b (ix2 e u) = Ideal.exp (Cert.Spec.lrelu ((∑ k : Fin 256, E (ix2 e k) * u1 (ix2 (0 : Fin 1) k))
      + (∑ k : Fin 256, A (ix2 e k) * u2 (ix2 (0 : Fin 1) k)) + b (ix2 (0 : Fin 1) (0 : Fin 1)))) := rfl

/-- The projection of every (padded) edge from the staged arrays: the attribute row by the upper half of the matrix plus
    the value row by the lower half. -/
def projFn (A : FVec Ideal S301056x256 .f32) (B : FVec Ideal S301056x256 .bf16) (m1 m2 : FVec Ideal S256x256 .f32) :
    FVec Ideal S301056x256 .f32 := fun i =>
  (∑ k : Fin 256, A (ix2 (i 0 : Fin 301056) k) * m1 (ix2 k (i 1 : Fin 256)))
    + (∑ k : Fin 256, B (ix2 (i 0 : Fin 301056) k) * m2 (ix2 k (i 1 : Fin 256)))

theorem projFn_apply (A : FVec Ideal S301056x256 .f32) (B : FVec Ideal S301056x256 .bf16) (m1 m2 : FVec Ideal S256x256 .f32)
    (e : Fin 301056) (j : Fin 256) :
    projFn A B m1 m2 (ix2 e j) = (∑ k : Fin 256, A (ix2 e k) * m1 (ix2 k j)) + (∑ k : Fin 256, B (ix2 e k) * m2 (ix2 k j)) := rfl

end Cert.KernelIdeal.KerFns

end
-- ==== Proof.KerFinal.lean ====
/-
  THE REGION'S TWO OUTPUT ARRAYS AFTER THE RUN, each as one function of the arrays the region finds.
  Grid point `t` (of 147) handles the 2048 edges `2048 t … 2048 t + 2047`: it reads rows `2048 t + r` of the three padded row
  tables and the whole of the five small operands, and writes back rows `2048 t + r` of the score column and of the
  projection matrix. So what point `t` writes back is block `t` of a function of the WHOLE staged arrays; the 147 blocks
  cover the 301056 rows (row `e` lies in block `e / 2048`); hence each output array IS that function.
-/
import proofs.«175619_j26620207300627_2_alg».proof.Proof.Gen.KernelIdeal.Frame
import proofs.«175619_j26620207300627_2_alg».proof.Proof.KerBodyScore
import proofs.«175619_j26620207300627_2_alg».proof.Proof.KerBodyProj
import proofs.«175619_j26620207300627_2_alg».proof.Proof.KerFns
import Idealize.ShloMosaic.Lib.Pipeline.Value
import Idealize.ShloMosaic.Lib.ValueIdx

set_option maxRecDepth 16384

noncomputable section

open scoped BigOperators

namespace Cert.KernelIdeal.KerFinal

open Cert.KernelIdeal Cert.KernelIdeal.Gen Cert.KernelIdeal.KerFns
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The printed index maps, decided over the grid: the three row tables and the two outputs are at block `(t, 0)`, the
    five small operands at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem lt147 (t : Fin cfg0.N) : t.val < 147 := lt_of_lt_of_eq t.isLt N_0

/-- The row of the arrays that row `r` of block `t` is. -/
def rowAt (t : Fin cfg0.N) (r : Fin 2048) : Fin 301056 := ⟨t.val * 2048 + r.val, by have := lt147 t; omega⟩

/-! ## Each input block, located in its array -/

theorem blk0 (c : Dev nD) (t : Fin cfg0.N) (r : Fin 2048) (k : Fin 256) :
    iblk m c 0 t (ix2 r k) = V m c main_v28 (ix2 (rowAt t r) k) := by
  have hf := idx_facts t
  show V m c main_v28 (((cfg0.win 0).blk t).view.emb (ix2 r k)) = _
  refine congrArg (V m c main_v28) ?_
  funext a; apply Fin.ext
  match a with
  | ⟨0, _⟩ => show win0_0.index t (0 : Fin 2) * 2048 + 1 * r.val = t.val * 2048 + r.val; omega
  | ⟨1, _⟩ => show win0_0.index t (1 : Fin 2) * 256 + 1 * k.val = k.val; omega

theorem blk1 (c : Dev nD) (t : Fin cfg0.N) (r : Fin 2048) (k : Fin 256) :
    iblk m c 1 t (ix2 r k) = V m c main_v29 (ix2 (rowAt t r) k) := by
  have hf := idx_facts t
  show V m c main_v29 (((cfg0.win 1).blk t).view.emb (ix2 r k)) = _
  refine congrArg (V m c main_v29) ?_
  funext a; apply Fin.ext
  match a with
  | ⟨0, _⟩ => show win0_1.index t (0 : Fin 2) * 2048 + 1 * r.val = t.val * 2048 + r.val; omega
  | ⟨1, _⟩ => show win0_1.index t (1 : Fin 2) * 256 + 1 * k.val = k.val; omega

theorem blk2 (c : Dev nD) (t : Fin cfg0.N) (r : Fin 2048) (k : Fin 256) :
    iblk m c 2 t (ix2 r k) = V m c main_v30 (ix2 (rowAt t r) k) := by
  have hf := idx_facts t
  show V m c main_v30 (((cfg0.win 2).blk t).view.emb (ix2 r k)) = _
  refine congrArg (V m c main_v30) ?_
  funext a; apply Fin.ext
  match a with
  | ⟨0, _⟩ => show win0_2.index t (0 : Fin 2) * 2048 + 1 * r.val = t.val * 2048 + r.val; omega
  | ⟨1, _⟩ => show win0_2.index t (1 : Fin 2) * 256 + 1 * k.val = k.val; omega

theorem blk3 (c : Dev nD) (t : Fin cfg0.N) (p : Fin 1) (q : Fin 256) :
    iblk m c 3 t (ix2 p q) = V m c main_v35 (ix2 p q) := by
  have hf := idx_facts t
  show V m c main_v35 (((cfg0.win 3).blk t).view.emb (ix2 p q)) = _
  refine congrArg (V m c main_v35) ?_
  funext a; apply Fin.ext
  match a with
  | ⟨0, _⟩ => show win0_3.index t (0 : Fin 2) * 1 + 1 * p.val = p.val; omega
  | ⟨1, _⟩ => show win0_3.index t (1 : Fin 2) * 256 + 1 * q.val = q.val; omega

theorem blk4 (c : Dev nD) (t : Fin cfg0.N) (p : Fin 1) (q : Fin 256) :
    iblk m c 4 t (ix2 p q) = V m c main_v36 (ix2 p q) := by
  have hf := idx_facts t
  show V m c main_v36 (((cfg0.win 4).blk t).view.emb (ix2 p q)) = _
  refine congrArg (V m c main_v36) ?_
  funext a; apply Fin.ext
  match a with
  | ⟨0, _⟩ => show win0_4.index t (0 : Fin 2) * 1 + 1 * p.val = p.val; omega
  | ⟨1, _⟩ => show win0_4.index t (1 : Fin 2) * 256 + 1 * q.val = q.val; omega

theorem blk5 (c : Dev nD) (t : Fin cfg0.N) (p : Fin 1) (q : Fin 1) :
    iblk m c 5 t (ix2 p q) = V m c main_v37 (ix2 p q) := by
  have hf := idx_facts t
  show V m c main_v37 (((cfg0.win 5).blk t).view.emb (ix2 p q)) = _
  refine congrArg (V m c main_v37) ?_
  funext a; apply Fin.ext
  match a with
  | ⟨0, _⟩ => show win0_5.index t (0 : Fin 2) * 1 + 1 * p.val = p.val; omega
  | ⟨1, _⟩ => show win0_5.index t (1 : Fin 2) * 1 + 1 * q.val = q.val; omega

theorem blk6 (c : Dev nD) (t : Fin cfg0.N) (p : Fin 256) (q : Fin 256) :
    iblk m c 6 t (ix2 p q) = V m c main_v38 (ix2 p q) := by
  have hf := idx_facts t
  show V m c main_v38 (((cfg0.win 6).blk t).view.emb (ix2 p q)) = _
  refine congrArg (V m c main_v38) ?_
  funext a; apply Fin.ext
  match a with
  | ⟨0, _⟩ => show win0_6.index t (0 : Fin 2) * 256 + 1 * p.val = p.val; omega
  | ⟨1, _⟩ => show win0_6.index t (1 : Fin 2) * 256 + 1 * q.val = q.val; omega

theorem blk7 (c : Dev nD) (t : Fin cfg0.N) (p : Fin 256) (q : Fin 256) :
    iblk m c 7 t (ix2 p q) = V m c main_v39 (ix2 p q) := by
  have hf := idx_facts t
  show V m c main_v39 (((cfg0.win 7).blk t).view.emb (ix2 p q)) = _
  refine congrArg (V m c main_v39) ?_
  funext a; apply Fin.ext
  match a with
  | ⟨0, _⟩ => show win0_7.index t (0 : Fin 2) * 256 + 1 * p.val = p.val; omega
  | ⟨1, _⟩ => show win0_7.index t (1 : Fin 2) * 256 + 1 * q.val = q.val; omega

/-! ## The score column -/

/-- WHAT POINT `t` WRITES BACK to the score column is block `t` of `scoreFn` of the staged arrays. -/
theorem flushed8_eq (c : Dev nD) (t : Fin cfg0.N) :
    (dats m 0 c).flushed 8 t = ((cfg0.win 8).blk t).view.read (Elt Ideal)
      (scoreFn (V m c main_v28) (V m c main_v29) (V m c main_v35) (V m c main_v36) (V m c main_v37)) := by
  show (cfg0.win 8).cut (grid0.coords t) ((dats m 0 c).after 8 t) = _
  rw [after0_8]
  have hf := idx_facts t
  funext j
  obtain ⟨r, u, rfl⟩ : ∃ (r : Fin 2048) (u : Fin 1), j = ix2 r u := ⟨j 0, j 1, eq_ix2 j⟩
  obtain rfl : u = 0 := Subsingleton.elim _ _
  have hemb : ((cfg0.win 8).blk t).view.emb (ix2 r (0 : Fin 1)) = ix2 (rowAt t r) (0 : Fin 1) := by
    funext a; apply Fin.ext
    match a with
    | ⟨0, _⟩ => show win0_8.index t (0 : Fin 2) * 2048 + 1 * r.val = t.val * 2048 + r.val; omega
    | ⟨1, _⟩ => show win0_8.index t (1 : Fin 2) * 1 + 1 * 0 = 0; omega
  show out0_8 (iblk m c 0 t) (iblk m c 1 t) (iblk m c 2 t) (iblk m c 3 t) (iblk m c 4 t) (iblk m c 5 t) (iblk m c 6 t) (iblk m c 7 t) (ix2 r (0 : Fin 1))
    = scoreFn (V m c main_v28) (V m c main_v29) (V m c main_v35) (V m c main_v36) (V m c main_v37) (((cfg0.win 8).blk t).view.emb (ix2 r (0 : Fin 1)))
  rw [hemb, scoreFn_apply]
  refine (Cert.KernelIdeal.KerBody.score_block_apply (iblk m c 0 t) (iblk m c 1 t) (iblk m c 2 t) (iblk m c 3 t) (iblk m c 4 t) (iblk m c 5 t) (iblk m c 6 t) (iblk m c 7 t) r).trans ?_
  simp only [blk0 m c t r, blk1 m c t r, blk3 m c t, blk4 m c t, blk5 m c t]

theorem mem_blk8 (t : Fin cfg0.N) (i : S301056x1.Idx) :
    i ∈ ((cfg0.win 8).blk t).view.set ↔ ∀ a : Fin 2, win0_8.index t a * S2048x1.size a ≤ (i a).val ∧ (i a).val < win0_8.index t a * S2048x1.size a + S2048x1.size a := by
  show i ∈ ((View.whole main_v40_0).slice (win0_8.rect t)).set ↔ _
  rw [View.set_slice_whole, Rect.mem_set_unit]
  exact Iff.rfl

/-- Every row of the score column is in some point's block: row `e` in block `e / 2048`. -/
theorem cover8 (i : S301056x1.Idx) : ∃ t : Fin cfg0.N, (cfg0.win 8).flush t = true ∧ i ∈ ((cfg0.win 8).blk t).view.set := by
  have hi0 : (i 0).val < 301056 := (i 0).isLt
  have hi1 : (i 1).val < 1 := (i 1).isLt
  let t : Fin cfg0.N := ⟨(i 0).val / 2048, by rw [show cfg0.N = 147 from N_0]; omega⟩
  have ht : t.val = (i 0).val / 2048 := rfl
  have hf := idx_facts t
  refine ⟨t, flush0_8 t, ?_⟩
  rw [mem_blk8]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 1 ≤ (i 1).val ∧ (i 1).val < win0_8.index t (1 : Fin 2) * 1 + 1; omega

/-- THE SCORE COLUMN after the run. -/
theorem final8 (c : Dev nD) : (dats m 0 c).arrAt 8 cfg0.N
    = scoreFn (V m c main_v28) (V m c main_v29) (V m c main_v35) (V m c main_v36) (V m c main_v37) :=
  (dats m 0 c).arrAt_eq_of_cover 8 _ (fun t _ => flushed8_eq m c t) cover8

/-! ## The projection matrix -/

/-- WHAT POINT `t` WRITES BACK to the projection matrix is block `t` of `projFn` of the staged arrays. -/
theorem flushed9_eq (c : Dev nD) (t : Fin cfg0.N) :
    (dats m 0 c).flushed 9 t = ((cfg0.win 9).blk t).view.read (Elt Ideal)
      (projFn (V m c main_v29) (V m c main_v30) (V m c main_v38) (V m c main_v39)) := by
  show (cfg0.win 9).cut (grid0.coords t) ((dats m 0 c).after 9 t) = _
  rw [after0_9]
  have hf := idx_facts t
  funext j
  obtain ⟨r, q, rfl⟩ : ∃ (r : Fin 2048) (q : Fin 256), j = ix2 r q := ⟨j 0, j 1, eq_ix2 j⟩
  have hemb : ((cfg0.win 9).blk t).view.emb (ix2 r q) = ix2 (rowAt t r) q := by
    funext a; apply Fin.ext
    match a with
    | ⟨0, _⟩ => show win0_9.index t (0 : Fin 2) * 2048 + 1 * r.val = t.val * 2048 + r.val; omega
    | ⟨1, _⟩ => show win0_9.index t (1 : Fin 2) * 256 + 1 * q.val = q.val; omega
  show out0_9 (iblk m c 0 t) (iblk m c 1 t) (iblk m c 2 t) (iblk m c 3 t) (iblk m c 4 t) (iblk m c 5 t) (iblk m c 6 t) (iblk m c 7 t) (ix2 r q)
    = projFn (V m c main_v29) (V m c main_v30) (V m c main_v38) (V m c main_v39) (((cfg0.win 9).blk t).view.emb (ix2 r q))
  rw [hemb, projFn_apply]
  refine (Cert.KernelIdeal.KerBody.proj_block_apply (iblk m c 0 t) (iblk m c 1 t) (iblk m c 2 t) (iblk m c 3 t) (iblk m c 4 t) (iblk m c 5 t) (iblk m c 6 t) (iblk m c 7 t) r q).trans ?_
  simp only [blk1 m c t r, blk2 m c t r, blk6 m c t, blk7 m c t]

theorem mem_blk9 (t : Fin cfg0.N) (i : S301056x256.Idx) :
    i ∈ ((cfg0.win 9).blk t).view.set ↔ ∀ a : Fin 2, win0_9.index t a * S2048x256.size a ≤ (i a).val ∧ (i a).val < win0_9.index t a * S2048x256.size a + S2048x256.size a := by
  show i ∈ ((View.whole main_v40_1).slice (win0_9.rect t)).set ↔ _
  rw [View.set_slice_whole, Rect.mem_set_unit]
  exact Iff.rfl

/-- Every row of the projection matrix is in some point's block. -/
theorem cover9 (i : S301056x256.Idx) : ∃ t : Fin cfg0.N, (cfg0.win 9).flush t = true ∧ i ∈ ((cfg0.win 9).blk t).view.set := by
  have hi0 : (i 0).val < 301056 := (i 0).isLt
  have hi1 : (i 1).val < 256 := (i 1).isLt
  let t : Fin cfg0.N := ⟨(i 0).val / 2048, by rw [show cfg0.N = 147 from N_0]; omega⟩
  have ht : t.val = (i 0).val / 2048 := rfl
  have hf := idx_facts t
  refine ⟨t, flush0_9 t, ?_⟩
  rw [mem_blk9]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 256 ≤ (i 1).val ∧ (i 1).val < win0_9.index t (1 : Fin 2) * 256 + 256; omega

/-- THE PROJECTION MATRIX after the run. -/
theorem final9 (c : Dev nD) : (dats m 0 c).arrAt 9 cfg0.N
    = projFn (V m c main_v29) (V m c main_v30) (V m c main_v38) (V m c main_v39) :=
  (dats m 0 c).arrAt_eq_of_cover 9 _ (fun t _ => flushed9_eq m c t) cover9

end Cert.KernelIdeal.KerFinal

end
-- ==== Proof.KerLayout.lean ====
/-
  SMALL LAYOUT FACTS, each an array operation read at one index, for any sizes:
  rows appended below a matrix (`pad` on the row axis) and entries appended to a flat array; a one-column matrix read as
  a flat array and back; a flat array as a column; a column repeated along the rows' width; and the comparison of a
  position with a bound, positions being small enough to be read as signed words unchanged.
-/
import Idealize.ShloMosaic.PureOps.Ideal
import Idealize.ShloMosaic.Lib.ValueIdx
import Idealize.ShloMosaic.Lib.Pipeline.Value
import Idealize.ShloMosaic.Lib.ValueLayout

noncomputable section

namespace Cert.KerLayout

open Idealize.ShloMosaic Idealize.ShloMosaic.ValueIdx

variable {α : Type}

/-- Rows appended below a matrix: a row of the source is kept, a row past it holds the padding value. -/
theorem pad_rows_apply {M N C H : Nat} (x : (⟨2, ![M, C]⟩ : Shape).Idx → α) {u : Shape} (v : u.Idx → α)
    (h : (⟨2, ![M, C]⟩ : Shape).Pads ![0, 0] ![H, 0] ![0, 0] ⟨2, ![N, C]⟩) (hu : 0 < u.numel) (e : Fin N) (k : Fin C) :
    pad ⟨2, ![N, C]⟩ ![0, 0] ![H, 0] ![0, 0] x v h hu (ix2 e k)
      = if hlt : e.val < M then x (ix2 ⟨e.val, hlt⟩ k) else v (Shape.Idx.first hu) := by
  unfold pad
  by_cases hlt : e.val < M
  · rw [dif_pos hlt]
    split
    · congr 1
      funext a
      apply Fin.ext
      match a with
      | ⟨0, _⟩ => show (e.val - 0) / (0 + 1) = e.val; simp
      | ⟨1, _⟩ => show (k.val - 0) / (0 + 1) = k.val; simp
    · rename_i hin
      exfalso
      apply hin
      intro a
      match a with
      | ⟨0, _⟩ =>
        refine ⟨Nat.zero_le _, ?_, ?_⟩
        · show (e.val - 0) % (0 + 1) = 0; omega
        · show (e.val - 0) / (0 + 1) < M; simpa using hlt
      | ⟨1, _⟩ =>
        refine ⟨Nat.zero_le _, ?_, ?_⟩
        · show (k.val - 0) % (0 + 1) = 0; omega
        · show (k.val - 0) / (0 + 1) < C; simpa using k.isLt
  · rw [dif_neg hlt]
    split
    · rename_i hin
      exfalso
      have h0 : (e.val - 0) / (0 + 1) < M := (hin 0).2.2
      rw [Nat.sub_zero, Nat.zero_add, Nat.div_one] at h0
      exact hlt h0
    · rfl

/-- Entries appended to a flat array: an entry of the source is kept, one past it holds the padding value. -/
theorem pad_flat_apply {M N H : Nat} (x : (⟨1, ![M]⟩ : Shape).Idx → α) {u : Shape} (v : u.Idx → α)
    (h : (⟨1, ![M]⟩ : Shape).Pads ![0] ![H] ![0] ⟨1, ![N]⟩) (hu : 0 < u.numel) (e : Fin N) :
    pad ⟨1, ![N]⟩ ![0] ![H] ![0] x v h hu (ix1 e)
      = if hlt : e.val < M then x (ix1 ⟨e.val, hlt⟩) else v (Shape.Idx.first hu) := by
  unfold pad
  by_cases hlt : e.val < M
  · rw [dif_pos hlt]
    split
    · congr 1
      funext a
      apply Fin.ext
      match a with
      | ⟨0, _⟩ => show (e.val - 0) / (0 + 1) = e.val; simp
    · rename_i hin
      exfalso
      apply hin
      intro a
      match a with
      | ⟨0, _⟩ =>
        refine ⟨Nat.zero_le _, ?_, ?_⟩
        · show (e.val - 0) % (0 + 1) = 0; omega
        · show (e.val - 0) / (0 + 1) < M; simpa using hlt
  · rw [dif_neg hlt]
    split
    · rename_i hin
      exfalso
      have h0 : (e.val - 0) / (0 + 1) < M := (hin 0).2.2
      rw [Nat.sub_zero, Nat.zero_add, Nat.div_one] at h0
      exact hlt h0
    · rfl

/-- A one-column matrix read as a flat array. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A flat array as a column. -/
theorem bcast_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  by_cases ha : a = 1
  · subst ha
    refine broadcastInDim_apply _ _ _ _ _ (fun b => ?_)
    match b with
    | ⟨0, _⟩ => show i.val = if (1 : ℕ) = 1 then 0 else i.val; rw [if_pos rfl]; omega
  · refine broadcastInDim_apply _ _ _ _ _ (fun b => ?_)
    match b with
    | ⟨0, _⟩ => show i.val = if a = 1 then 0 else i.val; rw [if_neg ha]

/-- A column repeated along a width. -/
theorem bcast_col_wide_apply {a c : ℕ} (x : (⟨2, ![a, 1]⟩ : Shape).Idx → α)
    (h : (⟨2, ![a, 1]⟩ : Shape).BroadcastsInDim ⟨2, ![a, c]⟩ ![0, 1]) (i : Fin a) (j : Fin c) :
    broadcastInDim ⟨2, ![a, c]⟩ ![0, 1] h x (ix2 i j) = x (ix2 i (0 : Fin 1)) := by
  by_cases ha : a = 1
  · subst ha
    refine broadcastInDim_apply _ _ _ _ _ (fun b => ?_)
    match b with
    | ⟨0, _⟩ => show i.val = if (1 : ℕ) = 1 then 0 else i.val; rw [if_pos rfl]; omega
    | ⟨1, _⟩ => show (0 : ℕ) = if (1 : ℕ) = 1 then 0 else j.val; rw [if_pos rfl]
  · refine broadcastInDim_apply _ _ _ _ _ (fun b => ?_)
    match b with
    | ⟨0, _⟩ => show i.val = if a = 1 then 0 else i.val; rw [if_neg ha]
    | ⟨1, _⟩ => show (0 : ℕ) = if (1 : ℕ) = 1 then 0 else j.val; rw [if_pos rfl]

/-- A position below `2 ^ 31`, as a word read signed, is below the bound `300000` exactly when the number is. -/
theorem cmpi_slt_position (n : ℕ) (hn : n < 2147483648) :
    IntOp.cmpi .slt (BitVec.ofNat 32 n) 300000#32 = if n < 300000 then 1#1 else 0#1 := by
  have hm : n % 2 ^ 32 = n := Nat.mod_eq_of_lt (by omega)
  have ht : (BitVec.ofNat 32 n).toInt = (n : ℤ) := by
    rw [BitVec.toInt_eq_toNat_cond, BitVec.toNat_ofNat, hm, if_pos (by omega)]
  have hb : (300000#32 : BitVec 32).toInt = 300000 := by decide
  have hs : (BitVec.ofNat 32 n).slt 300000#32 = decide ((n : ℤ) < 300000) := by
    unfold BitVec.slt; rw [ht, hb]
  show BitVec.ofBool ((BitVec.ofNat 32 n).slt 300000#32) = _
  rw [hs]
  by_cases hlt : n < 300000
  · rw [if_pos hlt, decide_eq_true (by exact_mod_cast hlt)]; rfl
  · rw [if_neg hlt, decide_eq_false (by exact_mod_cast hlt)]; rfl

end Cert.KerLayout

end
-- ==== Proof.LibScatterGather.lean ====
/-
  THE HOST'S ACCUMULATING SCATTER AND ITS ROW GATHER, READ AT ONE INDEX, for every size of the arrays.

  Two index patterns, each for a matrix of rows and for a flat array:

  * SCATTER-ADD OF ROWS. An operand `x : [N, C]`, a column of start words `idx : [M, 1]` and updates `upd : [M, C]`;
    update row `e` is added onto operand row `idx[e, 0]`, the word read as a SIGNED integer and NOT clamped: a start
    outside `[0, N)` drops the row. At the extended reals the result at `(v, f)` is therefore
        x (v, f) + Σ_{e : idx[e,0] = v} upd (e, f),
    the sum over exactly those `e` whose start word, read signed, is `v` (`scatterAdd_rows_apply`). The flat form, an
    operand `[N]` with updates `[M]`, is the same statement without the column coordinate (`scatterAdd_flat_apply`).
  * GATHER OF ROWS. An operand `x : [N, C]` and the same column of start words; result row `e` is operand row
    `idx[e, 0]`, the word read signed and CLAMPED into `[0, N − 1]` (`gather_rows_apply`); the flat form reads one
    element (`gather_flat_apply`).

  The proofs evaluate the dimension numbers' coordinate maps — which operand axis reads which update or result axis —
  once, for symbolic sizes: only the ranks, which are literals, decide them. For the scatter the set of update indices
  landing on `(v, f)` is then `{(e, f) | idx[e,0] = v}`, and the sum over it is re-indexed along `e ↦ (e, f)`.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## Scatter-add of rows: operand `[N, C]`, start words `[M, 1]`, updates `[M, C]` -/

/-- The dimension numbers of a row scatter: update axis 1 is the window axis and goes to operand axis 1; operand axis 0
    is inserted and receives the start index, whose single component is read along axis 1 of the start words. Their
    conditions `wf` are decided on literal sizes. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Rows
variable {N M C w : Nat} (wf : ScatterDims.WF ⟨2, ![N, C]⟩ ⟨2, ![M, 1]⟩ ⟨2, ![M, C]⟩ [1] [0] [0] 1)

/-- On operand axis 0 the window of update `(e, g)` starts at the start word of row `e`, read signed. -/
theorem rows_start0 (idx : IVec ⟨2, ![M, 1]⟩ w) (e : Fin M) (g : Fin C) :
    (rowScatterDims N M C wf).start (ix2 e g) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e g) ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the start index does not name, every window starts at `0`. -/
theorem rows_start1 (idx : IVec ⟨2, ![M, 1]⟩ w) (j : (⟨2, ![M, C]⟩ : Shape).Idx) :
    (rowScatterDims N M C wf).start j idx 1 = 0 := rfl

/-- Operand axis 0 is inserted: the window coordinate there is `0`. -/
theorem rows_window0 (j : (⟨2, ![M, C]⟩ : Shape).Idx) : (rowScatterDims N M C wf).window j 0 = 0 := rfl

/-- On operand axis 1 the window coordinate is the update's column. -/
theorem rows_window1 (j : (⟨2, ![M, C]⟩ : Shape).Idx) : (rowScatterDims N M C wf).window j 1 = (j 1).val := rfl

/-- WHERE AN UPDATE LANDS: update `(e, g)` lands on `(v, f)` exactly when the start word of row `e`, read signed, is `v`
    and `g = f`; a start word outside `[0, N)` lands nowhere. -/
theorem rows_resultIdx?_eq_some_iff (idx : IVec ⟨2, ![M, 1]⟩ w) (e : Fin M) (g : Fin C) (v : Fin N) (f : Fin C) :
    (rowScatterDims N M C wf).resultIdx? (ix2 e g) idx = some (ix2 v f)
      ↔ (idx (ix2 e (0 : Fin 1))).toInt = (v.val : ℤ) ∧ g = f := by
  have hs0 := rows_start0 wf idx e g
  have hs1 := rows_start1 wf idx (ix2 e g)
  have hw0 := rows_window0 wf (ix2 e g)
  have hw1 := rows_window1 wf (ix2 e g)
  have hg : ((ix2 e g : (⟨2, ![M, C]⟩ : Shape).Idx) 1).val = g.val := rfl
  have hvN : v.val < N := v.isLt
  have hgC : g.val < C := g.isLt
  have hsz0 : (⟨2, ![N, C]⟩ : Shape).size 0 = N := rfl
  have hsz1 : (⟨2, ![N, C]⟩ : Shape).size 1 = C := rfl
  unfold ScatterDims.resultIdx?
  split
  · rename_i h
    rw [Option.some.injEq]
    constructor
    · intro hfun
      have h0 := congrArg Fin.val (congrFun hfun 0)
      have h1 := congrArg Fin.val (congrFun hfun 1)
      have hv0 : ((ix2 v f : (⟨2, ![N, C]⟩ : Shape).Idx) 0).val = v.val := rfl
      have hf1 : ((ix2 v f : (⟨2, ![N, C]⟩ : Shape).Idx) 1).val = f.val := rfl
      simp only [hs0, hs1, hw0, hw1, hg, hv0, hf1] at h0 h1
      have hh := (h 0).1
      simp only [hs0, hw0] at hh
      refine ⟨by omega, Fin.ext (by omega)⟩
    · rintro ⟨ht, rfl⟩
      funext a
      refine Fin.ext ?_
      match a with
      | ⟨0, _⟩ =>
        show ((rowScatterDims N M C wf).start (ix2 e g) idx 0 + ((rowScatterDims N M C wf).window (ix2 e g) 0 : ℕ)).toNat = v.val
        rw [hs0, hw0, ht]; simp
      | ⟨1, _⟩ =>
        show ((rowScatterDims N M C wf).start (ix2 e g) idx 1 + ((rowScatterDims N M C wf).window (ix2 e g) 1 : ℕ)).toNat = g.val
        rw [hs1, hw1, hg]; simp
  · rename_i h
    constructor
    · intro hc; exact absurd hc (by simp)
    · rintro ⟨ht, rfl⟩
      exfalso; apply h
      intro a
      match a with
      | ⟨0, _⟩ =>
        show 0 ≤ (rowScatterDims N M C wf).start (ix2 e g) idx 0 + ((rowScatterDims N M C wf).window (ix2 e g) 0 : ℕ) ∧
          (rowScatterDims N M C wf).start (ix2 e g) idx 0 + ((rowScatterDims N M C wf).window (ix2 e g) 0 : ℕ) < ((⟨2, ![N, C]⟩ : Shape).size 0 : ℕ)
        rw [hs0, hw0, ht, hsz0]; omega
      | ⟨1, _⟩ =>
        show 0 ≤ (rowScatterDims N M C wf).start (ix2 e g) idx 1 + ((rowScatterDims N M C wf).window (ix2 e g) 1 : ℕ) ∧
          (rowScatterDims N M C wf).start (ix2 e g) idx 1 + ((rowScatterDims N M C wf).window (ix2 e g) 1 : ℕ) < ((⟨2, ![N, C]⟩ : Shape).size 1 : ℕ)
        rw [hs1, hw1, hg, hsz1]; omega

/-- THE ROW SCATTER-ADD READ AT `(v, f)`: the operand there plus the sum of `upd (e, f)` over the rows `e` whose start
    word, read signed, is `v`. -/
theorem scatterAdd_rows_apply {φ : FTy} (x : FVec Ideal ⟨2, ![N, C]⟩ φ) (idx : IVec ⟨2, ![M, 1]⟩ w)
    (upd : FVec Ideal ⟨2, ![M, C]⟩ φ) (v : Fin N) (f : Fin C) :
    Host.scatterAdd (rowScatterDims N M C wf) x idx upd (ix2 v f)
      = x (ix2 v f) + ∑ e ∈ Finset.univ.filter (fun e : Fin M => (idx (ix2 e (0 : Fin 1))).toInt = (v.val : ℤ)),
          upd (ix2 e f) := by
  show x (ix2 v f) + ∑ j ∈ Finset.univ.filter (fun j => (rowScatterDims N M C wf).resultIdx? j idx = some (ix2 v f)), upd j = _
  congr 1
  refine Finset.sum_nbij' (fun j => j 0) (fun e => ix2 e f) ?_ ?_ ?_ ?_ ?_
  · intro j hj
    obtain ⟨e, g, rfl⟩ : ∃ e g, j = ix2 e g := ⟨j 0, j 1, eq_ix2 j⟩
    rw [Finset.mem_filter] at hj
    show e ∈ _
    exact Finset.mem_filter.2 ⟨Finset.mem_univ _, ((rows_resultIdx?_eq_some_iff wf idx e g v f).1 hj.2).1⟩
  · intro e he
    rw [Finset.mem_filter] at he ⊢
    exact ⟨Finset.mem_univ _, (rows_resultIdx?_eq_some_iff wf idx e f v f).2 ⟨he.2, rfl⟩⟩
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl
  · intro e _
    rfl
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl

end Rows

/-! ## Scatter-add into a flat array: operand `[N]`, start words `[M, 1]`, updates `[M]` -/

/-- The dimension numbers of a flat scatter: no window axis; operand axis 0 is inserted and receives the start index,
    whose single component is read along axis 1 of the start words. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Flat
variable {N M w : Nat} (wf : ScatterDims.WF ⟨1, ![N]⟩ ⟨2, ![M, 1]⟩ ⟨1, ![M]⟩ [] [0] [0] 1)

/-- The window of update `e` starts at the start word of row `e`, read signed. -/
theorem flat_start0 (idx : IVec ⟨2, ![M, 1]⟩ w) (e : Fin M) :
    (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate is `0`. -/
theorem flat_window0 (j : (⟨1, ![M]⟩ : Shape).Idx) : (flatScatterDims N M wf).window j 0 = 0 := rfl

/-- WHERE AN UPDATE LANDS: update `e` lands on `v` exactly when the start word of row `e`, read signed, is `v`. -/
theorem flat_resultIdx?_eq_some_iff (idx : IVec ⟨2, ![M, 1]⟩ w) (e : Fin M) (v : Fin N) :
    (flatScatterDims N M wf).resultIdx? (ix1 e) idx = some (ix1 v)
      ↔ (idx (ix2 e (0 : Fin 1))).toInt = (v.val : ℤ) := by
  have hs0 := flat_start0 wf idx e
  have hw0 := flat_window0 wf (ix1 e)
  have hvN : v.val < N := v.isLt
  have hsz0 : (⟨1, ![N]⟩ : Shape).size 0 = N := rfl
  unfold ScatterDims.resultIdx?
  split
  · rename_i h
    rw [Option.some.injEq]
    constructor
    · intro hfun
      have h0 := congrArg Fin.val (congrFun hfun 0)
      have hv0 : ((ix1 v : (⟨1, ![N]⟩ : Shape).Idx) 0).val = v.val := rfl
      simp only [hs0, hw0, hv0] at h0
      have hh := (h 0).1
      simp only [hs0, hw0] at hh
      omega
    · intro ht
      funext a
      refine Fin.ext ?_
      match a with
      | ⟨0, _⟩ =>
        show ((flatScatterDims N M wf).start (ix1 e) idx 0 + ((flatScatterDims N M wf).window (ix1 e) 0 : ℕ)).toNat = v.val
        rw [hs0, hw0, ht]; simp
  · rename_i h
    constructor
    · intro hc; exact absurd hc (by simp)
    · intro ht
      exfalso; apply h
      intro a
      match a with
      | ⟨0, _⟩ =>
        show 0 ≤ (flatScatterDims N M wf).start (ix1 e) idx 0 + ((flatScatterDims N M wf).window (ix1 e) 0 : ℕ) ∧
          (flatScatterDims N M wf).start (ix1 e) idx 0 + ((flatScatterDims N M wf).window (ix1 e) 0 : ℕ) < ((⟨1, ![N]⟩ : Shape).size 0 : ℕ)
        rw [hs0, hw0, ht, hsz0]; omega

/-- THE FLAT SCATTER-ADD READ AT `v`: the operand there plus the sum of `upd e` over the `e` whose start word, read
    signed, is `v`. -/
theorem scatterAdd_flat_apply {φ : FTy} (x : FVec Ideal ⟨1, ![N]⟩ φ) (idx : IVec ⟨2, ![M, 1]⟩ w)
    (upd : FVec Ideal ⟨1, ![M]⟩ φ) (v : Fin N) :
    Host.scatterAdd (flatScatterDims N M wf) x idx upd (ix1 v)
      = x (ix1 v) + ∑ e ∈ Finset.univ.filter (fun e : Fin M => (idx (ix2 e (0 : Fin 1))).toInt = (v.val : ℤ)),
          upd (ix1 e) := by
  show x (ix1 v) + ∑ j ∈ Finset.univ.filter (fun j => (flatScatterDims N M wf).resultIdx? j idx = some (ix1 v)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    rw [Finset.mem_filter] at hj
    show e ∈ _
    exact Finset.mem_filter.2 ⟨Finset.mem_univ _, (flat_resultIdx?_eq_some_iff wf idx e v).1 hj.2⟩
  · intro e he
    rw [Finset.mem_filter] at he ⊢
    exact ⟨Finset.mem_univ _, (flat_resultIdx?_eq_some_iff wf idx e v).2 he.2⟩
  · intro j _
    exact (eq_ix1 j).symm
  · intro e _
    rfl
  · intro j _
    exact congrArg upd (eq_ix1 j)

end Flat

/-! ## Gather of rows: operand `[N, C]`, start words `[M, 1]`, result `[M, C]` -/

/-- The dimension numbers of a row gather: result axis 1 is the offset axis and reads operand axis 1 over its whole
    width `C`; operand axis 0 is collapsed (a slice of one row) and receives the start index, whose single component is
    read along axis 1 of the start words. Their conditions `wf` are decided on literal sizes. -/
abbrev rowGatherDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at column `f` of the row named by the start word of row `e`, read
    signed and clamped into `[0, N − 1]`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGatherDims N M C wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N M C wf).start (ix2 e f) idx 0 + (rowGatherDims N M C wf).batchCoord (ix2 e f) 0
      + (rowGatherDims N M C wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e f) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e f) idx 1 + (rowGatherDims N M C wf).batchCoord (ix2 e f) 1
      + (rowGatherDims N M C wf).offCoord (ix2 e f) 1 = f.val
    rw [GatherDims.batchCoord_eq_zero _ _ _ List.not_mem_nil]
    have hst : (rowGatherDims N M C wf).start (ix2 e f) idx 1 = 0 := rfl
    have hoff : (rowGatherDims N M C wf).offCoord (ix2 e f) 1 = f.val := rfl
    rw [hst, hoff]; simp

/-! ## Gather from a flat array: operand `[N]`, start words `[M, 1]`, result `[M]` -/

/-- The dimension numbers of a flat gather: no offset axis; the one operand axis is collapsed and receives the start
    index, whose single component is read along axis 1 of the start words. -/
abbrev flatGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start word of row `e`, read signed and clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A record written out at literal sizes is the generic one -/

/-- At literal sizes the dimension numbers written out field by field, their conditions decided, are the generic record:
    the two agree field for field, and the conditions are a proposition. -/
example :
    ({ updateWindowDims := [1], insertedWindowDims := [0], scatterDimsToOperandDims := [0], indexVectorDim := 1,
       wf := by decide } : ScatterDims ⟨2, ![50000, 64]⟩ ⟨2, ![850000, 1]⟩ ⟨2, ![850000, 64]⟩)
      = rowScatterDims 50000 850000 64 (by decide) := rfl

/-- Likewise for a gather's. -/
example :
    ({ offsetDims := [1], collapsedSliceDims := [0], operandBatchingDims := [], startIndicesBatchingDims := [],
       startIndexMap := [0], indexVectorDim := 1, sliceSizes := ![1, 64],
       wf := by decide } : GatherDims ⟨2, ![50000, 64]⟩ ⟨2, ![800000, 1]⟩ ⟨2, ![800000, 64]⟩)
      = rowGatherDims 50000 800000 64 (by decide) := rfl

end Cert.Lib.ScatterGather

end
-- ==== Proof.KerRead.lean ====
/-
  THE KERNEL PROGRAM'S HOST VALUES READ AT ONE INDEX, in the specification's terms.
  Before the region: row `e` of a padded row table is the table's row the edge reads when `e` is a real edge
  (`e < 300000`) and a zero row otherwise; the padded head word is the edge's head word, or the word `0`; the mask is `1`
  exactly on the real edges; the halves of the attention vector and of the projection matrix are the two ranges of
  their sources. After the region: each host value at an index, as the scalar operations on the values before it.
-/
import proofs.«175619_j26620207300627_2_alg».proof.Proof.Gen.KernelIdeal
import proofs.«175619_j26620207300627_2_alg».proof.Proof.KerStages
import proofs.«175619_j26620207300627_2_alg».proof.Proof.KerLayout
import proofs.«175619_j26620207300627_2_alg».proof.Proof.Spec
import proofs.«175619_j26620207300627_2_alg».proof.Proof.LibScatterGather
import Idealize.ShloMosaic.PureOps.Ideal.Laws

noncomputable section

open scoped BigOperators

namespace Cert.KernelIdeal.KerRead

open Cert.KernelIdeal Cert.KernelIdeal.KerHost Cert.KerLayout Cert.Lib.ScatterGather
open Idealize.ShloMosaic Idealize.ShloMosaic.ValueIdx
open Facts₀ Facts

/-! ## The printed dimension numbers are the generic ones -/

theorem gatherEnt_eq : gather_S50000x256_S300000x1_S300000x256_1_0_n_n_0_1_1256
    = rowGatherDims 50000 300000 256 gather_S50000x256_S300000x1_S300000x256_1_0_n_n_0_1_1256_wf := rfl
theorem gatherAtt_eq : gather_S2000x256_S300000x1_S300000x256_1_0_n_n_0_1_1256
    = rowGatherDims 2000 300000 256 gather_S2000x256_S300000x1_S300000x256_1_0_n_n_0_1_1256_wf := rfl
theorem gatherVal_eq : gather_S100000x256_S300000x1_S300000x256_1_0_n_n_0_1_1256
    = rowGatherDims 100000 300000 256 gather_S100000x256_S300000x1_S300000x256_1_0_n_n_0_1_1256_wf := rfl
theorem gatherSum_eq : gather_S50000_S301056x1_S301056_n_0_n_n_0_1_1
    = flatGatherDims 50000 301056 gather_S50000_S301056x1_S301056_n_0_n_n_0_1_1_wf := rfl
theorem scatterSum_eq : scatter_S50000_S301056x1_S301056_n_0_0_1
    = flatScatterDims 50000 301056 scatter_S50000_S301056x1_S301056_n_0_0_1_wf := rfl
theorem scatterFeats_eq : scatter_S50000x256_S301056x1_S301056x256_1_0_0_1
    = rowScatterDims 50000 301056 256 scatter_S50000x256_S301056x1_S301056x256_1_0_0_1_wf := rfl

/-! ## Before the region -/

theorem headWords_apply (a0 : IVec S300000x3 32) (e : Fin 300000) :
    headWords a0 (ix1 e) = a0 (ix2 e (0 : Fin 3)) := by
  unfold headWords
  rw [shapeCast_a1_a_apply]
  exact slice2_axis1_apply 0 a0 _ e (0 : Fin 1) (0 : Fin 3) rfl
theorem valWords_apply (a0 : IVec S300000x3 32) (e : Fin 300000) :
    valWords a0 (ix1 e) = a0 (ix2 e (1 : Fin 3)) := by
  unfold valWords
  rw [shapeCast_a1_a_apply]
  exact slice2_axis1_apply 1 a0 _ e (0 : Fin 1) (1 : Fin 3) rfl
theorem attWords_apply (a0 : IVec S300000x3 32) (e : Fin 300000) :
    attWords a0 (ix1 e) = a0 (ix2 e (2 : Fin 3)) := by
  unfold attWords
  rw [shapeCast_a1_a_apply]
  exact slice2_axis1_apply 2 a0 _ e (0 : Fin 1) (2 : Fin 3) rfl

/-- The start word of edge `e` for a table of `n` rows is the wrapped word. -/
theorem wrapCol_apply (n : BitVec 32) (w : IVec S300000 32) (e : Fin 300000) :
    wrapCol n w (ix2 e (0 : Fin 1)) = Cert.Spec.wrap n (w (ix1 e)) := by
  unfold wrapCol
  rw [bcast_col_apply]
  rfl

/-- The converted pad value is the real zero. -/
theorem padZero (φ : FTy) : (sitofp (F := Ideal) φ (constantI S_ 32 0#32) : FVec Ideal S_ φ) (Shape.Idx.first h_S_) = 0 := by
  show FloatOps.sitofp (F := Ideal) φ (0#32 : BitVec 32) = 0
  show (((0#32 : BitVec 32).toInt : ℝ) : EReal) = 0
  simp

theorem entP_apply (a0 : IVec S300000x3 32) (a3 : FVec Ideal S50000x256 .f32) (e : Fin 301056) (k : Fin 256) :
    entP a0 a3 (ix2 e k) = if h : e.val < 300000 then a3 (ix2 (Cert.Spec.entRow a0 ⟨e.val, h⟩) k) else 0 := by
  unfold entP
  rw [pad_rows_apply]
  split
  · rename_i h
    rw [gatherEnt_eq, gather_rows_apply (by norm_num)]
    show a3 (ix2 _ k) = a3 (ix2 _ k)
    refine congrArg (fun r => a3 (ix2 r k)) (Fin.ext ?_)
    show min (wrapCol 50000#32 (headWords a0) (ix2 (⟨e.val, h⟩ : Fin 300000) (0 : Fin 1))).toInt.toNat (50000 - 1)
      = min (Cert.Spec.wrap 50000#32 (a0 (ix2 (⟨e.val, h⟩ : Fin 300000) (0 : Fin 3)))).toInt.toNat (50000 - 1)
    rw [wrapCol_apply, headWords_apply]
  · exact padZero .f32

theorem attP_apply (a0 : IVec S300000x3 32) (a1 : FVec Ideal S2000x256 .f32) (e : Fin 301056) (k : Fin 256) :
    attP a0 a1 (ix2 e k) = if h : e.val < 300000 then a1 (ix2 (Cert.Spec.attRow a0 ⟨e.val, h⟩) k) else 0 := by
  unfold attP
  rw [pad_rows_apply]
  split
  · rename_i h
    rw [gatherAtt_eq, gather_rows_apply (by norm_num)]
    show a1 (ix2 _ k) = a1 (ix2 _ k)
    refine congrArg (fun r => a1 (ix2 r k)) (Fin.ext ?_)
    show min (wrapCol 2000#32 (attWords a0) (ix2 (⟨e.val, h⟩ : Fin 300000) (0 : Fin 1))).toInt.toNat (2000 - 1)
      = min (Cert.Spec.wrap 2000#32 (a0 (ix2 (⟨e.val, h⟩ : Fin 300000) (2 : Fin 3)))).toInt.toNat (2000 - 1)
    rw [wrapCol_apply, attWords_apply]
  · exact padZero .f32

theorem valP_apply (a0 : IVec S300000x3 32) (a2 : FVec Ideal S100000x256 .f32) (e : Fin 301056) (k : Fin 256) :
    valP a0 a2 (ix2 e k) = if h : e.val < 300000 then a2 (ix2 (Cert.Spec.valRow a0 ⟨e.val, h⟩) k) else 0 := by
  unfold valP
  rw [pad_rows_apply]
  split
  · rename_i h
    rw [gatherVal_eq, gather_rows_apply (by norm_num)]
    show a2 (ix2 _ k) = a2 (ix2 _ k)
    refine congrArg (fun r => a2 (ix2 r k)) (Fin.ext ?_)
    show min (wrapCol 100000#32 (valWords a0) (ix2 (⟨e.val, h⟩ : Fin 300000) (0 : Fin 1))).toInt.toNat (100000 - 1)
      = min (Cert.Spec.wrap 100000#32 (a0 (ix2 (⟨e.val, h⟩ : Fin 300000) (1 : Fin 3)))).toInt.toNat (100000 - 1)
    rw [wrapCol_apply, valWords_apply]
  · exact padZero .bf16

theorem headP_apply (a0 : IVec S300000x3 32) (e : Fin 301056) :
    headP a0 (ix1 e) = if h : e.val < 300000 then a0 (ix2 (⟨e.val, h⟩ : Fin 300000) (0 : Fin 3)) else 0#32 := by
  unfold headP
  rw [pad_flat_apply]
  split
  · rename_i h
    exact headWords_apply a0 ⟨e.val, h⟩
  · rfl

theorem validMask_apply (e : Fin 301056) :
    (validMask : IVec S301056 1) (ix1 e) = if e.val < 300000 then 1#1 else 0#1 :=
  cmpi_slt_position e.val (by have := e.isLt; omega)

theorem aw1_apply (a4 : FVec Ideal S1x512 .f32) (k : Fin 256) :
    aw1 a4 (ix2 (0 : Fin 1) k) = a4 (ix2 (0 : Fin 1) (⟨k.val, by omega⟩ : Fin 512)) :=
  slice2_axis1_apply 0 a4 _ (0 : Fin 1) k _ (Nat.zero_add _).symm
theorem aw2_apply (a4 : FVec Ideal S1x512 .f32) (k : Fin 256) :
    aw2 a4 (ix2 (0 : Fin 1) k) = a4 (ix2 (0 : Fin 1) (⟨256 + k.val, by omega⟩ : Fin 512)) :=
  slice2_axis1_apply 256 a4 _ (0 : Fin 1) k _ rfl
theorem ab_apply (a5 : FVec Ideal S1 .f32) : ab a5 (ix2 (0 : Fin 1) (0 : Fin 1)) = a5 (ix1 (0 : Fin 1)) :=
  shapeCast_a_1a_apply a5 _ (0 : Fin 1) (0 : Fin 1)
theorem w1_apply (a6 : FVec Ideal S512x256 .f32) (k j : Fin 256) :
    w1 a6 (ix2 k j) = a6 (ix2 (⟨k.val, by omega⟩ : Fin 512) j) :=
  slice2_axis0_apply 0 a6 _ k j _ (Nat.zero_add _).symm
theorem w2_apply (a6 : FVec Ideal S512x256 .f32) (k j : Fin 256) :
    w2 a6 (ix2 k j) = a6 (ix2 (⟨256 + k.val, by omega⟩ : Fin 512) j) :=
  slice2_axis0_apply 256 a6 _ k j _ rfl

/-! ## After the region -/

theorem scoreFlat_apply (sc : FVec Ideal S301056x1 .f32) (e : Fin 301056) :
    scoreFlat sc (ix1 e) = sc (ix2 e (0 : Fin 1)) := by
  unfold scoreFlat; exact shapeCast_a1_a_apply sc _ e

theorem masked_apply (vd : IVec S301056 1) (x : FVec Ideal S301056 .f32) (e : Fin 301056) :
    masked vd x (ix1 e) = Scalar.select (vd (ix1 e)) (x (ix1 e)) 0 := by
  show Scalar.select (vd (ix1 e)) (x (ix1 e)) (Ideal.ofBits .f32 0x00000000#32) = _
  rw [Ideal.ofBits_zero_f32]

theorem headCol_apply (hp : IVec S301056 32) (e : Fin 301056) : headCol hp (ix2 e (0 : Fin 1)) = hp (ix1 e) := by
  unfold headCol; exact bcast_col_apply hp _ e 0

theorem headWrapCol_apply (hp : IVec S301056 32) (e : Fin 301056) :
    headWrapCol hp (ix2 e (0 : Fin 1)) = Cert.Spec.wrap 50000#32 (hp (ix1 e)) := by
  unfold headWrapCol
  rw [bcast_col_apply]
  rfl

/-- The masked scores summed by head word, at row `v`. -/
theorem rowSumArr_apply (hp : IVec S301056 32) (vd : IVec S301056 1) (sc : FVec Ideal S301056x1 .f32) (v : Fin 50000) :
    rowSumArr hp vd sc (ix1 v) = 0 + ∑ e ∈ Finset.univ.filter (fun e : Fin 301056 => (hp (ix1 e)).toInt = (v.val : ℤ)),
      Scalar.select (vd (ix1 e)) (sc (ix2 e (0 : Fin 1))) 0 := by
  unfold rowSumArr
  rw [scatterSum_eq, scatterAdd_flat_apply]
  refine congrArg₂ (· + ·) ?_ ?_
  · show Ideal.ofBits .f32 0x00000000#32 = 0
    exact Ideal.ofBits_zero_f32
  · simp only [headCol_apply, masked_apply, scoreFlat_apply]

theorem hostDivf_apply (a b : FVec Ideal S301056 .f32) (e : Fin 301056) :
    Host.divf a b (ix1 e) = Ideal.div (a (ix1 e)) (b (ix1 e)) := rfl

/-- The attention of (padded) edge `e`. -/
theorem attnArr_apply (hp : IVec S301056 32) (vd : IVec S301056 1) (sc : FVec Ideal S301056x1 .f32) (e : Fin 301056) :
    attnArr hp vd sc (ix1 e) = Scalar.select (vd (ix1 e))
      (Ideal.div (sc (ix2 e (0 : Fin 1)))
        (rowSumArr hp vd sc (ix1 (Cert.Spec.rowOf 50000 (by norm_num) (Cert.Spec.wrap 50000#32 (hp (ix1 e))))))) 0 := by
  unfold attnArr
  rw [masked_apply, hostDivf_apply, scoreFlat_apply, gatherSum_eq, gather_flat_apply (by norm_num)]
  refine congrArg (fun r => Scalar.select (vd (ix1 e)) (Ideal.div (sc (ix2 e (0 : Fin 1))) (rowSumArr hp vd sc (ix1 r))) 0)
    (Fin.ext ?_)
  show min (headWrapCol hp (ix2 e (0 : Fin 1))).toInt.toNat (50000 - 1)
    = min (Cert.Spec.wrap 50000#32 (hp (ix1 e))).toInt.toNat (50000 - 1)
  rw [headWrapCol_apply]

theorem scaledArr_apply (hp : IVec S301056 32) (vd : IVec S301056 1) (sc : FVec Ideal S301056x1 .f32)
    (pr : FVec Ideal S301056x256 .f32) (e : Fin 301056) (j : Fin 256) :
    scaledArr hp vd sc pr (ix2 e j) = pr (ix2 e j) * attnArr hp vd sc (ix1 e) := by
  unfold scaledArr
  rw [mulf_apply, bcast_col_wide_apply, bcast_col_apply]

/-- The scaled projections summed by head word, at `(v, j)`. -/
theorem featsArr_apply (hp : IVec S301056 32) (vd : IVec S301056 1) (sc : FVec Ideal S301056x1 .f32)
    (pr : FVec Ideal S301056x256 .f32) (v : Fin 50000) (j : Fin 256) :
    featsArr hp vd sc pr (ix2 v j) = 0 + ∑ e ∈ Finset.univ.filter (fun e : Fin 301056 => (hp (ix1 e)).toInt = (v.val : ℤ)),
      pr (ix2 e j) * attnArr hp vd sc (ix1 e) := by
  unfold featsArr
  rw [scatterFeats_eq, scatterAdd_rows_apply]
  refine congrArg₂ (· + ·) ?_ ?_
  · show Ideal.ofBits .f32 0x00000000#32 = 0
    exact Ideal.ofBits_zero_f32
  · simp only [headCol_apply, scaledArr_apply]

/-- The exponential linear unit, one element. -/
theorem eluArr_apply (x : FVec Ideal S50000x256 .f32) (i : S50000x256.Idx) : eluArr x i = Cert.Spec.eluS (x i) := rfl

theorem tail_apply (hp : IVec S301056 32) (vd : IVec S301056 1) (a3 : FVec Ideal S50000x256 .f32)
    (sc : FVec Ideal S301056x1 .f32) (pr : FVec Ideal S301056x256 .f32) (v : Fin 50000) (j : Fin 256) :
    tail hp vd a3 sc pr (ix2 v j) = Cert.Spec.eluS (featsArr hp vd sc pr (ix2 v j) + a3 (ix2 v j)) := rfl

end Cert.KernelIdeal.KerRead

end
-- ==== Proof.KerMathReal.lean ====
/-
  THE STAGED ARRAYS AT A REAL EDGE AND AT A PADDED POSITION. The 300000 edges are padded to 301056 positions. Position
  `e` below 300000 is edge `e`: there the staged row tables hold the rows the edge reads, the padded head word is the
  edge's head word, the mask is `1`, and so the region's score and projection of that position are the
  specification's score and projection of the edge. From 300000 on the mask is `0`.
-/
import proofs.«175619_j26620207300627_2_alg».proof.Proof.Gen.KernelIdeal
import proofs.«175619_j26620207300627_2_alg».proof.Proof.KerStages
import proofs.«175619_j26620207300627_2_alg».proof.Proof.KerFns
import proofs.«175619_j26620207300627_2_alg».proof.Proof.KerRead
import proofs.«175619_j26620207300627_2_alg».proof.Proof.Spec

set_option maxRecDepth 16384

noncomputable section

open scoped BigOperators

namespace Cert.KernelIdeal.KerMath

open Cert.KernelIdeal Cert.KernelIdeal.KerHost Cert.KernelIdeal.KerFns Cert.KernelIdeal.KerRead
open Idealize.ShloMosaic Idealize.ShloMosaic.ValueIdx

/-- The edges are the first 300000 of the 301056 positions. -/
theorem hEN : 300000 ≤ 301056 := by norm_num

/-- Edge `e` as a position. -/
abbrev pos (e : Fin 300000) : Fin 301056 := Fin.castLE hEN e

theorem pos_lt (e : Fin 300000) : (pos e).val < 300000 := e.isLt

variable (a0 : IVec S300000x3 32) (a1 : FVec Ideal S2000x256 .f32) (a2 : FVec Ideal S100000x256 .f32)
  (a3 : FVec Ideal S50000x256 .f32) (a4 : FVec Ideal S1x512 .f32) (a5 : FVec Ideal S1 .f32)
  (a6 : FVec Ideal S512x256 .f32)

/-! ## At a real edge -/

theorem entP_real (e : Fin 300000) (k : Fin 256) :
    entP (F := Ideal) a0 a3 (ix2 (pos e) k) = a3 (ix2 (Cert.Spec.entRow a0 e) k) :=
  (entP_apply a0 a3 (pos e) k).trans (dif_pos (pos_lt e))

theorem attP_real (e : Fin 300000) (k : Fin 256) :
    attP (F := Ideal) a0 a1 (ix2 (pos e) k) = a1 (ix2 (Cert.Spec.attRow a0 e) k) :=
  (attP_apply a0 a1 (pos e) k).trans (dif_pos (pos_lt e))

theorem valP_real (e : Fin 300000) (k : Fin 256) :
    valP (F := Ideal) a0 a2 (ix2 (pos e) k) = a2 (ix2 (Cert.Spec.valRow a0 e) k) :=
  (valP_apply a0 a2 (pos e) k).trans (dif_pos (pos_lt e))

/-- The padded head word of a real edge is its head word. -/
theorem headP_real (e : Fin 300000) : headP a0 (ix1 (pos e)) = a0 (ix2 e (0 : Fin 3)) :=
  (headP_apply a0 (pos e)).trans (dif_pos (pos_lt e))

/-- The mask is `1` at a real edge. -/
theorem validMask_real (e : Fin 300000) : (validMask : IVec S301056 1) (ix1 (pos e)) = 1#1 :=
  (validMask_apply (pos e)).trans (if_pos (pos_lt e))

/-- The mask is `0` from position 300000 on. -/
theorem validMask_pad (e' : Fin 301056) (h : 300000 ≤ e'.val) : (validMask : IVec S301056 1) (ix1 e') = 0#1 :=
  (validMask_apply e').trans (if_neg (Nat.not_lt.mpr h))

/-- The region's score of a real edge's position is the specification's score of the edge: the two inner products
    agree term by term, the halves of the attention vector being the two ranges of the whole. -/
theorem scoreFn_real (e : Fin 300000) :
    scoreFn (entP a0 a3) (attP a0 a1) (aw1 a4) (aw2 a4) (ab a5) (ix2 (pos e) (0 : Fin 1))
      = Cert.Spec.score a0 a1 a3 a4 a5 e := by
  rw [scoreFn_apply]
  unfold Cert.Spec.score Cert.Spec.lin
  refine congrArg (fun t => Ideal.exp (Cert.Spec.lrelu t)) ?_
  refine congrArg₂ (· + ·) (congrArg₂ (· + ·) ?_ ?_) (ab_apply a5)
  · exact Finset.sum_congr rfl fun k _ => congrArg₂ (· * ·) (entP_real a0 a3 e k) (aw1_apply a4 k)
  · exact Finset.sum_congr rfl fun k _ => congrArg₂ (· * ·) (attP_real a0 a1 e k) (aw2_apply a4 k)

/-- The region's projection of a real edge's position is the specification's projection of the edge. -/
theorem projFn_real (e : Fin 300000) (j : Fin 256) :
    projFn (attP a0 a1) (valP a0 a2) (w1 a6) (w2 a6) (ix2 (pos e) j) = Cert.Spec.proj a0 a1 a2 a6 e j := by
  rw [projFn_apply]
  unfold Cert.Spec.proj
  refine congrArg₂ (· + ·) ?_ ?_
  · exact Finset.sum_congr rfl fun k _ => congrArg₂ (· * ·) (attP_real a0 a1 e k) (w1_apply a6 k j)
  · exact Finset.sum_congr rfl fun k _ => congrArg₂ (· * ·) (valP_real a0 a2 e k) (w2_apply a6 k j)

end Cert.KernelIdeal.KerMath

end
-- ==== Proof.PadSum.lean ====
/-
  A FILTERED SUM OVER A PADDED INDEX RANGE. The positions `0 … N − 1` extend the positions `0 … M − 1` (`M ≤ N`). If a
  summand `f` on the long range agrees with `g` on the short one, the two filters agree there, and `f` vanishes at every
  position from `M` on, then the filtered sum of `f` over the long range is the filtered sum of `g` over the short one:
  the short range embeds into the long one, and what the embedding misses adds zero.
-/
import Idealize.ShloMosaic.PureOps.Ideal

open scoped BigOperators

namespace Cert.PadSum

theorem sum_filter_pad {A : Type} [AddCommMonoid A] {M N : Nat} (hMN : M ≤ N)
    (P' : Fin N → Prop) [DecidablePred P'] (P : Fin M → Prop) [DecidablePred P]
    (f : Fin N → A) (g : Fin M → A)
    (hP : ∀ e : Fin M, P' (Fin.castLE hMN e) ↔ P e)
    (hf : ∀ e : Fin M, f (Fin.castLE hMN e) = g e)
    (hhi : ∀ e' : Fin N, M ≤ e'.val → f e' = 0) :
    ∑ e' ∈ Finset.univ.filter P', f e' = ∑ e ∈ Finset.univ.filter P, g e := by
  have hmap : ∑ e ∈ Finset.univ.filter P, g e
      = ∑ e' ∈ (Finset.univ.filter P).map (Fin.castLEEmb hMN), f e' := by
    rw [Finset.sum_map]
    exact Finset.sum_congr rfl fun e _ => (hf e).symm
  rw [hmap]
  symm
  apply Finset.sum_subset
  · intro x hx
    rw [Finset.mem_map] at hx
    obtain ⟨e, he, rfl⟩ := hx
    rw [Finset.mem_filter] at he ⊢
    exact ⟨Finset.mem_univ _, (hP e).2 he.2⟩
  · intro x hx hnot
    by_cases hlt : x.val < M
    · exfalso
      apply hnot
      rw [Finset.mem_map]
      refine ⟨⟨x.val, hlt⟩, ?_, Fin.ext rfl⟩
      rw [Finset.mem_filter] at hx ⊢
      refine ⟨Finset.mem_univ _, (hP ⟨x.val, hlt⟩).1 ?_⟩
      have : Fin.castLE hMN ⟨x.val, hlt⟩ = x := Fin.ext rfl
      rw [this]; exact hx.2
    · exact hhi x (Nat.le_of_not_lt hlt)

end Cert.PadSum
-- ==== Proof.KerMath.lean ====
/-
  THE KERNEL PROGRAM'S RESULT IS THE SPECIFICATION'S. The program sums over 301056 positions where the specification
  sums over 300000 edges; the positions past the edges are masked, so they add zero to every sum by head word. Row sums
  first, then the attention (a real edge's score over the row sum its entity row reads; zero on the padding), then the
  attended features, then the last elementwise step.
-/
import proofs.«175619_j26620207300627_2_alg».proof.Proof.KerMathReal
import proofs.«175619_j26620207300627_2_alg».proof.Proof.PadSum

set_option maxRecDepth 16384

noncomputable section

open scoped BigOperators

namespace Cert.KernelIdeal.KerMath

open Cert.KernelIdeal Cert.KernelIdeal.KerHost Cert.KernelIdeal.KerFns Cert.KernelIdeal.KerRead
open Idealize.ShloMosaic Idealize.ShloMosaic.ValueIdx

variable (a0 : IVec S300000x3 32) (a1 : FVec Ideal S2000x256 .f32) (a2 : FVec Ideal S100000x256 .f32)
  (a3 : FVec Ideal S50000x256 .f32) (a4 : FVec Ideal S1x512 .f32) (a5 : FVec Ideal S1 .f32)
  (a6 : FVec Ideal S512x256 .f32)

/-- The masked scores summed by head word over the positions are the scores summed by head word over the edges: a
    real edge's masked score is its score, a padded position's is zero. -/
theorem rowSumArr_eq (v : Fin 50000) :
    rowSumArr (headP a0) (validMask : IVec S301056 1)
        (scoreFn (entP a0 a3) (attP a0 a1) (aw1 a4) (aw2 a4) (ab a5)) (ix1 v)
      = Cert.Spec.rowSum a0 a1 a3 a4 a5 v := by
  rw [rowSumArr_apply]
  unfold Cert.Spec.rowSum Cert.Spec.edgesOf
  refine congrArg (fun t => 0 + t) ?_
  refine Cert.PadSum.sum_filter_pad hEN
    (fun e' : Fin 301056 => (headP a0 (ix1 e')).toInt = (v.val : ℤ))
    (fun e : Fin 300000 => (a0 (ix2 e (0 : Fin 3))).toInt = (v.val : ℤ))
    (fun e' : Fin 301056 => Scalar.select ((validMask : IVec S301056 1) (ix1 e'))
      (scoreFn (entP a0 a3) (attP a0 a1) (aw1 a4) (aw2 a4) (ab a5) (ix2 e' (0 : Fin 1))) 0)
    (fun e : Fin 300000 => Cert.Spec.score a0 a1 a3 a4 a5 e) ?_ ?_ ?_
  · intro e
    show (headP a0 (ix1 (pos e))).toInt = (v.val : ℤ) ↔ _
    rw [headP_real]
  · intro e
    show Scalar.select ((validMask : IVec S301056 1) (ix1 (pos e))) _ 0 = _
    rw [validMask_real, select_one]
    exact scoreFn_real a0 a1 a3 a4 a5 e
  · intro e' h
    show Scalar.select ((validMask : IVec S301056 1) (ix1 e')) _ 0 = 0
    rw [validMask_pad e' h, select_zero]

/-- The attention of a real edge's position is the specification's attention of the edge. -/
theorem attnArr_real (e : Fin 300000) :
    attnArr (headP a0) (validMask : IVec S301056 1)
        (scoreFn (entP a0 a3) (attP a0 a1) (aw1 a4) (aw2 a4) (ab a5)) (ix1 (pos e))
      = Cert.Spec.attn a0 a1 a3 a4 a5 e := by
  rw [attnArr_apply, validMask_real, select_one, scoreFn_real, headP_real, rowSumArr_eq]
  rfl

/-- The attention of a padded position is zero. -/
theorem attnArr_pad (e' : Fin 301056) (h : 300000 ≤ e'.val) :
    attnArr (headP a0) (validMask : IVec S301056 1)
        (scoreFn (entP a0 a3) (attP a0 a1) (aw1 a4) (aw2 a4) (ab a5)) (ix1 e') = 0 := by
  rw [attnArr_apply, validMask_pad e' h, select_zero]

/-- The scaled projections summed by head word over the positions are the specification's attended features: a
    padded position's projection is scaled by a zero attention. -/
theorem featsArr_eq (v : Fin 50000) (j : Fin 256) :
    featsArr (headP a0) (validMask : IVec S301056 1)
        (scoreFn (entP a0 a3) (attP a0 a1) (aw1 a4) (aw2 a4) (ab a5))
        (projFn (attP a0 a1) (valP a0 a2) (w1 a6) (w2 a6)) (ix2 v j)
      = Cert.Spec.feats a0 a1 a2 a3 a4 a5 a6 v j := by
  rw [featsArr_apply]
  unfold Cert.Spec.feats Cert.Spec.edgesOf
  refine congrArg (fun t => 0 + t) ?_
  refine Cert.PadSum.sum_filter_pad hEN
    (fun e' : Fin 301056 => (headP a0 (ix1 e')).toInt = (v.val : ℤ))
    (fun e : Fin 300000 => (a0 (ix2 e (0 : Fin 3))).toInt = (v.val : ℤ))
    (fun e' : Fin 301056 => projFn (attP a0 a1) (valP a0 a2) (w1 a6) (w2 a6) (ix2 e' j)
      * attnArr (headP a0) (validMask : IVec S301056 1)
          (scoreFn (entP a0 a3) (attP a0 a1) (aw1 a4) (aw2 a4) (ab a5)) (ix1 e'))
    (fun e : Fin 300000 => Cert.Spec.proj a0 a1 a2 a6 e j * Cert.Spec.attn a0 a1 a3 a4 a5 e) ?_ ?_ ?_
  · intro e
    show (headP a0 (ix1 (pos e))).toInt = (v.val : ℤ) ↔ _
    rw [headP_real]
  · intro e
    exact congrArg₂ (· * ·) (projFn_real a0 a1 a2 a6 e j) (attnArr_real a0 a1 a3 a4 a5 e)
  · intro e' h
    show _ * attnArr (headP a0) (validMask : IVec S301056 1)
      (scoreFn (entP a0 a3) (attP a0 a1) (aw1 a4) (aw2 a4) (ab a5)) (ix1 e') = 0
    rw [attnArr_pad a0 a1 a3 a4 a5 e' h, mul_zero]

/-- THE PROGRAM'S RESULT, element by element, is the specification's. -/
theorem tail_eq_spec (a0 : IVec S300000x3 32) (a1 : FVec Ideal S2000x256 .f32) (a2 : FVec Ideal S100000x256 .f32)
    (a3 : FVec Ideal S50000x256 .f32) (a4 : FVec Ideal S1x512 .f32) (a5 : FVec Ideal S1 .f32)
    (a6 : FVec Ideal S512x256 .f32) :
    KerHost.tail (KerHost.headP a0) (KerHost.validMask : IVec S301056 1) a3
        (KerFns.scoreFn (KerHost.entP a0 a3) (KerHost.attP a0 a1) (KerHost.aw1 a4) (KerHost.aw2 a4) (KerHost.ab a5))
        (KerFns.projFn (KerHost.attP a0 a1) (KerHost.valP a0 a2) (KerHost.w1 a6) (KerHost.w2 a6))
      = Cert.Spec.out a0 a1 a2 a3 a4 a5 a6 := by
  funext i
  obtain ⟨v, j, rfl⟩ : ∃ (v : Fin 50000) (j : Fin 256), i = ix2 v j := ⟨i 0, i 1, eq_ix2 i⟩
  rw [tail_apply, featsArr_eq]
  exact (Cert.Spec.out_apply a0 a1 a2 a3 a4 a5 a6 v j).symm

end Cert.KernelIdeal.KerMath

end
-- ==== Proof.KerValue.lean ====
/-
  THE KERNEL PROGRAM'S RESULT. The frame run leaves the result buffer at what the operations after the region make of the
  region's exit contents: the two output arrays at their closed forms, every other buffer as the operations before the
  region left it. Reading those back and applying the index-by-index identity gives the specification's result array,
  with every argument array as it was launched.
-/
import proofs.«175619_j26620207300627_2_alg».proof.Proof.Gen.KernelIdeal.Frame
import proofs.«175619_j26620207300627_2_alg».proof.Proof.KerRun
import proofs.«175619_j26620207300627_2_alg».proof.Proof.KerFinal
import proofs.«175619_j26620207300627_2_alg».proof.Proof.KerMath
import proofs.«175619_j26620207300627_2_alg».proof.Proof.Spec

set_option maxRecDepth 16384

noncomputable section

namespace Cert.KernelIdeal.KerValue

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The result buffer after the operations that follow the region is the specification's result of the launched
    argument arrays. -/
theorem tail_value (c : Dev nD) :
    Pipeline.afterTail₀ cfgs (dats m) 0 (V0 m) [hostOps1, hostOps1_1, hostOps1_2, hostOps1_3, hostOps1_4, hostOps1_5] c main_v62
      = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  rw [KerRun.tail_result]
  have h31 := Pipeline.withArrays_of_ne spec0 c (V0 m c) (fun w => (dats m 0 c).arrAt w cfg0.N) main_v31
    (by exact (by decide : ∀ w, Pipeline.arrRef spec0 w ≠ main_v31))
  have h34 := Pipeline.withArrays_of_ne spec0 c (V0 m c) (fun w => (dats m 0 c).arrAt w cfg0.N) main_v34
    (by exact (by decide : ∀ w, Pipeline.arrRef spec0 w ≠ main_v34))
  have h3 := Pipeline.withArrays_of_ne spec0 c (V0 m c) (fun w => (dats m 0 c).arrAt w cfg0.N) main_arg3
    (by exact (by decide : ∀ w, Pipeline.arrRef spec0 w ≠ main_arg3))
  have h8 : Pipeline.withArrays spec0 c (V0 m c) (fun w => (dats m 0 c).arrAt w cfg0.N) (main_v40_0 : DevRef τ sig)
      = (dats m 0 c).arrAt 8 cfg0.N := Pipeline.withArrays_arr spec0 launch0.win.arr_inj c _ _ 8
  have h9 : Pipeline.withArrays spec0 c (V0 m c) (fun w => (dats m 0 c).arrAt w cfg0.N) (main_v40_1 : DevRef τ sig)
      = (dats m 0 c).arrAt 9 cfg0.N := Pipeline.withArrays_arr spec0 launch0.win.arr_inj c _ _ 9
  have e31 : V0 m c (main_v31 : DevRef τ sig) = KerHost.headP (m ((c.tc : Thread nD τ).loc main_arg0)) := KerRun.pre_head (fun b => m (c, b))
  have e34 : V0 m c (main_v34 : DevRef τ sig) = (KerHost.validMask : IVec S301056 1) := KerRun.pre_valid (fun b => m (c, b))
  have e3 : V0 m c (main_arg3 : DevRef τ sig) = m ((c.tc : Thread nD τ).loc main_arg3) := V_main_arg3 m c
  have e28 : V0 m c (main_v28 : DevRef τ sig) = KerHost.entP (F := Ideal) (m ((c.tc : Thread nD τ).loc main_arg0)) (m ((c.tc : Thread nD τ).loc main_arg3)) := KerRun.pre_ent (fun b => m (c, b))
  have e29 : V0 m c (main_v29 : DevRef τ sig) = KerHost.attP (F := Ideal) (m ((c.tc : Thread nD τ).loc main_arg0)) (m ((c.tc : Thread nD τ).loc main_arg1)) := KerRun.pre_att (fun b => m (c, b))
  have e30 : V0 m c (main_v30 : DevRef τ sig) = KerHost.valP (F := Ideal) (m ((c.tc : Thread nD τ).loc main_arg0)) (m ((c.tc : Thread nD τ).loc main_arg2)) := KerRun.pre_val (fun b => m (c, b))
  have e35 : V0 m c (main_v35 : DevRef τ sig) = KerHost.aw1 (F := Ideal) (m ((c.tc : Thread nD τ).loc main_arg4)) := KerRun.pre_aw1 (fun b => m (c, b))
  have e36 : V0 m c (main_v36 : DevRef τ sig) = KerHost.aw2 (F := Ideal) (m ((c.tc : Thread nD τ).loc main_arg4)) := KerRun.pre_aw2 (fun b => m (c, b))
  have e37 : V0 m c (main_v37 : DevRef τ sig) = KerHost.ab (F := Ideal) (m ((c.tc : Thread nD τ).loc main_arg5)) := KerRun.pre_ab (fun b => m (c, b))
  have e38 : V0 m c (main_v38 : DevRef τ sig) = KerHost.w1 (F := Ideal) (m ((c.tc : Thread nD τ).loc main_arg6)) := KerRun.pre_w1 (fun b => m (c, b))
  have e39 : V0 m c (main_v39 : DevRef τ sig) = KerHost.w2 (F := Ideal) (m ((c.tc : Thread nD τ).loc main_arg6)) := KerRun.pre_w2 (fun b => m (c, b))
  have f8 : (dats m 0 c).arrAt 8 cfg0.N
      = KerFns.scoreFn (V0 m c (main_v28 : DevRef τ sig)) (V0 m c (main_v29 : DevRef τ sig)) (V0 m c (main_v35 : DevRef τ sig))
          (V0 m c (main_v36 : DevRef τ sig)) (V0 m c (main_v37 : DevRef τ sig)) := KerFinal.final8 m c
  have f9 : (dats m 0 c).arrAt 9 cfg0.N
      = KerFns.projFn (V0 m c (main_v29 : DevRef τ sig)) (V0 m c (main_v30 : DevRef τ sig)) (V0 m c (main_v38 : DevRef τ sig))
          (V0 m c (main_v39 : DevRef τ sig)) := KerFinal.final9 m c
  rw [e28, e29, e35, e36, e37] at f8
  rw [e29, e30, e38, e39] at f9
  rw [h31, h34, h3, h8, h9, e31, e34, e3, f8, f9]
  exact KerMath.tail_eq_spec _ _ _ _ _ _ _

/-- Every weakly fair execution of the kernel program terminates, nothing faulting, with the result buffer at the
    specification's result of the launched argument arrays and every argument array unchanged. -/
theorem run : θ_run (defs (F := Ideal)) (onTc (τ := τ) (main (F := Ideal))) ⟨m, fun _ => 0, ρ⟩ fun r => ∀ c : Dev nD,
      r.2.mem ((c.tc : Thread nD τ).loc main_v62) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨
      (((h c).2 main_v62 (Pipeline.mem_restRefs_of main_v62 (by decide) (by decide))).trans (tail_value m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.KerValue

end
-- ==== Proof.RefRun.lean ====
/-
  The reference program's @main as ONE straight line of host operations — the two outlined functions
  (the leaky rectifier with its select, the exponential linear unit with its two selects) written out at their call
  sites over the buffers of each call — and its run: every weakly fair execution terminates with each buffer at the
  fold of the operations' results over the launch contents.
-/
import proofs.«175619_j26620207300627_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls written out: the rectifier's seven after the logit's reshape and the
    slope constant, the linear unit's fifteen after the final addition. -/
abbrev ops : List (HloOp τ sig (Elt F)) :=
  [ unary main_arg0 main_v0 ((extractStridedSlice S300000x1 ![0, 0] · slices_S300000x3_S300000x1_0_0) : (⟨S300000x3, .i32⟩ : BufTy).Contents (Elt F) → (⟨S300000x1, .i32⟩ : BufTy).Contents (Elt F)),
    reshape main_v0 main_v1 rfl shapeCasts_S300000x1_S300000,
    unary main_arg0 main_v2 ((extractStridedSlice S300000x1 ![0, 1] · slices_S300000x3_S300000x1_0_1) : (⟨S300000x3, .i32⟩ : BufTy).Contents (Elt F) → (⟨S300000x1, .i32⟩ : BufTy).Contents (Elt F)),
    reshape main_v2 main_v3 rfl shapeCasts_S300000x1_S300000,
    unary main_arg0 main_v4 ((extractStridedSlice S300000x1 ![0, 2] · slices_S300000x3_S300000x1_0_2) : (⟨S300000x3, .i32⟩ : BufTy).Contents (Elt F) → (⟨S300000x1, .i32⟩ : BufTy).Contents (Elt F)),
    reshape main_v4 main_v5 rfl shapeCasts_S300000x1_S300000,
    nullary main_c (constantI S_ 32 0#32),
    unary main_c main_v6 (broadcastInDim S300000 ![] bcast_S_S300000 : (⟨S_, .i32⟩ : BufTy).Contents (Elt F) → (⟨S300000, .i32⟩ : BufTy).Contents (Elt F)),
    binary main_v5 main_v6 main_v7 (cmpi .slt : (⟨S300000, .i32⟩ : BufTy).Contents (Elt F) → (⟨S300000, .i32⟩ : BufTy).Contents (Elt F) → (⟨S300000, .i1⟩ : BufTy).Contents (Elt F)),
    nullary main_c_0 (constantI S_ 32 2000#32),
    unary main_c_0 main_v8 (broadcastInDim S300000 ![] bcast_S_S300000 : (⟨S_, .i32⟩ : BufTy).Contents (Elt F) → (⟨S300000, .i32⟩ : BufTy).Contents (Elt F)),
    binary main_v5 main_v8 main_v9 (addi : (⟨S300000, .i32⟩ : BufTy).Contents (Elt F) → (⟨S300000, .i32⟩ : BufTy).Contents (Elt F) → (⟨S300000, .i32⟩ : BufTy).Contents (Elt F)),
    ternary main_v7 main_v9 main_v5 main_v10 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v10 main_v11 (broadcastInDim S300000x1 ![0] bcast_S300000_S300000x1_0 : (⟨S300000, .i32⟩ : BufTy).Contents (Elt F) → (⟨S300000x1, .i32⟩ : BufTy).Contents (Elt F)),
    binary main_arg1 main_v11 main_v12 ((fun x i => Host.gather gather_S2000x256_S300000x1_S300000x256_1_0_n_n_0_1_1256 x i) : (⟨S2000x256, .f32⟩ : BufTy).Contents (Elt F) → (⟨S300000x1, .i32⟩ : BufTy).Contents (Elt F) → (⟨S300000x256, .f32⟩ : BufTy).Contents (Elt F)),
    nullary main_c_1 (constantI S_ 32 0#32),
    unary main_c_1 main_v13 (broadcastInDim S300000 ![] bcast_S_S300000 : (⟨S_, .i32⟩ : BufTy).Contents (Elt F) → (⟨S300000, .i32⟩ : BufTy).Contents (Elt F)),
    binary main_v1 main_v13 main_v14 (cmpi .slt : (⟨S300000, .i32⟩ : BufTy).Contents (Elt F) → (⟨S300000, .i32⟩ : BufTy).Contents (Elt F) → (⟨S300000, .i1⟩ : BufTy).Contents (Elt F)),
    nullary main_c_2 (constantI S_ 32 50000#32),
    unary main_c_2 main_v15 (broadcastInDim S300000 ![] bcast_S_S300000 : (⟨S_, .i32⟩ : BufTy).Contents (Elt F) → (⟨S300000, .i32⟩ : BufTy).Contents (Elt F)),
    binary main_v1 main_v15 main_v16 (addi : (⟨S300000, .i32⟩ : BufTy).Contents (Elt F) → (⟨S300000, .i32⟩ : BufTy).Contents (Elt F) → (⟨S300000, .i32⟩ : BufTy).Contents (Elt F)),
    ternary main_v14 main_v16 main_v1 main_v17 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v17 main_v18 (broadcastInDim S300000x1 ![0] bcast_S300000_S300000x1_0 : (⟨S300000, .i32⟩ : BufTy).Contents (Elt F) → (⟨S300000x1, .i32⟩ : BufTy).Contents (Elt F)),
    binary main_arg3 main_v18 main_v19 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    binary main_v19 main_v12 main_v20 ((fun a b => concatenate S300000x512 1 [⟨S300000x256, a⟩, ⟨S300000x256, b⟩] concatenates_S300000x256_S300000x256_S300000x512_d1) : (⟨S300000x256, .f32⟩ : BufTy).Contents (Elt F) → (⟨S300000x256, .f32⟩ : BufTy).Contents (Elt F) → (⟨S300000x512, .f32⟩ : BufTy).Contents (Elt F)),
    unary main_arg4 main_v21 ((transpose S512x1 [1, 0] · transposes_S1x512_S512x1_1_0) : (⟨S1x512, .f32⟩ : BufTy).Contents (Elt F) → (⟨S512x1, .f32⟩ : BufTy).Contents (Elt F)),
    binary main_v20 main_v21 main_v22 ((fun l r => Host.dotGeneral dot_S300000x512_S512x1_S300000x1_1_0_0_1_n_n none l r) : (⟨S300000x512, .f32⟩ : BufTy).Contents (Elt F) → (⟨S512x1, .f32⟩ : BufTy).Contents (Elt F) → (⟨S300000x1, .f32⟩ : BufTy).Contents (Elt F)),
    unary main_arg5 main_v23 (broadcastInDim S1x1 ![1] bcast_S1_S1x1_1 : (⟨S1, .f32⟩ : BufTy).Contents (Elt F) → (⟨S1x1, .f32⟩ : BufTy).Contents (Elt F)),
    unary main_v23 main_v24 (broadcastInDim S300000x1 ![0, 1] bcast_S1x1_S300000x1_0_1 : (⟨S1x1, .f32⟩ : BufTy).Contents (Elt F) → (⟨S300000x1, .f32⟩ : BufTy).Contents (Elt F)),
    binary main_v22 main_v24 main_v25 (addf : (⟨S300000x1, .f32⟩ : BufTy).Contents (Elt F) → (⟨S300000x1, .f32⟩ : BufTy).Contents (Elt F) → (⟨S300000x1, .f32⟩ : BufTy).Contents (Elt F)),
    reshape main_v25 main_v26 rfl shapeCasts_S300000x1_S300000,
    nullary main_cst (constant S_ .f32 0x3E4CCCCD#32),
    TRef.nullary main_call0.cst (constant S_ .f32 0x00000000#32),
    TRef.unary main_call0.cst main_call0.v0 (broadcastInDim S300000 ![] bcast_S_S300000),
    TRef.binary (.of main_v26) main_call0.v0 main_call0.v1 (cmpf .oge),
    TRef.unary (.of main_cst) main_call0.v2 id,
    TRef.unary main_call0.v2 main_call0.v3 (broadcastInDim S300000 ![] bcast_S_S300000),
    TRef.binary main_call0.v3 (.of main_v26) main_call0.v4 mulf,
    TRef.ternary main_call0.v1 (.of main_v26) main_call0.v4 main_call0.call0.v0 select,
    unary main_v27 main_v28 (Host.exp : (⟨S300000, .f32⟩ : BufTy).Contents (Elt F) → (⟨S300000, .f32⟩ : BufTy).Contents (Elt F)),
    nullary main_cst_3 (constant S_ .f32 0x00000000#32),
    unary main_cst_3 main_v29 (broadcastInDim S50000 ![] bcast_S_S50000 : (⟨S_, .f32⟩ : BufTy).Contents (Elt F) → (⟨S50000, .f32⟩ : BufTy).Contents (Elt F)),
    unary main_v1 main_v30 (broadcastInDim S300000x1 ![0] bcast_S300000_S300000x1_0 : (⟨S300000, .i32⟩ : BufTy).Contents (Elt F) → (⟨S300000x1, .i32⟩ : BufTy).Contents (Elt F)),
    ternary main_v29 main_v30 main_v28 main_v31 ((fun x i u => Host.scatterAdd scatter_S50000_S300000x1_S300000_n_0_0_1 x i u) : (⟨S50000, .f32⟩ : BufTy).Contents (Elt F) → (⟨S300000x1, .i32⟩ : BufTy).Contents (Elt F) → (⟨S300000, .f32⟩ : BufTy).Contents (Elt F) → (⟨S50000, .f32⟩ : BufTy).Contents (Elt F)),
    nullary main_c_4 (constantI S_ 32 0#32),
    unary main_c_4 main_v32 (broadcastInDim S300000 ![] bcast_S_S300000 : (⟨S_, .i32⟩ : BufTy).Contents (Elt F) → (⟨S300000, .i32⟩ : BufTy).Contents (Elt F)),
    binary main_v1 main_v32 main_v33 (cmpi .slt : (⟨S300000, .i32⟩ : BufTy).Contents (Elt F) → (⟨S300000, .i32⟩ : BufTy).Contents (Elt F) → (⟨S300000, .i1⟩ : BufTy).Contents (Elt F)),
    nullary main_c_5 (constantI S_ 32 50000#32),
    unary main_c_5 main_v34 (broadcastInDim S300000 ![] bcast_S_S300000 : (⟨S_, .i32⟩ : BufTy).Contents (Elt F) → (⟨S300000, .i32⟩ : BufTy).Contents (Elt F)),
    binary main_v1 main_v34 main_v35 (addi : (⟨S300000, .i32⟩ : BufTy).Contents (Elt F) → (⟨S300000, .i32⟩ : BufTy).Contents (Elt F) → (⟨S300000, .i32⟩ : BufTy).Contents (Elt F)),
    ternary main_v33 main_v35 main_v1 main_v36 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v36 main_v37 (broadcastInDim S300000x1 ![0] bcast_S300000_S300000x1_0 : (⟨S300000, .i32⟩ : BufTy).Contents (Elt F) → (⟨S300000x1, .i32⟩ : BufTy).Contents (Elt F)),
    binary main_v31 main_v37 main_v38 ((fun x i => Host.gather gather_S50000_S300000x1_S300000_n_0_n_n_0_1_1 x i) : (⟨S50000, .f32⟩ : BufTy).Contents (Elt F) → (⟨S300000x1, .i32⟩ : BufTy).Contents (Elt F) → (⟨S300000, .f32⟩ : BufTy).Contents (Elt F)),
    binary main_v28 main_v38 main_v39 (Host.divf : (⟨S300000, .f32⟩ : BufTy).Contents (Elt F) → (⟨S300000, .f32⟩ : BufTy).Contents (Elt F) → (⟨S300000, .f32⟩ : BufTy).Contents (Elt F)),
    nullary main_c_6 (constantI S_ 32 0#32),
    unary main_c_6 main_v40 (broadcastInDim S300000 ![] bcast_S_S300000 : (⟨S_, .i32⟩ : BufTy).Contents (Elt F) → (⟨S300000, .i32⟩ : BufTy).Contents (Elt F)),
    binary main_v3 main_v40 main_v41 (cmpi .slt : (⟨S300000, .i32⟩ : BufTy).Contents (Elt F) → (⟨S300000, .i32⟩ : BufTy).Contents (Elt F) → (⟨S300000, .i1⟩ : BufTy).Contents (Elt F)),
    nullary main_c_7 (constantI S_ 32 100000#32),
    unary main_c_7 main_v42 (broadcastInDim S300000 ![] bcast_S_S300000 : (⟨S_, .i32⟩ : BufTy).Contents (Elt F) → (⟨S300000, .i32⟩ : BufTy).Contents (Elt F)),
    binary main_v3 main_v42 main_v43 (addi : (⟨S300000, .i32⟩ : BufTy).Contents (Elt F) → (⟨S300000, .i32⟩ : BufTy).Contents (Elt F) → (⟨S300000, .i32⟩ : BufTy).Contents (Elt F)),
    ternary main_v41 main_v43 main_v3 main_v44 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v44 main_v45 (broadcastInDim S300000x1 ![0] bcast_S300000_S300000x1_0 : (⟨S300000, .i32⟩ : BufTy).Contents (Elt F) → (⟨S300000x1, .i32⟩ : BufTy).Contents (Elt F)),
    binary main_arg2 main_v45 main_v46 ((fun x i => Host.gather gather_S100000x256_S300000x1_S300000x256_1_0_n_n_0_1_1256 x i) : (⟨S100000x256, .f32⟩ : BufTy).Contents (Elt F) → (⟨S300000x1, .i32⟩ : BufTy).Contents (Elt F) → (⟨S300000x256, .f32⟩ : BufTy).Contents (Elt F)),
    binary main_v12 main_v46 main_v47 ((fun a b => concatenate S300000x512 1 [⟨S300000x256, a⟩, ⟨S300000x256, b⟩] concatenates_S300000x256_S300000x256_S300000x512_d1) : (⟨S300000x256, .f32⟩ : BufTy).Contents (Elt F) → (⟨S300000x256, .f32⟩ : BufTy).Contents (Elt F) → (⟨S300000x512, .f32⟩ : BufTy).Contents (Elt F)),
    binary main_v47 main_arg6 main_v48 ((fun l r => Host.dotGeneral dot_S300000x512_S512x256_S300000x256_1_0_0_1_n_n none l r) : (⟨S300000x512, .f32⟩ : BufTy).Contents (Elt F) → (⟨S512x256, .f32⟩ : BufTy).Contents (Elt F) → (⟨S300000x256, .f32⟩ : BufTy).Contents (Elt F)),
    unary main_v39 main_v49 (broadcastInDim S300000x1 ![0] bcast_S300000_S300000x1_0 : (⟨S300000, .f32⟩ : BufTy).Contents (Elt F) → (⟨S300000x1, .f32⟩ : BufTy).Contents (Elt F)),
    unary main_v49 main_v50 (broadcastInDim S300000x256 ![0, 1] bcast_S300000x1_S300000x256_0_1 : (⟨S300000x1, .f32⟩ : BufTy).Contents (Elt F) → (⟨S300000x256, .f32⟩ : BufTy).Contents (Elt F)),
    binary main_v48 main_v50 main_v51 (mulf : (⟨S300000x256, .f32⟩ : BufTy).Contents (Elt F) → (⟨S300000x256, .f32⟩ : BufTy).Contents (Elt F) → (⟨S300000x256, .f32⟩ : BufTy).Contents (Elt F)),
    nullary main_cst_8 (constant S_ .f32 0x00000000#32),
    unary main_cst_8 main_v52 (broadcastInDim S50000x256 ![] bcast_S_S50000x256 : (⟨S_, .f32⟩ : BufTy).Contents (Elt F) → (⟨S50000x256, .f32⟩ : BufTy).Contents (Elt F)),
    unary main_v1 main_v53 (broadcastInDim S300000x1 ![0] bcast_S300000_S300000x1_0 : (⟨S300000, .i32⟩ : BufTy).Contents (Elt F) → (⟨S300000x1, .i32⟩ : BufTy).Contents (Elt F)),
    ternary main_v52 main_v53 main_v51 main_v54 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    binary main_v54 main_arg3 main_v55 (addf : (⟨S50000x256, .f32⟩ : BufTy).Contents (Elt F) → (⟨S50000x256, .f32⟩ : BufTy).Contents (Elt F) → (⟨S50000x256, .f32⟩ : BufTy).Contents (Elt F)),
    TRef.nullary main_call1.cst (constant S_ .f32 0x00000000#32),
    TRef.unary main_call1.cst main_call1.v0 (broadcastInDim S50000x256 ![] bcast_S_S50000x256),
    TRef.binary (.of main_v55) main_call1.v0 main_call1.v1 (cmpf .ogt),
    TRef.nullary main_call1.cst_0 (constant S_ .f32 0x00000000#32),
    TRef.unary main_call1.cst_0 main_call1.v2 (broadcastInDim S50000x256 ![] bcast_S_S50000x256),
    TRef.binary (.of main_v55) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x256 ![] bcast_S_S50000x256),
    TRef.ternary main_call1.v3 main_call1.call0.v1 (.of main_v55) main_call1.call0.v2 select,
    TRef.unary main_call1.call0.v2 main_call1.v5 Host.expm1,
    TRef.nullary main_call1.cst_2 (constant S_ .f32 0x3F800000#32),
    TRef.unary main_call1.cst_2 main_call1.v6 (broadcastInDim S50000x256 ![] bcast_S_S50000x256),
    TRef.binary main_call1.v6 main_call1.v5 main_call1.v7 mulf,
    TRef.ternary main_call1.v1 (.of main_v55) main_call1.v7 main_call1.call1.v0 select ]

-- eighty-eight binds re-associated: the rewrite under the chain recurses once per statement
set_option maxRecDepth 4096 in
set_option maxHeartbeats 4000000 in
/-- @main is that straight line: the functions' bodies unfolded at their calls, both sides are one chain of steps
    once sequencing is reassociated. -/
theorem main_eq (c : Dev nD) : main (F := F) c = seq ops := by
  simp only [main, main_part0, main_part1, fn_leaky_relu.body, fn_where.body, fn_elu.body, fn_where_0.body,
    fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., reshape_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/-
  The reference's result as NAMED STAGES: one definition per meaningful intermediate array, each the printed
  operations applied to the stages before it. The three word columns; a column wrapped as a negative index; the three
  row gathers; the attention logit; the leaky rectifier; the score; the row sums; the attention; the projection; its
  scaling; the attended features; the exponential linear unit; the result.
-/
import proofs.«175619_j26620207300627_2_alg».proof.Proof.Gen.ReferenceIdeal

noncomputable section

namespace Cert.ReferenceIdeal.RefValue

open Cert.ReferenceIdeal Cert.ReferenceIdeal.Gen Idealize.ShloMosaic

variable {F : FTy → Type} [FloatOps F]

/-- Column `0` of the triples as a flat array of words: the head words. -/
def headWords (a0 : IVec S300000x3 32) : IVec S300000 32 :=
  shapeCast S300000 (extractStridedSlice S300000x1 ![0, 0] a0 slices_S300000x3_S300000x1_0_0) shapeCasts_S300000x1_S300000

/-- Column `1`: the value words. -/
def valWords (a0 : IVec S300000x3 32) : IVec S300000 32 :=
  shapeCast S300000 (extractStridedSlice S300000x1 ![0, 1] a0 slices_S300000x3_S300000x1_0_1) shapeCasts_S300000x1_S300000

/-- Column `2`: the attribute words. -/
def attWords (a0 : IVec S300000x3 32) : IVec S300000 32 :=
  shapeCast S300000 (extractStridedSlice S300000x1 ![0, 2] a0 slices_S300000x3_S300000x1_0_2) shapeCasts_S300000x1_S300000

/-- A flat array of words wrapped as negative indices into a table of `n` rows — `w + n` where `w` is negative as a
    signed word, else `w` —, as a column of start words. -/
def wrapIdx (n : BitVec 32) (w : IVec S300000 32) : IVec S300000x1 32 :=
  broadcastInDim S300000x1 ![0] bcast_S300000_S300000x1_0
    (select (cmpi .slt w (broadcastInDim S300000 ![] bcast_S_S300000 (constantI S_ 32 0#32)))
      (addi w (broadcastInDim S300000 ![] bcast_S_S300000 (constantI S_ 32 n))) w)

/-- The head words as a column of start words, not wrapped: what the two segment sums add by. -/
def headCol (a0 : IVec S300000x3 32) : IVec S300000x1 32 :=
  broadcastInDim S300000x1 ![0] bcast_S300000_S300000x1_0 (headWords a0)

/-- The attribute rows gathered per edge. -/
def attG (a0 : IVec S300000x3 32) (a1 : FVec F S2000x256 .f32) : FVec F S300000x256 .f32 :=
  Host.gather gather_S2000x256_S300000x1_S300000x256_1_0_n_n_0_1_1256 a1 (wrapIdx 2000#32 (attWords a0))

/-- The entity rows gathered per edge. -/
def entG (a0 : IVec S300000x3 32) (a3 : FVec F S50000x256 .f32) : FVec F S300000x256 .f32 :=
  Host.gather gather_S50000x256_S300000x1_S300000x256_1_0_n_n_0_1_1256 a3 (wrapIdx 50000#32 (headWords a0))

/-- The value rows gathered per edge. -/
def valG (a0 : IVec S300000x3 32) (a2 : FVec F S100000x256 .f32) : FVec F S300000x256 .f32 :=
  Host.gather gather_S100000x256_S300000x1_S300000x256_1_0_n_n_0_1_1256 a2 (wrapIdx 100000#32 (valWords a0))

/-- Two arrays of 256 columns side by side. -/
def cat (x y : FVec F S300000x256 .f32) : FVec F S300000x512 .f32 :=
  concatenate S300000x512 1 [⟨S300000x256, x⟩, ⟨S300000x256, y⟩] concatenates_S300000x256_S300000x256_S300000x512_d1

/-- The attention logit per edge: the entity and attribute rows side by side against the transposed weight row, plus
    the bias, as a flat array. -/
def linArr (a0 : IVec S300000x3 32) (a1 : FVec F S2000x256 .f32) (a3 : FVec F S50000x256 .f32) (a4 : FVec F S1x512 .f32)
    (a5 : FVec F S1 .f32) : FVec F S300000 .f32 :=
  shapeCast S300000
    (addf (Host.dotGeneral dot_S300000x512_S512x1_S300000x1_1_0_0_1_n_n none (cat (entG a0 a3) (attG a0 a1))
            (transpose S512x1 [1, 0] a4 transposes_S1x512_S512x1_1_0))
      (broadcastInDim S300000x1 ![0, 1] bcast_S1x1_S300000x1_0_1 (broadcastInDim S1x1 ![1] bcast_S1_S1x1_1 a5)))
    shapeCasts_S300000x1_S300000

/-- The leaky rectifier of slope `0.2` as the outlined function spells it: `x` where `x ≥ 0`, else the slope times `x`. -/
def lreluArr (x : FVec F S300000 .f32) : FVec F S300000 .f32 :=
  select (cmpf .oge x (broadcastInDim S300000 ![] bcast_S_S300000 (constant S_ .f32 0x00000000#32))) x
    (mulf (broadcastInDim S300000 ![] bcast_S_S300000 (constant S_ .f32 0x3E4CCCCD#32)) x)

/-- The score per edge. -/
def scoreArr (a0 : IVec S300000x3 32) (a1 : FVec F S2000x256 .f32) (a3 : FVec F S50000x256 .f32) (a4 : FVec F S1x512 .f32)
    (a5 : FVec F S1 .f32) : FVec F S300000 .f32 :=
  Host.exp (lreluArr (linArr a0 a1 a3 a4 a5))

/-- The scores summed by head word into an array of zeros. -/
def rowSumArr (a0 : IVec S300000x3 32) (a1 : FVec F S2000x256 .f32) (a3 : FVec F S50000x256 .f32) (a4 : FVec F S1x512 .f32)
    (a5 : FVec F S1 .f32) : FVec F S50000 .f32 :=
  Host.scatterAdd scatter_S50000_S300000x1_S300000_n_0_0_1
    (broadcastInDim S50000 ![] bcast_S_S50000 (constant S_ .f32 0x00000000#32)) (headCol a0) (scoreArr a0 a1 a3 a4 a5)

/-- The attention per edge: the score over the row sum gathered at the wrapped head word. -/
def attnArr (a0 : IVec S300000x3 32) (a1 : FVec F S2000x256 .f32) (a3 : FVec F S50000x256 .f32) (a4 : FVec F S1x512 .f32)
    (a5 : FVec F S1 .f32) : FVec F S300000 .f32 :=
  Host.divf (scoreArr a0 a1 a3 a4 a5)
    (Host.gather gather_S50000_S300000x1_S300000_n_0_n_n_0_1_1 (rowSumArr a0 a1 a3 a4 a5) (wrapIdx 50000#32 (headWords a0)))

/-- The projection per edge: the attribute and value rows side by side against the weight matrix. -/
def projArr (a0 : IVec S300000x3 32) (a1 : FVec F S2000x256 .f32) (a2 : FVec F S100000x256 .f32) (a6 : FVec F S512x256 .f32) :
    FVec F S300000x256 .f32 :=
  Host.dotGeneral dot_S300000x512_S512x256_S300000x256_1_0_0_1_n_n none (cat (attG a0 a1) (valG a0 a2)) a6

/-- A flat array per edge repeated along 256 columns. -/
def colBcast (x : FVec F S300000 .f32) : FVec F S300000x256 .f32 :=
  broadcastInDim S300000x256 ![0, 1] bcast_S300000x1_S300000x256_0_1 (broadcastInDim S300000x1 ![0] bcast_S300000_S300000x1_0 x)

/-- The projection scaled by the attention. -/
def scaledArr (a0 : IVec S300000x3 32) (a1 : FVec F S2000x256 .f32) (a2 : FVec F S100000x256 .f32) (a3 : FVec F S50000x256 .f32)
    (a4 : FVec F S1x512 .f32) (a5 : FVec F S1 .f32) (a6 : FVec F S512x256 .f32) : FVec F S300000x256 .f32 :=
  mulf (projArr a0 a1 a2 a6) (colBcast (attnArr a0 a1 a3 a4 a5))

/-- The scaled projections summed by head word into an array of zeros. -/
def featsArr (a0 : IVec S300000x3 32) (a1 : FVec F S2000x256 .f32) (a2 : FVec F S100000x256 .f32) (a3 : FVec F S50000x256 .f32)
    (a4 : FVec F S1x512 .f32) (a5 : FVec F S1 .f32) (a6 : FVec F S512x256 .f32) : FVec F S50000x256 .f32 :=
  Host.scatterAdd scatter_S50000x256_S300000x1_S300000x256_1_0_0_1
    (broadcastInDim S50000x256 ![] bcast_S_S50000x256 (constant S_ .f32 0x00000000#32)) (headCol a0) (scaledArr a0 a1 a2 a3 a4 a5 a6)

/-- The exponential linear unit as the outlined function spells it: `x` where `x > 0`, else `1 · expm1 x'` with `x'` the
    input where it is not positive and `0` where it is. -/
def eluArr (x : FVec F S50000x256 .f32) : FVec F S50000x256 .f32 :=
  select (cmpf .ogt x (broadcastInDim S50000x256 ![] bcast_S_S50000x256 (constant S_ .f32 0x00000000#32))) x
    (mulf (broadcastInDim S50000x256 ![] bcast_S_S50000x256 (constant S_ .f32 0x3F800000#32))
      (Host.expm1 (select (cmpf .ogt x (broadcastInDim S50000x256 ![] bcast_S_S50000x256 (constant S_ .f32 0x00000000#32)))
        (broadcastInDim S50000x256 ![] bcast_S_S50000x256 (constant S_ .f32 0x00000000#32)) x)))

/-- The reference's result: the unit of the attended features plus the entity features. -/
def refOut (a0 : IVec S300000x3 32) (a1 : FVec F S2000x256 .f32) (a2 : FVec F S100000x256 .f32) (a3 : FVec F S50000x256 .f32)
    (a4 : FVec F S1x512 .f32) (a5 : FVec F S1 .f32) (a6 : FVec F S512x256 .f32) : FVec F S50000x256 .f32 :=
  eluArr (addf (featsArr a0 a1 a2 a3 a4 a5 a6) a3)

end Cert.ReferenceIdeal.RefValue

end
-- ==== Proof.RefFoldOut.lean ====
/-
  The fold of the reference's operations, read at the result buffer, is the composition of the named stages.
-/
import proofs.«175619_j26620207300627_2_alg».proof.Proof.RefRun
import proofs.«175619_j26620207300627_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd FloatOps.dotGeneral concatenate transpose broadcastInDim shapeCast extractStridedSlice in
set_option maxRecDepth 16384 in
set_option maxHeartbeats 4000000 in
/-- The fold at the result buffer: each operation's result at its own buffer is its function of the operands'
    contents, at any other buffer what was there; composed, the stages. -/
theorem out_eq (V : Valuation τ sig (Elt F)) :
    after ops V (main_v56 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  unfold ops
  after_results_simp
  rfl

end Cert.ReferenceIdeal.RefValue

end
-- ==== Proof.RefFoldArgsA.lean ====
/-
  The fold of the reference's operations, read at an argument buffer, is what was there: no operation writes an argument.
-/
import proofs.«175619_j26620207300627_2_alg».proof.Proof.RefRun
import proofs.«175619_j26620207300627_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- No operation writes argument 0. -/
theorem arg0_eq (V : Valuation τ sig (Elt F)) :
    after ops V (main_arg0 : DevRef τ sig) = V (main_arg0 : DevRef τ sig) := by
  unfold ops
  after_results_simp

set_option maxRecDepth 16384 in
/-- No operation writes argument 1. -/
theorem arg1_eq (V : Valuation τ sig (Elt F)) :
    after ops V (main_arg1 : DevRef τ sig) = V (main_arg1 : DevRef τ sig) := by
  unfold ops
  after_results_simp

set_option maxRecDepth 16384 in
/-- No operation writes argument 2. -/
theorem arg2_eq (V : Valuation τ sig (Elt F)) :
    after ops V (main_arg2 : DevRef τ sig) = V (main_arg2 : DevRef τ sig) := by
  unfold ops
  after_results_simp

set_option maxRecDepth 16384 in
/-- No operation writes argument 3. -/
theorem arg3_eq (V : Valuation τ sig (Elt F)) :
    after ops V (main_arg3 : DevRef τ sig) = V (main_arg3 : DevRef τ sig) := by
  unfold ops
  after_results_simp

end Cert.ReferenceIdeal.RefValue

end
-- ==== Proof.RefFoldArgsB.lean ====
/-
  The fold of the reference's operations, read at an argument buffer, is what was there: no operation writes an argument.
-/
import proofs.«175619_j26620207300627_2_alg».proof.Proof.RefRun
import proofs.«175619_j26620207300627_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- No operation writes argument 4. -/
theorem arg4_eq (V : Valuation τ sig (Elt F)) :
    after ops V (main_arg4 : DevRef τ sig) = V (main_arg4 : DevRef τ sig) := by
  unfold ops
  after_results_simp

set_option maxRecDepth 16384 in
/-- No operation writes argument 5. -/
theorem arg5_eq (V : Valuation τ sig (Elt F)) :
    after ops V (main_arg5 : DevRef τ sig) = V (main_arg5 : DevRef τ sig) := by
  unfold ops
  after_results_simp

set_option maxRecDepth 16384 in
/-- No operation writes argument 6. -/
theorem arg6_eq (V : Valuation τ sig (Elt F)) :
    after ops V (main_arg6 : DevRef τ sig) = V (main_arg6 : DevRef τ sig) := by
  unfold ops
  after_results_simp

end Cert.ReferenceIdeal.RefValue

end
-- ==== Proof.RefFold.lean ====
/-
  The fold of the reference's operations at the result buffer and at the argument buffers: the two facts, assembled.
-/
import proofs.«175619_j26620207300627_2_alg».proof.Proof.RefFoldOut
import proofs.«175619_j26620207300627_2_alg».proof.Proof.RefFoldArgsA
import proofs.«175619_j26620207300627_2_alg».proof.Proof.RefFoldArgsB
-- ==== Proof.RefReadRows.lean ====
/-
  THE REFERENCE'S GATHERED ROWS AND THEIR CONCATENATION AT AN INDEX. Row `e` of a gathered table is the table's row that
  edge `e` reads: the start word is the edge's word wrapped once as a negative index, read signed and clamped into the
  table. Two arrays of 256 columns side by side read, at column `c`, the first at `c` when `c < 256` and the second at
  `c − 256` otherwise.
-/
import proofs.«175619_j26620207300627_2_alg».proof.Proof.RefStages
import proofs.«175619_j26620207300627_2_alg».proof.Proof.KerLayout
import proofs.«175619_j26620207300627_2_alg».proof.Proof.LibScatterGather
import proofs.«175619_j26620207300627_2_alg».proof.Proof.Spec

set_option maxRecDepth 16384

noncomputable section

namespace Cert.ReferenceIdeal.RefReadDot

open Cert.ReferenceIdeal Cert.KerLayout Cert.Lib.ScatterGather
open Idealize.ShloMosaic Idealize.ShloMosaic.ValueIdx
open Facts₀ Facts

/-! ## The printed dimension numbers are the generic row gather's -/

theorem gatherEnt_eq : gather_S50000x256_S300000x1_S300000x256_1_0_n_n_0_1_1256
    = rowGatherDims 50000 300000 256 gather_S50000x256_S300000x1_S300000x256_1_0_n_n_0_1_1256_wf := rfl
theorem gatherAtt_eq : gather_S2000x256_S300000x1_S300000x256_1_0_n_n_0_1_1256
    = rowGatherDims 2000 300000 256 gather_S2000x256_S300000x1_S300000x256_1_0_n_n_0_1_1256_wf := rfl
theorem gatherVal_eq : gather_S100000x256_S300000x1_S300000x256_1_0_n_n_0_1_1256
    = rowGatherDims 100000 300000 256 gather_S100000x256_S300000x1_S300000x256_1_0_n_n_0_1_1256_wf := rfl

/-! ## The word columns and the wrapped start words -/

theorem headWords_apply (a0 : IVec S300000x3 32) (e : Fin 300000) :
    RefValue.headWords a0 (ix1 e) = a0 (ix2 e (0 : Fin 3)) := by
  unfold RefValue.headWords
  rw [shapeCast_a1_a_apply]
  exact slice2_axis1_apply 0 a0 _ e (0 : Fin 1) (0 : Fin 3) rfl
theorem valWords_apply (a0 : IVec S300000x3 32) (e : Fin 300000) :
    RefValue.valWords a0 (ix1 e) = a0 (ix2 e (1 : Fin 3)) := by
  unfold RefValue.valWords
  rw [shapeCast_a1_a_apply]
  exact slice2_axis1_apply 1 a0 _ e (0 : Fin 1) (1 : Fin 3) rfl
theorem attWords_apply (a0 : IVec S300000x3 32) (e : Fin 300000) :
    RefValue.attWords a0 (ix1 e) = a0 (ix2 e (2 : Fin 3)) := by
  unfold RefValue.attWords
  rw [shapeCast_a1_a_apply]
  exact slice2_axis1_apply 2 a0 _ e (0 : Fin 1) (2 : Fin 3) rfl

/-- The start word of edge `e` for a table of `n` rows is the wrapped word. -/
theorem wrapIdx_apply (n : BitVec 32) (w : IVec S300000 32) (e : Fin 300000) :
    RefValue.wrapIdx n w (ix2 e (0 : Fin 1)) = Cert.Spec.wrap n (w (ix1 e)) := by
  unfold RefValue.wrapIdx
  rw [bcast_col_apply]
  rfl

/-! ## The three row gathers -/

theorem entG_apply (a0 : IVec S300000x3 32) (a3 : FVec Ideal S50000x256 .f32) (e : Fin 300000) (k : Fin 256) :
    RefValue.entG (F := Ideal) a0 a3 (ix2 e k) = a3 (ix2 (Cert.Spec.entRow a0 e) k) := by
  unfold RefValue.entG
  rw [gatherEnt_eq, gather_rows_apply (by norm_num)]
  refine congrArg (fun r => a3 (ix2 r k)) (Fin.ext ?_)
  show min (RefValue.wrapIdx 50000#32 (RefValue.headWords a0) (ix2 e (0 : Fin 1))).toInt.toNat (50000 - 1)
    = min (Cert.Spec.wrap 50000#32 (a0 (ix2 e (0 : Fin 3)))).toInt.toNat (50000 - 1)
  rw [wrapIdx_apply, headWords_apply]

theorem attG_apply (a0 : IVec S300000x3 32) (a1 : FVec Ideal S2000x256 .f32) (e : Fin 300000) (k : Fin 256) :
    RefValue.attG (F := Ideal) a0 a1 (ix2 e k) = a1 (ix2 (Cert.Spec.attRow a0 e) k) := by
  unfold RefValue.attG
  rw [gatherAtt_eq, gather_rows_apply (by norm_num)]
  refine congrArg (fun r => a1 (ix2 r k)) (Fin.ext ?_)
  show min (RefValue.wrapIdx 2000#32 (RefValue.attWords a0) (ix2 e (0 : Fin 1))).toInt.toNat (2000 - 1)
    = min (Cert.Spec.wrap 2000#32 (a0 (ix2 e (2 : Fin 3)))).toInt.toNat (2000 - 1)
  rw [wrapIdx_apply, attWords_apply]

theorem valG_apply (a0 : IVec S300000x3 32) (a2 : FVec Ideal S100000x256 .f32) (e : Fin 300000) (k : Fin 256) :
    RefValue.valG (F := Ideal) a0 a2 (ix2 e k) = a2 (ix2 (Cert.Spec.valRow a0 e) k) := by
  unfold RefValue.valG
  rw [gatherVal_eq, gather_rows_apply (by norm_num)]
  refine congrArg (fun r => a2 (ix2 r k)) (Fin.ext ?_)
  show min (RefValue.wrapIdx 100000#32 (RefValue.valWords a0) (ix2 e (0 : Fin 1))).toInt.toNat (100000 - 1)
    = min (Cert.Spec.wrap 100000#32 (a0 (ix2 e (1 : Fin 3)))).toInt.toNat (100000 - 1)
  rw [wrapIdx_apply, valWords_apply]

/-! ## Two arrays side by side -/

/-- In the first 256 columns the concatenation is the first array. -/
theorem cat_left (x y : FVec Ideal S300000x256 .f32) (e : Fin 300000) (k : Fin 256) :
    RefValue.cat (F := Ideal) x y (ix2 e (⟨k.val, by omega⟩ : Fin 512)) = x (ix2 e k) := by
  unfold RefValue.cat
  refine concatenate_pair_apply_left (1 : Fin S300000x512.rank) x y _ _ rfl (ix2 e k) (fun b => ?_)
  match b with
  | ⟨0, _⟩ => rfl
  | ⟨1, _⟩ => rfl

/-- In the last 256 columns it is the second array, 256 columns back. -/
theorem cat_right (x y : FVec Ideal S300000x256 .f32) (e : Fin 300000) (k : Fin 256) :
    RefValue.cat (F := Ideal) x y (ix2 e (⟨256 + k.val, by omega⟩ : Fin 512)) = y (ix2 e k) := by
  unfold RefValue.cat
  refine concatenate_pair_apply_right (1 : Fin S300000x512.rank) x y _ _ rfl rfl (ix2 e k) (fun b hb => ?_) ?_
  · match b with
    | ⟨0, _⟩ => rfl
    | ⟨1, _⟩ => exact absurd rfl hb
  · show k.val + 256 = 256 + k.val
    exact Nat.add_comm _ _

end Cert.ReferenceIdeal.RefReadDot

end
-- ==== Proof.RefReadSum.lean ====
/-
  TWO SCALAR FACTS the reference's logit and score need. A sum over 512 columns is the sum over the first 256 plus the
  sum over the last 256. The leaky rectifier spelt with the test `s ≥ 0` is the one spelt with `s > 0`: the two tests
  differ only at `s = 0`, where both branches are `0`.
-/
import Idealize.ShloMosaic.PureOps.Ideal.Laws
import Idealize.ShloMosaic.Lib.ValueIdx
import proofs.«175619_j26620207300627_2_alg».proof.Proof.Spec

noncomputable section

open scoped BigOperators

namespace Cert.ReferenceIdeal.RefReadDot

open Idealize.ShloMosaic Idealize.ShloMosaic.ValueIdx

/-- A sum over `Fin 512` split at 256. -/
theorem sum_fin512 {M : Type} [AddCommMonoid M] (f : Fin 512 → M) :
    ∑ c : Fin 512, f c
      = (∑ k : Fin 256, f (⟨k.val, by omega⟩ : Fin 512)) + ∑ k : Fin 256, f (⟨256 + k.val, by omega⟩ : Fin 512) :=
  Fin.sum_univ_add (a := 256) (b := 256) f

/-- "`s` where `s ≥ 0`, else the slope word times `s`", the comparison being the extended reals' order and the zero word
    the real `0`, is the specification's `lrelu`. -/
theorem select_oge_eq_lrelu (s : EReal) :
    Scalar.select (FloatOps.cmpf (F := Ideal) (φ := .f32) .oge s (Ideal.ofBits .f32 0x00000000#32)) s
        (Ideal.ofBits .f32 0x3E4CCCCD#32 * s)
      = Cert.Spec.lrelu s := by
  rw [Ideal.ofBits_zero_f32, Ideal.cmpf_def]
  unfold Cert.Spec.lrelu
  show Scalar.select (BitVec.ofBool (decide ((0 : EReal) ≤ s))) s _ = _
  by_cases hs : (0 : EReal) < s
  · have h1 : BitVec.ofBool (decide ((0 : EReal) ≤ s)) = 1#1 := by rw [decide_eq_true hs.le]; rfl
    rw [if_pos hs, h1, select_one]
  · rw [if_neg hs]
    by_cases h0 : (0 : EReal) ≤ s
    · have hz : s = 0 := le_antisymm (not_lt.mp hs) h0
      have h1 : BitVec.ofBool (decide ((0 : EReal) ≤ s)) = 1#1 := by rw [decide_eq_true h0]; rfl
      rw [h1, select_one, hz, mul_zero]
    · have h1 : BitVec.ofBool (decide ((0 : EReal) ≤ s)) = 0#1 := by rw [decide_eq_false h0]; rfl
      rw [h1, select_zero]

end Cert.ReferenceIdeal.RefReadDot

end
-- ==== Proof.RefReadDot.lean ====
/-
  THE REFERENCE'S TWO PRODUCTS AT AN INDEX, in the specification's terms. The logit of edge `e` is the entity and
  attribute rows side by side against the transposed attention row, plus the bias: a sum over 512 columns that splits
  into the entity half and the attribute half. The projection of edge `e` at column `j` is the attribute and value rows
  side by side against the projection matrix: again a sum over 512 that splits into its two halves. The score is the
  exponential of the leaky rectifier of the logit.
-/
import proofs.«175619_j26620207300627_2_alg».proof.Proof.RefReadRows
import proofs.«175619_j26620207300627_2_alg».proof.Proof.RefReadSum
import Idealize.ShloMosaic.PureOps.Ideal.Laws
import Idealize.ShloMosaic.Lib.ValueLayout

set_option maxRecDepth 16384

noncomputable section

open scoped BigOperators

namespace Cert.ReferenceIdeal.RefReadDot

open Cert.ReferenceIdeal Cert.KerLayout
open Idealize.ShloMosaic Idealize.ShloMosaic.ValueIdx
open Facts₀ Facts

/-! ## The product of the logit: `[300000, 512]` by `[512, 1]` -/

/-- The left operand's row coordinate is the output's row (its free axis). -/
theorem dotLin_lhs_0 (i : S300000x1.Idx) (q : dot_S300000x512_S512x1_S300000x1_1_0_0_1_n_n.contr.Idx) :
    (dot_S300000x512_S512x1_S300000x1_1_0_0_1_n_n.lhsIdx i q 0).val = (i 0).val := by
  unfold DotDims.lhsIdx
  rw [dif_neg (show ¬(0 : Fin S300000x512.rank) ∈ dot_S300000x512_S512x1_S300000x1_1_0_0_1_n_n.lhsBatch by decide),
    dif_pos (show (0 : Fin S300000x512.rank) ∈ dot_S300000x512_S512x1_S300000x1_1_0_0_1_n_n.lhsNonContracting by decide)]
  rfl

/-- The left operand's column coordinate is the contraction coordinate (its one contracted axis). -/
theorem dotLin_lhs_1 (i : S300000x1.Idx) (q : dot_S300000x512_S512x1_S300000x1_1_0_0_1_n_n.contr.Idx) :
    (dot_S300000x512_S512x1_S300000x1_1_0_0_1_n_n.lhsIdx i q 1).val = (q ⟨0, by decide⟩).val :=
  dot_S300000x512_S512x1_S300000x1_1_0_0_1_n_n.lhsIdx_val_of_single rfl i q

/-- The right operand's row coordinate is the contraction coordinate. -/
theorem dotLin_rhs_0 (i : S300000x1.Idx) (q : dot_S300000x512_S512x1_S300000x1_1_0_0_1_n_n.contr.Idx) :
    (dot_S300000x512_S512x1_S300000x1_1_0_0_1_n_n.rhsIdx i q 0).val = (q ⟨0, by decide⟩).val :=
  dot_S300000x512_S512x1_S300000x1_1_0_0_1_n_n.rhsIdx_val_of_single rfl i q

/-- The right operand's column coordinate is the output's column (its free axis). -/
theorem dotLin_rhs_1 (i : S300000x1.Idx) (q : dot_S300000x512_S512x1_S300000x1_1_0_0_1_n_n.contr.Idx) :
    (dot_S300000x512_S512x1_S300000x1_1_0_0_1_n_n.rhsIdx i q 1).val = (i 1).val := by
  unfold DotDims.rhsIdx
  rw [dif_neg (show ¬(1 : Fin S512x1.rank) ∈ dot_S300000x512_S512x1_S300000x1_1_0_0_1_n_n.rhsBatch by decide),
    dif_pos (show (1 : Fin S512x1.rank) ∈ dot_S300000x512_S512x1_S300000x1_1_0_0_1_n_n.rhsNonContracting by decide)]
  rfl

/-- The product at `(e, j)`: the contraction index is its one coordinate `c : Fin 512`, at which the operands are read
    at `(e, c)` and `(c, j)`. -/
theorem dotLin_apply {φ₁ φ₂ : FTy} (A : FVec Ideal S300000x512 φ₁) (B : FVec Ideal S512x1 φ₂) (e : Fin 300000) (j : Fin 1) :
    Host.dotGeneral (F := Ideal) dot_S300000x512_S512x1_S300000x1_1_0_0_1_n_n none A B (ix2 e j)
      = ∑ c : Fin 512, A (ix2 e c) * B (ix2 c j) := by
  refine (Ideal.dotGeneral_apply dot_S300000x512_S512x1_S300000x1_1_0_0_1_n_n none .single A B (ix2 e j)).trans ?_
  rw [← Equiv.sum_comp (contrEquiv1 dot_S300000x512_S512x1_S300000x1_1_0_0_1_n_n 512 rfl rfl).symm]
  refine Finset.sum_congr rfl fun c _ => ?_
  have hc := contrEquiv1_symm_val dot_S300000x512_S512x1_S300000x1_1_0_0_1_n_n 512 rfl rfl c
  have el : dot_S300000x512_S512x1_S300000x1_1_0_0_1_n_n.lhsIdx (ix2 e j) ((contrEquiv1 dot_S300000x512_S512x1_S300000x1_1_0_0_1_n_n 512 rfl rfl).symm c) = ix2 e c :=
    funext fun a => Fin.ext (by
      match a with
      | ⟨0, _⟩ => exact dotLin_lhs_0 _ _
      | ⟨1, _⟩ => exact (dotLin_lhs_1 _ _).trans hc)
  have er : dot_S300000x512_S512x1_S300000x1_1_0_0_1_n_n.rhsIdx (ix2 e j) ((contrEquiv1 dot_S300000x512_S512x1_S300000x1_1_0_0_1_n_n 512 rfl rfl).symm c) = ix2 c j :=
    funext fun a => Fin.ext (by
      match a with
      | ⟨0, _⟩ => exact (dotLin_rhs_0 _ _).trans hc
      | ⟨1, _⟩ => exact dotLin_rhs_1 _ _)
  rw [el, er]

/-! ## The product of the projection: `[300000, 512]` by `[512, 256]` -/

/-- The left operand's row coordinate is the output's row (its free axis). -/
theorem dotProj_lhs_0 (i : S300000x256.Idx) (q : dot_S300000x512_S512x256_S300000x256_1_0_0_1_n_n.contr.Idx) :
    (dot_S300000x512_S512x256_S300000x256_1_0_0_1_n_n.lhsIdx i q 0).val = (i 0).val := by
  unfold DotDims.lhsIdx
  rw [dif_neg (show ¬(0 : Fin S300000x512.rank) ∈ dot_S300000x512_S512x256_S300000x256_1_0_0_1_n_n.lhsBatch by decide),
    dif_pos (show (0 : Fin S300000x512.rank) ∈ dot_S300000x512_S512x256_S300000x256_1_0_0_1_n_n.lhsNonContracting by decide)]
  rfl

/-- The left operand's column coordinate is the contraction coordinate (its one contracted axis). -/
theorem dotProj_lhs_1 (i : S300000x256.Idx) (q : dot_S300000x512_S512x256_S300000x256_1_0_0_1_n_n.contr.Idx) :
    (dot_S300000x512_S512x256_S300000x256_1_0_0_1_n_n.lhsIdx i q 1).val = (q ⟨0, by decide⟩).val :=
  dot_S300000x512_S512x256_S300000x256_1_0_0_1_n_n.lhsIdx_val_of_single rfl i q

/-- The right operand's row coordinate is the contraction coordinate. -/
theorem dotProj_rhs_0 (i : S300000x256.Idx) (q : dot_S300000x512_S512x256_S300000x256_1_0_0_1_n_n.contr.Idx) :
    (dot_S300000x512_S512x256_S300000x256_1_0_0_1_n_n.rhsIdx i q 0).val = (q ⟨0, by decide⟩).val :=
  dot_S300000x512_S512x256_S300000x256_1_0_0_1_n_n.rhsIdx_val_of_single rfl i q

/-- The right operand's column coordinate is the output's column (its free axis). -/
theorem dotProj_rhs_1 (i : S300000x256.Idx) (q : dot_S300000x512_S512x256_S300000x256_1_0_0_1_n_n.contr.Idx) :
    (dot_S300000x512_S512x256_S300000x256_1_0_0_1_n_n.rhsIdx i q 1).val = (i 1).val := by
  unfold DotDims.rhsIdx
  rw [dif_neg (show ¬(1 : Fin S512x256.rank) ∈ dot_S300000x512_S512x256_S300000x256_1_0_0_1_n_n.rhsBatch by decide),
    dif_pos (show (1 : Fin S512x256.rank) ∈ dot_S300000x512_S512x256_S300000x256_1_0_0_1_n_n.rhsNonContracting by decide)]
  rfl

/-- The product at `(e, j)`: the contraction index is its one coordinate `c : Fin 512`, at which the operands are read
    at `(e, c)` and `(c, j)`. -/
theorem dotProj_apply {φ₁ φ₂ : FTy} (A : FVec Ideal S300000x512 φ₁) (B : FVec Ideal S512x256 φ₂) (e : Fin 300000) (j : Fin 256) :
    Host.dotGeneral (F := Ideal) dot_S300000x512_S512x256_S300000x256_1_0_0_1_n_n none A B (ix2 e j)
      = ∑ c : Fin 512, A (ix2 e c) * B (ix2 c j) := by
  refine (Ideal.dotGeneral_apply dot_S300000x512_S512x256_S300000x256_1_0_0_1_n_n none .single A B (ix2 e j)).trans ?_
  rw [← Equiv.sum_comp (contrEquiv1 dot_S300000x512_S512x256_S300000x256_1_0_0_1_n_n 512 rfl rfl).symm]
  refine Finset.sum_congr rfl fun c _ => ?_
  have hc := contrEquiv1_symm_val dot_S300000x512_S512x256_S300000x256_1_0_0_1_n_n 512 rfl rfl c
  have el : dot_S300000x512_S512x256_S300000x256_1_0_0_1_n_n.lhsIdx (ix2 e j) ((contrEquiv1 dot_S300000x512_S512x256_S300000x256_1_0_0_1_n_n 512 rfl rfl).symm c) = ix2 e c :=
    funext fun a => Fin.ext (by
      match a with
      | ⟨0, _⟩ => exact dotProj_lhs_0 _ _
      | ⟨1, _⟩ => exact (dotProj_lhs_1 _ _).trans hc)
  have er : dot_S300000x512_S512x256_S300000x256_1_0_0_1_n_n.rhsIdx (ix2 e j) ((contrEquiv1 dot_S300000x512_S512x256_S300000x256_1_0_0_1_n_n 512 rfl rfl).symm c) = ix2 c j :=
    funext fun a => Fin.ext (by
      match a with
      | ⟨0, _⟩ => exact (dotProj_rhs_0 _ _).trans hc
      | ⟨1, _⟩ => exact dotProj_rhs_1 _ _)
  rw [el, er]

/-! ## The bias -/

/-- The one bias number as a 1×1 array, repeated down a column: every entry is the number. -/
theorem bias_apply (a5 : FVec Ideal S1 .f32) (e : Fin 300000) (u : Fin 1) :
    broadcastInDim S300000x1 ![0, 1] bcast_S1x1_S300000x1_0_1 (broadcastInDim S1x1 ![1] bcast_S1_S1x1_1 a5) (ix2 e u)
      = a5 (ix1 (0 : Fin 1)) := by
  refine (broadcastInDim_apply _ _ _ (ix2 e u) (ix2 (0 : Fin 1) (0 : Fin 1)) (fun b => ?_)).trans ?_
  · match b with
    | ⟨0, _⟩ => rfl
    | ⟨1, _⟩ => rfl
  · refine broadcastInDim_apply _ _ _ (ix2 (0 : Fin 1) (0 : Fin 1)) (ix1 (0 : Fin 1)) (fun b => ?_)
    match b with
    | ⟨0, _⟩ => rfl

end Cert.ReferenceIdeal.RefReadDot

namespace Cert.ReferenceIdeal.RefRead

open Cert.ReferenceIdeal Cert.ReferenceIdeal.RefReadDot Cert.KerLayout
open Idealize.ShloMosaic Idealize.ShloMosaic.ValueIdx

/-- THE LOGIT of edge `e`. -/
theorem linArr_apply (a0 : IVec S300000x3 32) (a1 : FVec Ideal S2000x256 .f32) (a3 : FVec Ideal S50000x256 .f32)
    (a4 : FVec Ideal S1x512 .f32) (a5 : FVec Ideal S1 .f32) (e : Fin 300000) :
    RefValue.linArr (F := Ideal) a0 a1 a3 a4 a5 (ix1 e) = Cert.Spec.lin a0 a1 a3 a4 a5 e := by
  unfold RefValue.linArr Cert.Spec.lin
  refine (shapeCast_a1_a_apply _ _ e).trans ?_
  refine (addf_apply _ _ _).trans ?_
  refine congrArg₂ (· + ·) ?_ (bias_apply a5 e 0)
  refine (dotLin_apply _ _ e 0).trans ?_
  refine (sum_fin512 _).trans (congrArg₂ (· + ·) ?_ ?_)
  · refine Finset.sum_congr rfl fun k _ => congrArg₂ (· * ·) ?_ (transpose_ix2_apply a4 _ _ _)
    exact (cat_left _ _ e k).trans (entG_apply a0 a3 e k)
  · refine Finset.sum_congr rfl fun k _ => congrArg₂ (· * ·) ?_ (transpose_ix2_apply a4 _ _ _)
    exact (cat_right _ _ e k).trans (attG_apply a0 a1 e k)

/-- THE SCORE of edge `e`. -/
theorem scoreArr_apply (a0 : IVec S300000x3 32) (a1 : FVec Ideal S2000x256 .f32) (a3 : FVec Ideal S50000x256 .f32)
    (a4 : FVec Ideal S1x512 .f32) (a5 : FVec Ideal S1 .f32) (e : Fin 300000) :
    RefValue.scoreArr (F := Ideal) a0 a1 a3 a4 a5 (ix1 e) = Cert.Spec.score a0 a1 a3 a4 a5 e := by
  unfold RefValue.scoreArr RefValue.lreluArr Cert.Spec.score
  refine congrArg Ideal.exp ?_
  refine (select_oge_eq_lrelu (RefValue.linArr (F := Ideal) a0 a1 a3 a4 a5 (ix1 e))).trans ?_
  rw [linArr_apply]

/-- THE PROJECTION of edge `e` at column `j`. -/
theorem projArr_apply (a0 : IVec S300000x3 32) (a1 : FVec Ideal S2000x256 .f32) (a2 : FVec Ideal S100000x256 .f32)
    (a6 : FVec Ideal S512x256 .f32) (e : Fin 300000) (j : Fin 256) :
    RefValue.projArr (F := Ideal) a0 a1 a2 a6 (ix2 e j) = Cert.Spec.proj a0 a1 a2 a6 e j := by
  unfold RefValue.projArr Cert.Spec.proj
  refine (dotProj_apply _ _ e j).trans ?_
  refine (sum_fin512 _).trans (congrArg₂ (· + ·) ?_ ?_)
  · refine Finset.sum_congr rfl fun k _ => congrArg (fun t => t * a6 (ix2 (⟨k.val, by omega⟩ : Fin 512) j)) ?_
    exact (cat_left _ _ e k).trans (attG_apply a0 a1 e k)
  · refine Finset.sum_congr rfl fun k _ => congrArg (fun t => t * a6 (ix2 (⟨256 + k.val, by omega⟩ : Fin 512) j)) ?_
    exact (cat_right _ _ e k).trans (valG_apply a0 a2 e k)

end Cert.ReferenceIdeal.RefRead

end
-- ==== Proof.RefReadTail.lean ====
/-
  THE REFERENCE'S LAST STAGES READ AT ONE INDEX, in the specification's terms: the row sums (a segment sum of the scores
  by head word into zeros), the attention (the score over the row sum read at the wrapped, clamped head word), the
  projection scaled by the attention, the attended features (a segment sum of the scaled rows by head word into zeros),
  the exponential linear unit, and the result array as a whole.
-/
import proofs.«175619_j26620207300627_2_alg».proof.Proof.RefStages
import proofs.«175619_j26620207300627_2_alg».proof.Proof.RefReadDot
import proofs.«175619_j26620207300627_2_alg».proof.Proof.KerLayout
import proofs.«175619_j26620207300627_2_alg».proof.Proof.Spec
import proofs.«175619_j26620207300627_2_alg».proof.Proof.LibScatterGather
import Idealize.ShloMosaic.PureOps.Ideal.Laws

set_option maxRecDepth 16384

noncomputable section

open scoped BigOperators

namespace Cert.ReferenceIdeal.RefValue

open Cert.ReferenceIdeal Cert.KerLayout Cert.Lib.ScatterGather
open Idealize.ShloMosaic Idealize.ShloMosaic.ValueIdx
open Facts₀ Facts

/-! ## The printed dimension numbers are the generic ones -/

theorem gatherSum_eq : gather_S50000_S300000x1_S300000_n_0_n_n_0_1_1
    = flatGatherDims 50000 300000 gather_S50000_S300000x1_S300000_n_0_n_n_0_1_1_wf := rfl
theorem scatterSum_eq : scatter_S50000_S300000x1_S300000_n_0_0_1
    = flatScatterDims 50000 300000 scatter_S50000_S300000x1_S300000_n_0_0_1_wf := rfl
theorem scatterFeats_eq : scatter_S50000x256_S300000x1_S300000x256_1_0_0_1
    = rowScatterDims 50000 300000 256 scatter_S50000x256_S300000x1_S300000x256_1_0_0_1_wf := rfl

/-! ## The stages at an index -/

/-- The head words as a column of start words: the raw head word of the edge. -/
theorem headCol_apply (a0 : IVec S300000x3 32) (e : Fin 300000) :
    headCol a0 (ix2 e (0 : Fin 1)) = a0 (ix2 e (0 : Fin 3)) := by
  unfold headCol
  rw [bcast_col_apply]
  exact RefReadDot.headWords_apply a0 e

/-- The scores summed by head word, at row `v`. -/
theorem rowSumArr_apply (a0 : IVec S300000x3 32) (a1 : FVec Ideal S2000x256 .f32) (a3 : FVec Ideal S50000x256 .f32)
    (a4 : FVec Ideal S1x512 .f32) (a5 : FVec Ideal S1 .f32) (v : Fin 50000) :
    rowSumArr (F := Ideal) a0 a1 a3 a4 a5 (ix1 v) = Cert.Spec.rowSum a0 a1 a3 a4 a5 v := by
  unfold rowSumArr Cert.Spec.rowSum Cert.Spec.edgesOf
  rw [scatterSum_eq, scatterAdd_flat_apply]
  refine congrArg₂ (· + ·) ?_ ?_
  · show Ideal.ofBits .f32 0x00000000#32 = 0
    exact Ideal.ofBits_zero_f32
  · simp only [headCol_apply, RefRead.scoreArr_apply]

theorem hostDivf_apply (a b : FVec Ideal S300000 .f32) (e : Fin 300000) :
    Host.divf a b (ix1 e) = Ideal.div (a (ix1 e)) (b (ix1 e)) := rfl

/-- The attention of edge `e`. -/
theorem attnArr_apply (a0 : IVec S300000x3 32) (a1 : FVec Ideal S2000x256 .f32) (a3 : FVec Ideal S50000x256 .f32)
    (a4 : FVec Ideal S1x512 .f32) (a5 : FVec Ideal S1 .f32) (e : Fin 300000) :
    attnArr (F := Ideal) a0 a1 a3 a4 a5 (ix1 e) = Cert.Spec.attn a0 a1 a3 a4 a5 e := by
  unfold attnArr Cert.Spec.attn
  rw [hostDivf_apply, RefRead.scoreArr_apply, gatherSum_eq, gather_flat_apply (by norm_num)]
  refine congrArg (fun r => Ideal.div (Cert.Spec.score a0 a1 a3 a4 a5 e) r) ?_
  refine Eq.trans (congrArg (fun r => rowSumArr (F := Ideal) a0 a1 a3 a4 a5 (ix1 r)) (Fin.ext ?_))
    (rowSumArr_apply a0 a1 a3 a4 a5 (Cert.Spec.entRow a0 e))
  show min (wrapIdx 50000#32 (headWords a0) (ix2 e (0 : Fin 1))).toInt.toNat (50000 - 1)
    = min (Cert.Spec.wrap 50000#32 (a0 (ix2 e (0 : Fin 3)))).toInt.toNat (50000 - 1)
  rw [RefReadDot.wrapIdx_apply, RefReadDot.headWords_apply]

/-- A flat array per edge repeated along the columns reads the edge's entry. -/
theorem colBcast_apply (x : FVec Ideal S300000 .f32) (e : Fin 300000) (j : Fin 256) :
    colBcast (F := Ideal) x (ix2 e j) = x (ix1 e) := by
  unfold colBcast
  rw [bcast_col_wide_apply, bcast_col_apply]

/-- The scaled projection of edge `e` at column `j`. -/
theorem scaledArr_apply (a0 : IVec S300000x3 32) (a1 : FVec Ideal S2000x256 .f32) (a2 : FVec Ideal S100000x256 .f32)
    (a3 : FVec Ideal S50000x256 .f32) (a4 : FVec Ideal S1x512 .f32) (a5 : FVec Ideal S1 .f32) (a6 : FVec Ideal S512x256 .f32)
    (e : Fin 300000) (j : Fin 256) :
    scaledArr (F := Ideal) a0 a1 a2 a3 a4 a5 a6 (ix2 e j)
      = Cert.Spec.proj a0 a1 a2 a6 e j * Cert.Spec.attn a0 a1 a3 a4 a5 e := by
  unfold scaledArr
  rw [mulf_apply, colBcast_apply, RefRead.projArr_apply, attnArr_apply]

/-- The attended features at `(v, j)`. -/
theorem featsArr_apply (a0 : IVec S300000x3 32) (a1 : FVec Ideal S2000x256 .f32) (a2 : FVec Ideal S100000x256 .f32)
    (a3 : FVec Ideal S50000x256 .f32) (a4 : FVec Ideal S1x512 .f32) (a5 : FVec Ideal S1 .f32) (a6 : FVec Ideal S512x256 .f32)
    (v : Fin 50000) (j : Fin 256) :
    featsArr (F := Ideal) a0 a1 a2 a3 a4 a5 a6 (ix2 v j) = Cert.Spec.feats a0 a1 a2 a3 a4 a5 a6 v j := by
  unfold featsArr Cert.Spec.feats Cert.Spec.edgesOf
  rw [scatterFeats_eq, scatterAdd_rows_apply]
  refine congrArg₂ (· + ·) ?_ ?_
  · show Ideal.ofBits .f32 0x00000000#32 = 0
    exact Ideal.ofBits_zero_f32
  · simp only [headCol_apply, scaledArr_apply]

/-- The exponential linear unit, one element. -/
theorem eluArr_apply (x : FVec Ideal S50000x256 .f32) (i : S50000x256.Idx) : eluArr (F := Ideal) x i = Cert.Spec.eluS (x i) := rfl

/-- THE REFERENCE'S RESULT IS THE SPECIFICATION'S, as arrays. -/
theorem refOut_eq_spec (a0 : IVec S300000x3 32) (a1 : FVec Ideal S2000x256 .f32) (a2 : FVec Ideal S100000x256 .f32)
    (a3 : FVec Ideal S50000x256 .f32) (a4 : FVec Ideal S1x512 .f32) (a5 : FVec Ideal S1 .f32) (a6 : FVec Ideal S512x256 .f32) :
    refOut (F := Ideal) a0 a1 a2 a3 a4 a5 a6 = Cert.Spec.out a0 a1 a2 a3 a4 a5 a6 := by
  funext i
  obtain ⟨v, j, rfl⟩ : ∃ (v : Fin 50000) (j : Fin 256), i = ix2 v j := ⟨i 0, i 1, eq_ix2 i⟩
  rw [Cert.Spec.out_apply]
  unfold refOut
  rw [eluArr_apply, addf_apply, featsArr_apply]

end Cert.ReferenceIdeal.RefValue

end
-- ==== Proof.RefValue.lean ====
/-
  THE REFERENCE'S RUN, ITS RESULT THE SPECIFICATION: every weakly fair execution of the reference program terminates
  with the result buffer holding the specified array of the seven argument arrays, and the arguments unchanged. The
  run leaves every buffer at the fold of the operations over the launch contents; the fold at the result buffer is the
  composition of the named stages; and the stages, read index by index, are the specification.
-/
import proofs.«175619_j26620207300627_2_alg».proof.Proof.RefFold
import proofs.«175619_j26620207300627_2_alg».proof.Proof.RefReadTail

noncomputable section

namespace Cert.ReferenceIdeal.RefValue

open Cert.ReferenceIdeal Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56)
          = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c =>
      ⟨((h c main_v56).trans (out_eq (launchContents m c))).trans (refOut_eq_spec _ _ _ _ _ _ _),
        (h c main_arg0).trans (arg0_eq _), (h c main_arg1).trans (arg1_eq _), (h c main_arg2).trans (arg2_eq _),
        (h c main_arg3).trans (arg3_eq _), (h c main_arg4).trans (arg4_eq _), (h c main_arg5).trans (arg5_eq _),
        (h c main_arg6).trans (arg6_eq _)⟩)
    (run_main m ρ)

end Cert.ReferenceIdeal.RefValue

end
-- ==== Proof.lean ====
/-
  THE CERTIFICATE: a graph-attention layer over 300000 attributed edges, computed two ways, gives one result.

  Both programs gather, per edge, an entity row, an attribute row and a value row (a negative index wrapped once, the
  gather clamping), form the score exp(leaky_relu(⟨entity row ‖ attribute row, a⟩ + b)), sum the scores by head entity
  (a head word that is not a row of the table adds nothing), divide each score by the sum of its entity, project
  ⟨attribute row ‖ value row⟩ through the weight matrix, scale by the attention, sum by head entity, add the entity
  features and apply the exponential linear unit.

  The reference does this on 300000 edges with each inner product over 512 columns taken whole. The kernel program pads
  the edges to 301056 = 147 · 2048 with zero rows and head word 0, computes scores and projections in 147 blocks — each
  512-column inner product as the sum of two 256-column ones — and masks the padding before both sums. Over the extended
  reals the two agree index by index: a 512-term sum is the sum of its halves (addition there is commutative and
  associative), the leaky rectifier's two spellings (`0 < s` against `0 ≤ s`) differ only at `s = 0`, where both give `0`,
  a masked padded score adds `0` to row 0 of the sums, and a padded projection is scaled by the attention `0`. No
  finiteness of the inputs is used.

  Both run theorems end at the same specification term (Proof/Spec.lean); the three frame claims are the generated
  frames (the reference's: its run with the result forgotten); the idealization rewrote nothing, so `preserves` is trivial.
-/
import proofs.«175619_j26620207300627_2_alg».proof.Defs
import proofs.«175619_j26620207300627_2_alg».proof.Proof.Gen.Kernel.Frame
import proofs.«175619_j26620207300627_2_alg».proof.Proof.Gen.KernelIdeal.Frame
import proofs.«175619_j26620207300627_2_alg».proof.Proof.Gen.ReferenceIdeal
import proofs.«175619_j26620207300627_2_alg».proof.Proof.Gen.Pre_finite_inputs
import proofs.«175619_j26620207300627_2_alg».proof.Proof.KerValue
import proofs.«175619_j26620207300627_2_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.RefValue.run m ρ)

/-- From memories that agree on the seven argument arrays both programs end with the specification's result array of
    those arrays. -/
theorem algebraic : Cert.algebraic_KernelIdeal_ReferenceIdeal := by
  intro m ρ m' ρ' _ hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.KerValue.run m ρ, ?_⟩
  refine (θ_run Cert.ReferenceIdeal.defs _ _).mono (fun _ h c => ⟨?_, (h c).2⟩)
    (Cert.ReferenceIdeal.RefValue.run m' ρ')
  obtain ⟨e0, e1, e2, e3, e4, e5, e6⟩ := hagree c
  rw [(h c).1, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
